-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S256x256 : Shape := ⟨2, ![256, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S8192x256 .f32) (main_arg1 : FVec F S256x256 .f32) (main_arg2 : FVec F S256x256 .f32) (main_arg3 : FVec F S256x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S8192x256 : Shape := ⟨2, ![8192, 256]⟩
abbrev S256x256 : Shape := ⟨2, ![256, 256]⟩
abbrev S_ : Shape := ⟨0, ![]⟩
abbrev S1024x256 : Shape := ⟨2, ![1024, 256]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 10
  | .vmem => 21
  | .smem => 0
  | _ => 0

abbrev bufTy : (tb : Table) → Fin (tcTables nBuf tb) → BufTy
  | .hbm, ⟨0, _⟩ => ⟨S8192x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S8192x256, .bf16⟩
  | .hbm, ⟨8, _⟩ => ⟨S8192x256, .bf16⟩
  | .hbm, ⟨9, _⟩ => ⟨S8192x256, .f32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S256x256, .f32⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .f32⟩
  | .local _ .vmem, ⟨9, _⟩ => ⟨S1024x256, .f32⟩
  | .local _ .vmem, ⟨10, _⟩ => ⟨S256x256, .f32⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .f32⟩
  | .local _ .vmem, ⟨16, _⟩ => ⟨S1024x256, .f32⟩
  | .local _ .vmem, ⟨17, _⟩ => ⟨S1024x1, .f32⟩
  | .local _ .vmem, ⟨18, _⟩ => ⟨S1024x1, .f32⟩
  | .local _ .vmem, ⟨19, _⟩ => ⟨S1024x256, .f32⟩
  | .local _ .vmem, ⟨20, _⟩ => ⟨S1024x256, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc1_scratch3 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_23 : BitVec 32 := 0#32
  let v41 : BitVec 1 := Scalar.cmpi .ne v40 c0_i32_23
  v41

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  bcast_S_S256x256 : S_.BroadcastsInDim S256x256 (![] : Fin 0 → Fin S256x256.rank)
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  packedbf16_S1024x256_S1024x256_0_0 : (Rect.unit (s := S1024x256) ![0, 0] S1024x256.size inb_S1024x256_S1024x256_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x256_S1024x256 : S1024x256.ShapeCasts S1024x256
  shapeCasts_S256x256_S256x256 : S256x256.ShapeCasts S256x256
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x256 : S1024x1.Broadcasts S1024x256
  dot_S1024x256_S256x256_S1024x256_1_0_0_1_n_n_wf : DotDims.WF S1024x256 S256x256 S1024x256 [1] [0] [0] [1] [] []
  dot_S1024x256_S1024x256_S1024x1024_1_1_0_0_n_n_wf : DotDims.WF S1024x256 S1024x256 S1024x1024 [1] [1] [0] [0] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .bf16 = 32 ∨ (Rect.block (s := S8192x256) S1024x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .bf16 = 32 ∨ (Rect.block (s := S8192x256) S1024x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .bf16 = 32 ∨ (Rect.block (s := S8192x256) S1024x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x256.size a
  hwx1_3 : ∀ i : grid1.Coords, EltTy.bits .bf16 = 32 ∨ (Rect.block (s := S8192x256) S1024x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S8192x256.size a
  hwx1_4 : ∀ i : grid1.Coords, EltTy.bits .f32 = 32 ∨ (Rect.block (s := S8192x256) S1024x256.size (cc1_transform_4 i) (hinb1_4 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1024x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2_0) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_1) S1024x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S256x256 : Shape := ⟨2, ![256, 256]⟩
abbrev S256x8192 : Shape := ⟨2, ![256, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S256x8192, .f32⟩
  | .hbm, ⟨8, _⟩ => ⟨S8192x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192x1, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x8192, .f32⟩
  | .hbm, ⟨28, _⟩ => ⟨S8192x8192, .f32⟩
  | .hbm, ⟨29, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x256_S256x256_S8192x256_1_0_0_1_n_n_wf : DotDims.WF S8192x256 S256x256 S8192x256 [1] [0] [0] [1] [] []
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.KI.R0.lean ====
/-
  The first kernel region (the key and value projections), at any float instance and at any contents V of the
  TensorCore's buffers when the region is entered.

  The grid has 8 points; point t stages rows 1024 t .. 1024 t + 1023 of the sequence array (window 0), the two whole
  256 x 256 weight matrices (windows 1 and 2, fetched once), and writes back one 1024 x 256 block of each projected
  array (windows 3 and 4).  The body loads the three input blocks whole and stores, into each output block, ONE
  whole-block value: the product of the (narrowed) sequence block with the (narrowed) weight matrix, narrowed again.
  So after the body each output staging buffer holds that product as a function of the input blocks (out3, out4),
  every input buffer still holds its block, and nothing else is touched.  This module states that as the body's
  triple, packages it as the pipeline's proof data (dat0) and proves the per-point body obligation.
-/
import proofs.«146421_j33767032881830_2_alg».proof.Proof.Gen.KernelIdeal.Launch
import proofs.«146421_j33767032881830_2_alg».proof.Proof.Gen.KernelIdeal.Skeleton
import proofs.«146421_j33767032881830_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole 1024 x 256 block and the whole 256 x 256 matrix, as rectangles. -/
abbrev rBlk : Rect S1024x256 := Rect.unit (s := S1024x256) ![0, 0] S1024x256.size inb_S1024x256_S1024x256_0_0
abbrev rMat : Rect S256x256 := Rect.unit (s := S256x256) ![0, 0] S256x256.size inb_S256x256_S256x256_0_0

/-- What the body leaves in the key projection's block: the product of the sequence block and the key weights. -/
def out3 (x0 : Vec F S1024x256 .f32) (x1 : Vec F S256x256 .f32) : Vec F S1024x256 .bf16 :=
  View.canon [⟨rBlk, k0_pay2 (View.ld x0 rBlk) (View.ld x1 rMat)⟩]
/-- What the body leaves in the value projection's block: the product of the sequence block and the value weights. -/
def out4 (x0 : Vec F S1024x256 .f32) (x2 : Vec F S256x256 .f32) : Vec F S1024x256 .bf16 :=
  View.canon [⟨rBlk, k0_pay3 (View.ld x0 rBlk) (View.ld x2 rMat)⟩]

/-- One whole-block store covers the block. -/
theorem coverBlk (p0 : Vec F S1024x256 .bf16) (y : S1024x256.Idx) :
    ∃ pc ∈ ([⟨rBlk, p0⟩] : List (View.Piece (Elt F) S1024x256 .bf16)), y ∈ pc.1.set :=
  View.cover_of_tiled [⟨rBlk, p0⟩] S1024x256.size (by rfl) y

set_option maxHeartbeats 1000000 in
/-- The body's triple: on whole staging buffers, the inputs' at contents x0 x1 x2 and the outputs' at anything, the body
    runs to the end without fault and leaves the inputs as they were and each output at its product. -/
theorem sound_kernel0 (c : Dev nD) (E : Set ℕ) (i : grid0.Coords)
    (arg1 : Memref sig .tc .vmem S1024x256 .f32) (harg1 : arg1.IsWhole) (arg2 : Memref sig .tc .vmem S256x256 .f32) (harg2 : arg2.IsWhole)
    (arg3 : Memref sig .tc .vmem S256x256 .f32) (harg3 : arg3.IsWhole) (arg4 : Memref sig .tc .vmem S1024x256 .bf16) (harg4 : arg4.IsWhole)
    (arg5 : Memref sig .tc .vmem S1024x256 .bf16) (harg5 : arg5.IsWhole)
    (x0 : Vec F S1024x256 .f32) (x1 x2 : Vec F S256x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1) ∗ owns (c : Thread nD τ) arg5 fullShare (out4 x0 x2)) -∗ K ⟨⟩))
      ⊢ wp frame (wpE (defs₀ (F := F)) Variants.none c none) E (cc0__kv_kernel i arg1 harg1 arg2 harg2 arg3 harg3 arg4 harg4 arg5 harg5) K := by
  simp only [cc0__kv_kernel_eq_skeleton]; unfold cc0__kv_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverBlk _)
  iexists _; isplitr
  swap; · iexact H4
  ipureintro
  exact View.read_writes_eq_canon _ _ _ (coverBlk _)

/-- The proof data of the first pipeline on core c: the arrays as the region finds them; after the body each input's
    buffer at its block and each output's at its product; nothing carried between points; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out3 (iblk0 V c 0 t) (iblk0 V c 1 t)
    | ⟨4, _⟩ => out4 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out3 (iblk0 V c 0 t) (iblk0 V c 1 t) := by dsimp only [dat0]
theorem after0_4 (c : Dev nD) (t : Fin cfg0.N) : (dat0 V c).after 4 t = out4 (iblk0 V c 0 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.KI.R1Runs.lean ====
/-
  The second kernel region (attention with a running softmax), shared definitions.

  The grid is 8 x 8: point t = 8 qi + ki works on query tile qi (rows 1024 qi ..) and key tile ki.  The body keeps four
  scratch buffers between points: the running row maximum m, the running normaliser l, the running accumulator acc and
  the projected query tile q.  It has two conditionals on the grid position: "ki = 0" (reset m, l, acc and project the
  query tile) and "ki = 7" (divide acc by l and store the output block).  A point is therefore in one of three cases:
  A (ki = 0), B (0 < ki < 7), C (ki = 7).  This module states the conditions in closed form over the grid, says where the
  output window is idle, names the staging and scratch buffers, and opens the region's generic invariant into the four
  scratch buffers, the first region's staging buffers (which this region never touches) and the generator register.
-/
import proofs.«146421_j33767032881830_2_alg».proof.Proof.Gen.KernelIdeal.Launch
import proofs.«146421_j33767032881830_2_alg».proof.Proof.Gen.KernelIdeal.Skeleton
import proofs.«146421_j33767032881830_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions, in closed form over the grid -/

/-- "The key tile is the first one": the reset-and-project branch is taken. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "The key tile is the last one": the normalise-and-store branch is taken. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last key tile the body stores nothing into the output block and the block is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last key tile the output block is stored. -/
theorem liveAt1_4 : ∀ t : Fin cfg1.N, cond1_1 (grid1.coords t) → cfg1.idle 4 (grid1.coords t) = false := by decide +kernel

/-! ## The buffers the body works on -/

abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .f32 := win1_4.stage (cfg1.slots t 4)
abbrev hs1_4 (t : Fin cfg1.N) : (ms1_4 t).IsWhole := hstage1_4 ((cfg1.slots t 4).cast nbuf1_4)
/-- The four scratch buffers: running maximum, running normaliser, running accumulator, projected query tile. -/
abbrev scM : Memref sig .tc .vmem S1024x1 .f32 := Memref.whole cc1_scratch0
abbrev scL : Memref sig .tc .vmem S1024x1 .f32 := Memref.whole cc1_scratch1
abbrev scA : Memref sig .tc .vmem S1024x256 .f32 := Memref.whole cc1_scratch2
abbrev scQ : Memref sig .tc .vmem S1024x256 .bf16 := Memref.whole cc1_scratch3
/-- Views through which the contents of the scratch buffers and of the output block are stated. -/
abbrev VSM : View sig .tc .vmem S1024x1 .f32 := scM.view
abbrev VSL : View sig .tc .vmem S1024x1 .f32 := scL.view
abbrev VSA : View sig .tc .vmem S1024x256 .f32 := scA.view
abbrev VSQ : View sig .tc .vmem S1024x256 .bf16 := scQ.view
abbrev VO4 : View sig .tc .vmem S1024x256 .f32 := (Memref.whole cc1_stg4_0 : Memref sig .tc .vmem S1024x256 .f32).view

/-- A resource beside the first region's eight staging buffers, each at some contents: this region never touches them. -/
abbrev withOthers (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ P)

/-- The region's generic invariant, opened: the first region's staging buffers at anything, the four scratch buffers at
    anything, the generator register at some state. -/
theorem PhiA1_eq (c : Dev nD) :
    (Pipeline.ΦA spec1 c : sProp 𝕄)
      = iprop(withOthers (F := F) c iprop((∃ d, owns (c : Thread nD τ) scM fullShare d) ∗ (∃ d, owns (c : Thread nD τ) scL fullShare d)
          ∗ (∃ d, owns (c : Thread nD τ) scA fullShare d) ∗ (∃ d, owns (c : Thread nD τ) scQ fullShare d)) ∗ (∃ r, prngReg c r)) := by
  unfold Pipeline.ΦA; rw [scopedRest1_eq]; simp only [scM, scL, scA, scQ, owns_whole, withOthers]
  rfl

end Cert.KernelIdeal.Fr

end
-- ==== Proof.KI.R1RunA.lean ====
/-
  The attention body at a point of case A (first key tile): the reset-and-project branch is taken, the
  normalise-and-store branch is not.  Whatever the four scratch buffers hold on entry, the body overwrites each of them
  whole (the pieces it writes are found by running it), leaves the four input blocks as they were and does not touch the
  output block.
-/
import proofs.«146421_j33767032881830_2_alg».proof.Proof.KI.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body writes into the four scratch buffers in case A, with the body's triple. -/
noncomputable def kernelRun1_A (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (arg10 : Memref sig .tc .vmem S1024x256 .bf16) (harg10 : arg10.IsWhole) (hc0 : cond1_0 i) (hc1 : ¬cond1_1 i)
    (x0 : Vec F S1024x256 .f32) (x1 : Vec F S256x256 .f32) (x2 x3 : Vec F S1024x256 .bf16) :
    Σ' (LS0 : List (View.Piece (Elt F) S1024x1 .f32)) (LS1 : List (View.Piece (Elt F) S1024x1 .f32)) (LS2 : List (View.Piece (Elt F) S1024x256 .f32)), { LS3 : List (View.Piece (Elt F) S1024x256 .bf16) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9 arg10 harg10) K } := by
  refine ⟨?_, ?_, ?_, ?_, fun xi4 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Fr

end
-- ==== Proof.KI.R1RunB.lean ====
/-
  The attention body at a point of case B (a key tile that is neither first nor last): neither branch is taken.  From
  the scratch contents the point before left (running maximum, normaliser, accumulator; projected query tile) the body
  rewrites the first three whole, leaves the projected query tile and the four input blocks as they were and does not
  touch the output block.
-/
import proofs.«146421_j33767032881830_2_alg».proof.Proof.KI.R1RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body writes into the maximum, normaliser and accumulator in case B, with the body's triple. -/
noncomputable def kernelRun1_B (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (arg10 : Memref sig .tc .vmem S1024x256 .bf16) (harg10 : arg10.IsWhole) (hc0 : ¬cond1_0 i) (hc1 : ¬cond1_1 i)
    (x0 : Vec F S1024x256 .f32) (x1 : Vec F S256x256 .f32) (x2 x3 : Vec F S1024x256 .bf16)
    (xs0 xs1 : Vec F S1024x1 .f32) (xs2 : Vec F S1024x256 .f32) (xs3 : Vec F S1024x256 .bf16) :
    Σ' (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ owns (c : Thread nD τ) arg10 fullShare xs3) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9 arg10 harg10) K } := by
  refine ⟨?_, ?_, ?_, fun xi4 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; isplitr; · ipureintro; exact harg10.read_unread _
    iexact HS3

end Cert.KernelIdeal.Fr

end
-- ==== Proof.KI.R1RunC.lean ====
/-
  The attention body at a point of case C (last key tile): the reset branch is not taken, the normalise-and-store branch
  is.  As in case B the body rewrites the running maximum, normaliser and accumulator whole from what the point before
  left; then it stores the quotient accumulator / normaliser into the output block, whole.
-/
import proofs.«146421_j33767032881830_2_alg».proof.Proof.KI.R1RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body writes into the output block and into the maximum, normaliser and accumulator in case C, with
    the body's triple. -/
noncomputable def kernelRun1_C (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (arg10 : Memref sig .tc .vmem S1024x256 .bf16) (harg10 : arg10.IsWhole) (hc0 : ¬cond1_0 i) (hc1 : cond1_1 i)
    (x0 : Vec F S1024x256 .f32) (x1 : Vec F S256x256 .f32) (x2 x3 : Vec F S1024x256 .bf16)
    (xs0 xs1 : Vec F S1024x1 .f32) (xs2 : Vec F S1024x256 .f32) (xs3 : Vec F S1024x256 .bf16) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ owns (c : Thread nD τ) arg10 fullShare xs3) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    iexists _; isplitr; · ipureintro; exact harg10.read_unread _
    iexact HS3

end Cert.KernelIdeal.Fr

end
-- ==== Proof.KI.R1.lean ====
/-
  The second kernel region (attention with a running softmax): what the scratch buffers and the output block hold after
  every grid point, and the per-point body obligation.

  After point t the four scratch buffers hold a state (running maximum, normaliser, accumulator, projected query tile)
  defined by recursion on t: at a first key tile (t = 0 mod 8) it is what the reset-and-project case leaves, computed
  from the point's input blocks alone; otherwise it is what the update case leaves, computed from the input blocks and
  the state after point t - 1; at a last key tile (t = 7 mod 8) the output block moreover holds accumulator /
  normaliser.  The region's invariant before point t > 0 is: the scratch buffers hold the state after point t - 1
  (before point 0: anything).  The body obligation is then the body's triple in the point's case.
-/
import proofs.«146421_j33767032881830_2_alg».proof.Proof.KI.R1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The conditions from the closed forms -/

theorem cA0 (t : Fin cfg1.N) (h0 : t.val % 8 = 0) : cond1_0 (grid1.coords t) := (hcond1_0 t).mpr h0
theorem cA1 (t : Fin cfg1.N) (h0 : t.val % 8 = 0) : ¬cond1_1 (grid1.coords t) := fun h => by have := (hcond1_1 t).mp h; omega
theorem cB0 (t : Fin cfg1.N) (h0 : ¬t.val % 8 = 0) : ¬cond1_0 (grid1.coords t) := fun h => h0 ((hcond1_0 t).mp h)
theorem cB1 (t : Fin cfg1.N) (h7 : ¬t.val % 8 = 7) : ¬cond1_1 (grid1.coords t) := fun h => h7 ((hcond1_1 t).mp h)
theorem cC1 (t : Fin cfg1.N) (h7 : t.val % 8 = 7) : cond1_1 (grid1.coords t) := (hcond1_1 t).mpr h7

/-! ## The body's run at a point, case by case, on the point's buffers and input blocks -/

/-- The state the scratch buffers hold: running maximum, normaliser, accumulator, projected query tile. -/
abbrev St : Type := (Vec F S1024x1 .f32 × Vec F S1024x1 .f32 × Vec F S1024x256 .f32 × Vec F S1024x256 .bf16)

abbrev runA (c : Dev nD) (t : Fin cfg1.N) (h0 : t.val % 8 = 0) :=
  kernelRun1_A (F := F) c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) scQ (Memref.isWhole_whole _) (cA0 t h0) (cA1 t h0) (iblk1 V c 0 t) (iblk1 V c 1 t) (iblk1 V c 2 t) (iblk1 V c 3 t)
abbrev runB (c : Dev nD) (t : Fin cfg1.N) (h0 : ¬t.val % 8 = 0) (h7 : ¬t.val % 8 = 7) (p : (Vec F S1024x1 .f32 × Vec F S1024x1 .f32 × Vec F S1024x256 .f32 × Vec F S1024x256 .bf16)) :=
  kernelRun1_B (F := F) c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) scQ (Memref.isWhole_whole _) (cB0 t h0) (cB1 t h7) (iblk1 V c 0 t) (iblk1 V c 1 t) (iblk1 V c 2 t) (iblk1 V c 3 t) p.1 p.2.1 p.2.2.1 p.2.2.2
abbrev runC (c : Dev nD) (t : Fin cfg1.N) (h0 : ¬t.val % 8 = 0) (h7 : t.val % 8 = 7) (p : (Vec F S1024x1 .f32 × Vec F S1024x1 .f32 × Vec F S1024x256 .f32 × Vec F S1024x256 .bf16)) :=
  kernelRun1_C (F := F) c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) scQ (Memref.isWhole_whole _) (cB0 t h0) (cC1 t h7) (iblk1 V c 0 t) (iblk1 V c 1 t) (iblk1 V c 2 t) (iblk1 V c 3 t) p.1 p.2.1 p.2.2.1 p.2.2.2

/-! ## Every store covers its buffer -/

theorem covA_M (c : Dev nD) (t : Fin cfg1.N) (h0 : t.val % 8 = 0) (y : S1024x1.Idx) :
    ∃ pc ∈ (runA V c t h0).1, y ∈ pc.1.set :=
  View.cover_of_tiledL (runA V c t h0).1 S1024x1.size (by sl_kernel_rfl) y
theorem covA_L (c : Dev nD) (t : Fin cfg1.N) (h0 : t.val % 8 = 0) (y : S1024x1.Idx) :
    ∃ pc ∈ (runA V c t h0).2.1, y ∈ pc.1.set :=
  View.cover_of_tiledL (runA V c t h0).2.1 S1024x1.size (by sl_kernel_rfl) y
theorem covA_A (c : Dev nD) (t : Fin cfg1.N) (h0 : t.val % 8 = 0) (y : S1024x256.Idx) :
    ∃ pc ∈ (runA V c t h0).2.2.1, y ∈ pc.1.set :=
  View.cover_of_tiledL (runA V c t h0).2.2.1 S1024x256.size (by sl_kernel_rfl) y
theorem covA_Q (c : Dev nD) (t : Fin cfg1.N) (h0 : t.val % 8 = 0) (y : S1024x256.Idx) :
    ∃ pc ∈ (runA V c t h0).2.2.2.1, y ∈ pc.1.set :=
  View.cover_of_tiledL (runA V c t h0).2.2.2.1 S1024x256.size (by sl_kernel_rfl) y
theorem covB_M (c : Dev nD) (t : Fin cfg1.N) (h0 : ¬t.val % 8 = 0) (h7 : ¬t.val % 8 = 7) (p : (Vec F S1024x1 .f32 × Vec F S1024x1 .f32 × Vec F S1024x256 .f32 × Vec F S1024x256 .bf16)) (y : S1024x1.Idx) :
    ∃ pc ∈ (runB V c t h0 h7 p).1, y ∈ pc.1.set :=
  View.cover_of_tiledL (runB V c t h0 h7 p).1 S1024x1.size (by sl_kernel_rfl) y
theorem covB_L (c : Dev nD) (t : Fin cfg1.N) (h0 : ¬t.val % 8 = 0) (h7 : ¬t.val % 8 = 7) (p : (Vec F S1024x1 .f32 × Vec F S1024x1 .f32 × Vec F S1024x256 .f32 × Vec F S1024x256 .bf16)) (y : S1024x1.Idx) :
    ∃ pc ∈ (runB V c t h0 h7 p).2.1, y ∈ pc.1.set :=
  View.cover_of_tiledL (runB V c t h0 h7 p).2.1 S1024x1.size (by sl_kernel_rfl) y
theorem covB_A (c : Dev nD) (t : Fin cfg1.N) (h0 : ¬t.val % 8 = 0) (h7 : ¬t.val % 8 = 7) (p : (Vec F S1024x1 .f32 × Vec F S1024x1 .f32 × Vec F S1024x256 .f32 × Vec F S1024x256 .bf16)) (y : S1024x256.Idx) :
    ∃ pc ∈ (runB V c t h0 h7 p).2.2.1, y ∈ pc.1.set :=
  View.cover_of_tiledL (runB V c t h0 h7 p).2.2.1 S1024x256.size (by sl_kernel_rfl) y
theorem covC_O (c : Dev nD) (t : Fin cfg1.N) (h0 : ¬t.val % 8 = 0) (h7 : t.val % 8 = 7) (p : (Vec F S1024x1 .f32 × Vec F S1024x1 .f32 × Vec F S1024x256 .f32 × Vec F S1024x256 .bf16)) (y : S1024x256.Idx) :
    ∃ pc ∈ (runC V c t h0 h7 p).1, y ∈ pc.1.set :=
  View.cover_of_tiledL (runC V c t h0 h7 p).1 S1024x256.size (by sl_kernel_rfl) y
theorem covC_M (c : Dev nD) (t : Fin cfg1.N) (h0 : ¬t.val % 8 = 0) (h7 : t.val % 8 = 7) (p : (Vec F S1024x1 .f32 × Vec F S1024x1 .f32 × Vec F S1024x256 .f32 × Vec F S1024x256 .bf16)) (y : S1024x1.Idx) :
    ∃ pc ∈ (runC V c t h0 h7 p).2.1, y ∈ pc.1.set :=
  View.cover_of_tiledL (runC V c t h0 h7 p).2.1 S1024x1.size (by sl_kernel_rfl) y
theorem covC_L (c : Dev nD) (t : Fin cfg1.N) (h0 : ¬t.val % 8 = 0) (h7 : t.val % 8 = 7) (p : (Vec F S1024x1 .f32 × Vec F S1024x1 .f32 × Vec F S1024x256 .f32 × Vec F S1024x256 .bf16)) (y : S1024x1.Idx) :
    ∃ pc ∈ (runC V c t h0 h7 p).2.2.1, y ∈ pc.1.set :=
  View.cover_of_tiledL (runC V c t h0 h7 p).2.2.1 S1024x1.size (by sl_kernel_rfl) y
theorem covC_A (c : Dev nD) (t : Fin cfg1.N) (h0 : ¬t.val % 8 = 0) (h7 : t.val % 8 = 7) (p : (Vec F S1024x1 .f32 × Vec F S1024x1 .f32 × Vec F S1024x256 .f32 × Vec F S1024x256 .bf16)) (y : S1024x256.Idx) :
    ∃ pc ∈ (runC V c t h0 h7 p).2.2.2.1, y ∈ pc.1.set :=
  View.cover_of_tiledL (runC V c t h0 h7 p).2.2.2.1 S1024x256.size (by sl_kernel_rfl) y

/-! ## What each case leaves -/

/-- The scratch state a first-key-tile point leaves. -/
def stA (c : Dev nD) (t : Fin cfg1.N) (h0 : t.val % 8 = 0) : St (F := F) :=
  (VSM.read (Elt F) (VSM.writes (Elt F) VSM.junk (runA V c t h0).1), VSL.read (Elt F) (VSL.writes (Elt F) VSL.junk (runA V c t h0).2.1), VSA.read (Elt F) (VSA.writes (Elt F) VSA.junk (runA V c t h0).2.2.1), VSQ.read (Elt F) (VSQ.writes (Elt F) VSQ.junk (runA V c t h0).2.2.2.1))
/-- The scratch state a middle point leaves, from the state p the point before left. -/
def stB (c : Dev nD) (t : Fin cfg1.N) (h0 : ¬t.val % 8 = 0) (h7 : ¬t.val % 8 = 7) (p : (Vec F S1024x1 .f32 × Vec F S1024x1 .f32 × Vec F S1024x256 .f32 × Vec F S1024x256 .bf16)) : St (F := F) :=
  (VSM.read (Elt F) (VSM.writes (Elt F) VSM.junk (runB V c t h0 h7 p).1), VSL.read (Elt F) (VSL.writes (Elt F) VSL.junk (runB V c t h0 h7 p).2.1), VSA.read (Elt F) (VSA.writes (Elt F) VSA.junk (runB V c t h0 h7 p).2.2.1), p.2.2.2)
/-- The scratch state a last-key-tile point leaves, from the state p the point before left. -/
def stC (c : Dev nD) (t : Fin cfg1.N) (h0 : ¬t.val % 8 = 0) (h7 : t.val % 8 = 7) (p : (Vec F S1024x1 .f32 × Vec F S1024x1 .f32 × Vec F S1024x256 .f32 × Vec F S1024x256 .bf16)) : St (F := F) :=
  (VSM.read (Elt F) (VSM.writes (Elt F) VSM.junk (runC V c t h0 h7 p).2.1), VSL.read (Elt F) (VSL.writes (Elt F) VSL.junk (runC V c t h0 h7 p).2.2.1), VSA.read (Elt F) (VSA.writes (Elt F) VSA.junk (runC V c t h0 h7 p).2.2.2.1), p.2.2.2)
/-- The output block a last-key-tile point leaves. -/
def outC (c : Dev nD) (t : Fin cfg1.N) (h0 : ¬t.val % 8 = 0) (h7 : t.val % 8 = 7) (p : (Vec F S1024x1 .f32 × Vec F S1024x1 .f32 × Vec F S1024x256 .f32 × Vec F S1024x256 .bf16)) : Vec F S1024x256 .f32 :=
  VO4.read (Elt F) (VO4.writes (Elt F) VO4.junk (runC V c t h0 h7 p).1)
/-- A placeholder for the output block at the points that store nothing into it (never consulted: the block is neither
    written back nor read there). -/
def outIdle : Vec F S1024x256 .f32 := VO4.read (Elt F) (VO4.writes (Elt F) VO4.junk [])

/-! ## What the buffers hold after each point -/

/-- The output block and the scratch state after the body at position n, by recursion on n. -/
def outsAt1 (c : Dev nD) : (n : ℕ) → n < cfg1.N → Vec F S1024x256 .f32 × St (F := F)
  | 0, hn => (outIdle, stA V c ⟨0, hn⟩ (Nat.zero_mod _))
  | n + 1, hn =>
    if h0 : (n + 1) % 8 = 0 then (outIdle, stA V c ⟨n + 1, hn⟩ h0)
    else if h7 : (n + 1) % 8 = 7 then
      (outC V c ⟨n + 1, hn⟩ h0 h7 (outsAt1 c n (Nat.lt_of_succ_lt hn)).2, stC V c ⟨n + 1, hn⟩ h0 h7 (outsAt1 c n (Nat.lt_of_succ_lt hn)).2)
    else (outIdle, stB V c ⟨n + 1, hn⟩ h0 h7 (outsAt1 c n (Nat.lt_of_succ_lt hn)).2)

/-- The state after the point before t (t not the first point). -/
abbrev prevSt (c : Dev nD) (t : Fin cfg1.N) : St (F := F) :=
  (outsAt1 V c (t.val - 1) (Nat.lt_of_le_of_lt (Nat.sub_le _ _) t.isLt)).2

theorem outsAt1_A (c : Dev nD) (t : Fin cfg1.N) (h0 : t.val % 8 = 0) :
    outsAt1 V c t.val t.isLt = (outIdle, stA V c t h0) := by
  obtain ⟨n, hn⟩ := t
  cases n with
  | zero => rfl
  | succ n => exact dif_pos h0
theorem outsAt1_B (c : Dev nD) (t : Fin cfg1.N) (h0 : ¬t.val % 8 = 0) (h7 : ¬t.val % 8 = 7) :
    outsAt1 V c t.val t.isLt = (outIdle, stB V c t h0 h7 (prevSt V c t)) := by
  obtain ⟨n, hn⟩ := t
  cases n with
  | zero => exact absurd (Nat.zero_mod _) h0
  | succ n => exact (dif_neg h0).trans (dif_neg h7)
theorem outsAt1_C (c : Dev nD) (t : Fin cfg1.N) (h0 : ¬t.val % 8 = 0) (h7 : t.val % 8 = 7) :
    outsAt1 V c t.val t.isLt = (outC V c t h0 h7 (prevSt V c t), stC V c t h0 h7 (prevSt V c t)) := by
  obtain ⟨n, hn⟩ := t
  cases n with
  | zero => exact absurd (Nat.zero_mod _) h0
  | succ n => exact (dif_neg h0).trans (dif_pos h7)

/-! ## The region's invariant -/

/-- Before position n: anything before the first point; afterwards the scratch buffers at the state the point before left. -/
def PhiS (c : Dev nD) : (n : ℕ) → n ≤ cfg1.N → sProp 𝕄
  | 0, _ => Pipeline.ΦA spec1 c
  | n + 1, hn => iprop(withOthers (F := F) c iprop(owns (c : Thread nD τ) scM fullShare (outsAt1 V c n hn).2.1 ∗ owns (c : Thread nD τ) scL fullShare (outsAt1 V c n hn).2.2.1
      ∗ owns (c : Thread nD τ) scA fullShare (outsAt1 V c n hn).2.2.2.1 ∗ owns (c : Thread nD τ) scQ fullShare (outsAt1 V c n hn).2.2.2.2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(withOthers (F := F) c iprop(owns (c : Thread nD τ) scM fullShare (outsAt1 V c n hn).2.1 ∗ owns (c : Thread nD τ) scL fullShare (outsAt1 V c n hn).2.2.1
      ∗ owns (c : Thread nD τ) scA fullShare (outsAt1 V c n hn).2.2.2.1 ∗ owns (c : Thread nD τ) scQ fullShare (outsAt1 V c n hn).2.2.2.2) ∗ (∃ r, prngReg c r)) := rfl
theorem PhiS_pos (c : Dev nD) (n : ℕ) (h : n ≤ cfg1.N) (hz : n ≠ 0) :
    PhiS V c n h = iprop(withOthers (F := F) c iprop(owns (c : Thread nD τ) scM fullShare (outsAt1 V c (n - 1) (by omega)).2.1 ∗ owns (c : Thread nD τ) scL fullShare (outsAt1 V c (n - 1) (by omega)).2.2.1
      ∗ owns (c : Thread nD τ) scA fullShare (outsAt1 V c (n - 1) (by omega)).2.2.2.1 ∗ owns (c : Thread nD τ) scQ fullShare (outsAt1 V c (n - 1) (by omega)).2.2.2.2) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves_in (c : Dev nD) (t : Fin cfg1.N) (w : Fin cfg1.W) (hl : cfg1.idle w (grid1.coords t) = false) :
    (dat1 V c).leavesExact w t = owns (c : Thread nD τ) ((cfg1.win w).stage (cfg1.slots t w)) fullShare ((dat1 V c).after w t) := by
  unfold Dat.leavesExact; rw [hl]

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves_in V c t 0 (liveAt1_0 t), leaves_in V c t 1 (liveAt1_1 t), leaves_in V c t 2 (liveAt1_2 t), leaves_in V c t 3 (liveAt1_3 t),
    after1_0, after1_1, after1_2, after1_3]
  have hN : t.val < 64 := lt_of_lt_of_eq t.isLt (show cfg1.N = 64 from N_1)
  by_cases h0 : t.val % 8 = 0
  · -- a first key tile
    rw [Dat.leavesExact_idle (dat1 V c) 4 t (idleAt1_4 t (cA1 t h0)) (noFlush1_4 t (cA1 t h0))]
    rw [outsAt1_A V c t h0]
    unfold stA; (try dsimp only)
    by_cases hz : t.val = 0
    · rw [PhiS_castSucc V c t, PhiS_zero V c _ _ hz, PhiA1_eq]
      iintro ⟨⟨⟨Ho0, Ho1, Ho2, Ho3, Ho4, Ho5, Ho6, Ho7, HS0, HS1, HS2, HS3⟩, Hg⟩, Ho, ⟨%d0, H0⟩, ⟨%d1, H1⟩, ⟨%d2, H2⟩, ⟨%d3, H3⟩, ⟨%d4, H4⟩⟩
      iapply ((runA V c t h0).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [Ho0 Ho1 Ho2 Ho3 Ho4 Ho5 Ho6 Ho7 HS0 HS1 HS2 HS3 Hg]
      · isplitr [Hg]
        ·
          isplitl [Ho0]; · iexact Ho0
          isplitl [Ho1]; · iexact Ho1
          isplitl [Ho2]; · iexact Ho2
          isplitl [Ho3]; · iexact Ho3
          isplitl [Ho4]; · iexact Ho4
          isplitl [Ho5]; · iexact Ho5
          isplitl [Ho6]; · iexact Ho6
          isplitl [Ho7]; · iexact Ho7
          isplitl [HS0]
          · unfold owns; iexists _; isplitr
            swap; · iexact HS0
            ipureintro; exact View.read_writes_of_cover _ _ _ _ _ (covA_M V c t h0)
          isplitl [HS1]
          · unfold owns; iexists _; isplitr
            swap; · iexact HS1
            ipureintro; exact View.read_writes_of_cover _ _ _ _ _ (covA_L V c t h0)
          isplitl [HS2]
          · unfold owns; iexists _; isplitr
            swap; · iexact HS2
            ipureintro; exact View.read_writes_of_cover _ _ _ _ _ (covA_A V c t h0)
          unfold owns; iexists _; isplitr
          swap; · iexact HS3
          ipureintro; exact View.read_writes_of_cover _ _ _ _ _ (covA_Q V c t h0)
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨Ho0, Ho1, Ho2, Ho3, Ho4, Ho5, Ho6, Ho7, HS0, HS1, HS2, HS3⟩, Hg⟩, Ho, ⟨%d0, H0⟩, ⟨%d1, H1⟩, ⟨%d2, H2⟩, ⟨%d3, H3⟩, ⟨%d4, H4⟩⟩
      iapply ((runA V c t h0).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, ⟨%es0, HS0⟩, ⟨%es1, HS1⟩, ⟨%es2, HS2⟩, ⟨%es3, HS3⟩⟩
      isplitl [Ho0 Ho1 Ho2 Ho3 Ho4 Ho5 Ho6 Ho7 HS0 HS1 HS2 HS3 Hg]
      · isplitr [Hg]
        ·
          isplitl [Ho0]; · iexact Ho0
          isplitl [Ho1]; · iexact Ho1
          isplitl [Ho2]; · iexact Ho2
          isplitl [Ho3]; · iexact Ho3
          isplitl [Ho4]; · iexact Ho4
          isplitl [Ho5]; · iexact Ho5
          isplitl [Ho6]; · iexact Ho6
          isplitl [Ho7]; · iexact Ho7
          isplitl [HS0]
          · unfold owns; iexists _; isplitr
            swap; · iexact HS0
            ipureintro; exact View.read_writes_of_cover _ _ _ _ _ (covA_M V c t h0)
          isplitl [HS1]
          · unfold owns; iexists _; isplitr
            swap; · iexact HS1
            ipureintro; exact View.read_writes_of_cover _ _ _ _ _ (covA_L V c t h0)
          isplitl [HS2]
          · unfold owns; iexists _; isplitr
            swap; · iexact HS2
            ipureintro; exact View.read_writes_of_cover _ _ _ _ _ (covA_A V c t h0)
          unfold owns; iexists _; isplitr
          swap; · iexact HS3
          ipureintro; exact View.read_writes_of_cover _ _ _ _ _ (covA_Q V c t h0)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h7 : t.val % 8 = 7
    · -- a last key tile
      rw [leaves_in V c t 4 (liveAt1_4 t (cC1 t h7)), after1_4]
      rw [outsAt1_C V c t h0 h7]
      unfold stC outC; (try dsimp only)
      rw [PhiS_castSucc V c t, PhiS_pos V c _ _ hz]
      iintro ⟨⟨⟨Ho0, Ho1, Ho2, Ho3, Ho4, Ho5, Ho6, Ho7, HS0, HS1, HS2, HS3⟩, Hg⟩, Ho, ⟨%d0, H0⟩, ⟨%d1, H1⟩, ⟨%d2, H2⟩, ⟨%d3, H3⟩, ⟨%d4, H4⟩⟩
      iapply ((runC V c t h0 h7 (prevSt V c t)).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, ⟨%es0, HS0⟩, ⟨%es1, HS1⟩, ⟨%es2, HS2⟩, HS3⟩
      isplitl [Ho0 Ho1 Ho2 Ho3 Ho4 Ho5 Ho6 Ho7 HS0 HS1 HS2 HS3 Hg]
      · isplitr [Hg]
        ·
          isplitl [Ho0]; · iexact Ho0
          isplitl [Ho1]; · iexact Ho1
          isplitl [Ho2]; · iexact Ho2
          isplitl [Ho3]; · iexact Ho3
          isplitl [Ho4]; · iexact Ho4
          isplitl [Ho5]; · iexact Ho5
          isplitl [Ho6]; · iexact Ho6
          isplitl [Ho7]; · iexact Ho7
          isplitl [HS0]
          · unfold owns; iexists _; isplitr
            swap; · iexact HS0
            ipureintro; exact View.read_writes_of_cover _ _ _ _ _ (covC_M V c t h0 h7 _)
          isplitl [HS1]
          · unfold owns; iexists _; isplitr
            swap; · iexact HS1
            ipureintro; exact View.read_writes_of_cover _ _ _ _ _ (covC_L V c t h0 h7 _)
          isplitl [HS2]
          · unfold owns; iexists _; isplitr
            swap; · iexact HS2
            ipureintro; exact View.read_writes_of_cover _ _ _ _ _ (covC_A V c t h0 h7 _)
          iexact HS3
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (covC_O V c t h0 h7 _)
    · -- a middle point
      rw [Dat.leavesExact_idle (dat1 V c) 4 t (idleAt1_4 t (cB1 t h7)) (noFlush1_4 t (cB1 t h7))]
      rw [outsAt1_B V c t h0 h7]
      unfold stB; (try dsimp only)
      rw [PhiS_castSucc V c t, PhiS_pos V c _ _ hz]
      iintro ⟨⟨⟨Ho0, Ho1, Ho2, Ho3, Ho4, Ho5, Ho6, Ho7, HS0, HS1, HS2, HS3⟩, Hg⟩, Ho, ⟨%d0, H0⟩, ⟨%d1, H1⟩, ⟨%d2, H2⟩, ⟨%d3, H3⟩, ⟨%d4, H4⟩⟩
      iapply ((runB V c t h0 h7 (prevSt V c t)).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, HS3⟩
      isplitl [Ho0 Ho1 Ho2 Ho3 Ho4 Ho5 Ho6 Ho7 HS0 HS1 HS2 HS3 Hg]
      · isplitr [Hg]
        ·
          isplitl [Ho0]; · iexact Ho0
          isplitl [Ho1]; · iexact Ho1
          isplitl [Ho2]; · iexact Ho2
          isplitl [Ho3]; · iexact Ho3
          isplitl [Ho4]; · iexact Ho4
          isplitl [Ho5]; · iexact Ho5
          isplitl [Ho6]; · iexact Ho6
          isplitl [Ho7]; · iexact Ho7
          isplitl [HS0]
          · unfold owns; iexists _; isplitr
            swap; · iexact HS0
            ipureintro; exact View.read_writes_of_cover _ _ _ _ _ (covB_M V c t h0 h7 _)
          isplitl [HS1]
          · unfold owns; iexists _; isplitr
            swap; · iexact HS1
            ipureintro; exact View.read_writes_of_cover _ _ _ _ _ (covB_L V c t h0 h7 _)
          isplitl [HS2]
          · unfold owns; iexists _; isplitr
            swap; · iexact HS2
            ipureintro; exact View.read_writes_of_cover _ _ _ _ _ (covB_A V c t h0 h7 _)
          iexact HS3
        iexact Hg
      isplitl [Ho]; · iexact Ho
      isplitl [H0]; · iexact H0
      isplitl [H1]; · iexact H1
      isplitl [H2]; · iexact H2
      isplitl [H3]; · iexact H3
      iexists _; iexact H4

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the generic one back: the scratch contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨⟨Ho0, Ho1, Ho2, Ho3, Ho4, Ho5, Ho6, Ho7, HS0, HS1, HS2, HS3⟩, Hg⟩
  isplitr [Hg]
  ·
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [HS0]; · iexists _; iexact HS0
    isplitl [HS1]; · iexists _; iexact HS1
    isplitl [HS2]; · iexists _; iexact HS2
    iexists _; iexact HS3
  iexact Hg

end Region1

end Cert.KernelIdeal.Fr

end
-- ==== Proof.KI.Frame.lean ====
/-
  The whole run of the kernel program: the host stretch (the scaled query weights), the projection region, the
  attention region.

  The contents of the TensorCore's unscoped buffers are followed through the program as a fold: W0 at launch; W1 after
  the host operations; W2 after the first region (its two output arrays at what its write-backs leave, everything else
  unchanged); W3 after the second region (its output array at what its write-backs leave).  Each region is entered with
  every unscoped buffer held at the fold's current contents and left with them at the next; the scratch contents the
  second region names inside are forgotten when it ends.  The run's post says every unscoped buffer ends at W3; the four
  argument arrays are read back through the fold to their launch contents (no host operation writes one, and a region
  only reads them).
-/
import proofs.«146421_j33767032881830_2_alg».proof.Proof.KI.R0
import proofs.«146421_j33767032881830_2_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched -/

theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- An input window's array leaves the first region as it entered it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- An input window's array leaves the second region as it entered it. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))

theorem W3_main_arg0 (c : Dev nD) : W3 m ρ c (Proc.devRef .tc main_arg0) = m ((c : Thread nD τ).loc main_arg0) :=
  (W3_in m ρ c 0 rfl).trans ((W2_in m ρ c 0 rfl).trans (W1_main_arg0 m ρ c))
theorem W3_main_arg1 (c : Dev nD) : W3 m ρ c (Proc.devRef .tc main_arg1) = m ((c : Thread nD τ).loc main_arg1) :=
  (W3_of_ne m ρ c main_arg1 (by decide)).trans ((W2_of_ne m ρ c main_arg1 (by decide)).trans (W1_main_arg1 m ρ c))
theorem W3_main_arg2 (c : Dev nD) : W3 m ρ c (Proc.devRef .tc main_arg2) = m ((c : Thread nD τ).loc main_arg2) :=
  (W3_of_ne m ρ c main_arg2 (by decide)).trans ((W2_in m ρ c 1 rfl).trans (W1_main_arg2 m ρ c))
theorem W3_main_arg3 (c : Dev nD) : W3 m ρ c (Proc.devRef .tc main_arg3) = m ((c : Thread nD τ).loc main_arg3) :=
  (W3_of_ne m ρ c main_arg3 (by decide)).trans ((W2_in m ρ c 2 rfl).trans (W1_main_arg3 m ρ c))

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The projection region over the thread state: entered with every unscoped buffer at W1, left with them at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered with every unscoped buffer at W2, left with them at W3; the
    scratch contents named by its invariant enter as anything and are forgotten at the end. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m ρ) c); unfold Pipeline.ΦA
    iintro ⟨Hp, -, Hr⟩
    isplitl [Hr]; · iexact Hr
    iexact Hp
  hout c := by
    rw [Pipeline.ownSems0_none]
    refine (hout1 (V2 m ρ) c).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates without a fault,
    and in every final state the result buffer holds W3's contents and the four argument arrays are as launched. -/
theorem run_W3 : θ_run defs (onTc (τ := τ) (main (F := F))) ⟨m, fun _ => 0, ρ⟩ (fun r => ∀ c : Dev nD,
      r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

/-- The frame: every weakly fair execution terminates without a fault and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_W3 m ρ)

end Cert.KernelIdeal.Fr

end
-- ==== Proof.Spec.lean ====
/-
  The specification both programs are compared with: single-head softmax attention over the REALS.

  For a sequence x : N × D and three square weight matrices wq, wk, wv : D × D,
    proj x w        = x · w                                  (a projection, N × D)
    score i j       = (Σ_e (x·wq) i e · (x·wk) j e) · (1/16) (the scaled dot product of query row i and key row j)
    attn i d        = (Σ_j exp (score i j) · (x·wv) j d) / (Σ_j exp (score i j)).
  The softmax is written without subtracting a row maximum: over the reals the weights
  exp (s_j - c) / Σ_j' exp (s_j' - c) do not depend on the shift c, so any shift a program subtracts
  (a true row maximum, or a running maximum started from a finite sentinel) gives these weights.

  `G` is that function as an array of extended reals, of arrays all of whose entries are real
  (`IsReal`); `toR` reads the real entries by coordinates.  This module imports no program.
-/
import Idealize.ShloMosaic.Lib.ValueIdx

noncomputable section

open scoped BigOperators

namespace Cert.Spec

open Idealize.ShloMosaic Idealize.ShloMosaic.ValueIdx

/-- Every entry of a rank-2 array of extended reals is a real number (neither infinity). -/
def IsReal {n0 n1 : Nat} (a : (⟨2, ![n0, n1]⟩ : Shape).Idx → EReal) : Prop :=
  ∀ j, a j = ((a j).toReal : EReal)

/-- The real entries of a rank-2 array, by coordinates. -/
def toR {n0 n1 : Nat} (a : (⟨2, ![n0, n1]⟩ : Shape).Idx → EReal) (p : Fin n0) (q : Fin n1) : ℝ :=
  (a (ix2 p q)).toReal

/-- An array of real entries is the coercion of its real entries, at an index given by coordinates. -/
theorem IsReal.at {n0 n1 : Nat} {a : (⟨2, ![n0, n1]⟩ : Shape).Idx → EReal} (h : IsReal a) (p : Fin n0) (q : Fin n1) :
    a (ix2 p q) = ((toR a p q : ℝ) : EReal) := h (ix2 p q)

variable {N D : Nat}

/-- A projection: row `i` of `x` against column `e` of `w`. -/
def proj (x : Fin N → Fin D → ℝ) (w : Fin D → Fin D → ℝ) (i : Fin N) (e : Fin D) : ℝ :=
  ∑ k, x i k * w k e

/-- The scaled score of query row `i` against key row `j`: the dot product of the two projected rows times 1/16
    (the reciprocal of the square root of the embedding width 256). -/
def score (x : Fin N → Fin D → ℝ) (wq wk : Fin D → Fin D → ℝ) (i j : Fin N) : ℝ :=
  (∑ e, proj x wq i e * proj x wk j e) * (1 / 16)

/-- Softmax attention: the exp-weighted mean of the value rows. -/
def attnR (x : Fin N → Fin D → ℝ) (wq wk wv : Fin D → Fin D → ℝ) (i : Fin N) (d : Fin D) : ℝ :=
  (∑ j, Real.exp (score x wq wk i j) * proj x wv j d) / (∑ j, Real.exp (score x wq wk i j))

/-- The result array both programs are shown to hold: attention of the real entries, as extended reals. -/
def G (x : (⟨2, ![8192, 256]⟩ : Shape).Idx → EReal) (wq wk wv : (⟨2, ![256, 256]⟩ : Shape).Idx → EReal) :
    (⟨2, ![8192, 256]⟩ : Shape).Idx → EReal :=
  fun j => ((attnR (toR x) (toR wq) (toR wk) (toR wv) (j 0) (j 1) : ℝ) : EReal)

/-- `G` at an index given by coordinates. -/
theorem G_apply (x : (⟨2, ![8192, 256]⟩ : Shape).Idx → EReal) (wq wk wv : (⟨2, ![256, 256]⟩ : Shape).Idx → EReal)
    (p : Fin 8192) (q : Fin 256) :
    G x wq wk wv (ix2 p q) = ((attnR (toR x) (toR wq) (toR wk) (toR wv) p q : ℝ) : EReal) := rfl

end Cert.Spec

end
-- ==== Proof.LibRowSoftmax.lean ====
/-
  A row of softmax weights against a memory bank, in two arrangements, on the extended reals at real entries.

  Fix a query row `h`, a memory bank `K` (rows `K m`), scores `s m` and positive weights `t m = exp (s m)`.
    • arrangement W ("weighted"): `(h j · (1 / ∑ m, t m)) · ∑ m, t m · K m j` — normalise once, outside the sum;
    • arrangement S ("softRead"): `h j · ∑ m, (exp (s m - c) / ∑ m', exp (s m' - c)) · K m j` — the softmax with
      a shift `c` subtracted from every score (any real `c`; a row maximum in practice), each weight normalised.
  Over the reals the two agree: `exp (s - c) = exp s / exp c`, the factor `exp c` cancels in every quotient, and
  `1 / ∑ t` distributes over the finite sum. With `t m = 1 / exp (s m) = exp (-s m)` the same holds for the scores
  `-s`. On the extended reals this is stated at entries that are images of reals, where every operation is
  the image of the real one (the total of the weights is positive, so no quotient meets a zero divisor).

  Also: the running maximum of finitely many reals, started from a value below `⊤`, is a real as soon as there
  is at least one of them.
-/
import Idealize.ShloMosaic.PureOps.Ideal

noncomputable section

namespace RowSoftmax

open Finset Idealize.ShloMosaic

/-- The image in the extended reals of a finite sum of reals is the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the divisor not zero, computed on the extended reals. -/
theorem div_coe_coe (x y : ℝ) (hy : y ≠ 0) : Ideal.div (x : EReal) (y : EReal) = ((x / y : ℝ) : EReal) := by
  rw [Ideal.div_coe hy, ← EReal.coe_mul, mul_one_div]

variable {M H : Type*} [Fintype M] [Fintype H]

/-- Over the reals: normalising once outside the sum is the shifted softmax read against the bank. -/
theorem weighted_real [Nonempty M] (h c : ℝ) (t s k : M → ℝ) (ht : ∀ m, t m = Real.exp (s m)) :
    (h * (1 / ∑ m, t m)) * ∑ m, t m * k m
      = h * ∑ m, (Real.exp (s m - c) / ∑ m', Real.exp (s m' - c)) * k m := by
  have e1 : ∀ m, Real.exp (s m - c) = t m / Real.exp c := fun m => by rw [Real.exp_sub, ht]
  simp only [e1]
  rw [← Finset.sum_div]
  have e2 : ∀ m, t m / Real.exp c / ((∑ m', t m') / Real.exp c) = t m / ∑ m', t m' := fun m =>
    div_div_div_cancel_right₀ (Real.exp_ne_zero c) _ _
  simp only [e2]
  rw [mul_assoc, Finset.mul_sum]
  exact congrArg (h * ·) (Finset.sum_congr rfl fun m _ => by ring)

/-- Arrangement W on the extended reals: the weights `t` normalised once, outside the sum over the bank. -/
def weighted (h : H → EReal) (t : M → EReal) (K : M → H → EReal) : H → EReal :=
  fun j => (h j * Ideal.div 1 (∑ m, t m)) * ∑ m, t m * K m j

/-- Arrangement S on the extended reals: the softmax of the scores `s` shifted by `c`, read against the bank. -/
def softRead (h : H → EReal) (s : M → EReal) (c : EReal) (K : M → H → EReal) : H → EReal :=
  fun j => h j * ∑ m, Ideal.div (Ideal.exp (s m - c)) (∑ m', Ideal.exp (s m' - c)) * K m j

theorem sum_exp_ne_zero [Nonempty M] (s : M → ℝ) : (∑ m, Real.exp (s m)) ≠ 0 :=
  ne_of_gt (Finset.sum_pos (fun m _ => Real.exp_pos _) Finset.univ_nonempty)

/-- With weights `exp s`: arrangement W is arrangement S of the scores `s`, at real entries and any real shift. -/
theorem weighted_exp_eq_softRead [Nonempty M] (h : H → ℝ) (s : M → ℝ) (c : ℝ) (K : M → H → ℝ) :
    weighted (fun j => (h j : EReal)) (fun m => Ideal.exp (s m : EReal)) (fun m j => (K m j : EReal))
      = softRead (fun j => (h j : EReal)) (fun m => (s m : EReal)) (c : EReal) (fun m j => (K m j : EReal)) := by
  funext j
  unfold weighted softRead
  simp only [Ideal.exp_coe, ← EReal.coe_sub, ← coe_sum]
  rw [← EReal.coe_one, div_coe_coe _ _ (sum_exp_ne_zero s)]
  simp only [div_coe_coe _ _ (sum_exp_ne_zero fun m => s m - c), ← EReal.coe_mul, ← coe_sum]
  exact congrArg _ (weighted_real (h j) c (fun m => Real.exp (s m)) s (fun m => K m j) fun _ => rfl)

/-- With weights `1 / exp s`: arrangement W is arrangement S of the scores `-s`. -/
theorem weighted_inv_exp_eq_softRead [Nonempty M] (h : H → ℝ) (s : M → ℝ) (c : ℝ) (K : M → H → ℝ) :
    weighted (fun j => (h j : EReal)) (fun m => Ideal.div 1 (Ideal.exp (s m : EReal))) (fun m j => (K m j : EReal))
      = softRead (fun j => (h j : EReal)) (fun m => ((-(s m) : ℝ) : EReal)) (c : EReal) (fun m j => (K m j : EReal)) := by
  have e : ∀ m, Ideal.div 1 (Ideal.exp (s m : EReal)) = Ideal.exp ((-(s m) : ℝ) : EReal) := fun m => by
    rw [Ideal.exp_coe, Ideal.exp_coe, ← EReal.coe_one, div_coe_coe _ _ (Real.exp_ne_zero _), Real.exp_neg, one_div]
  simp only [e]
  exact weighted_exp_eq_softRead h (fun m => -(s m)) c K

/-- The running maximum of `n ≥ 1` reals from a start below `⊤`, joined once more with a value below `⊤`, is a real. -/
theorem max_fold_max_real {n : ℕ} (hn : 0 < n) (b b' : EReal) (hb : b ≠ ⊤) (hb' : b' ≠ ⊤) (f : Fin n → ℝ) :
    ∃ c : ℝ, max b' ((Finset.univ : Finset (Fin n)).fold max b fun k => (f k : EReal)) = (c : EReal) := by
  set v := max b' ((Finset.univ : Finset (Fin n)).fold max b fun k => (f k : EReal)) with hv
  have htop : v ≠ ⊤ := by
    apply ne_of_lt
    rw [hv, max_lt_iff, Finset.fold_max_lt]
    exact ⟨lt_top_iff_ne_top.mpr hb', lt_top_iff_ne_top.mpr hb, fun k _ => EReal.coe_lt_top _⟩
  have hbot : v ≠ ⊥ := by
    apply ne_of_gt
    rw [hv, lt_max_iff, Finset.lt_fold_max]
    exact Or.inr (Or.inr ⟨⟨0, hn⟩, Finset.mem_univ _, EReal.bot_lt_coe _⟩)
  exact ⟨v.toReal, (EReal.coe_toReal htop hbot).symm⟩

end RowSoftmax

end
-- ==== Proof.KIPay1.lean ====
/-
  The kernel's arithmetic read at an index, on the extended reals — part 1: the projections, the scores and the
  constants.

  Every array here has real entries (`Cert.Spec.IsReal`); on such arrays a product into a zero accumulator is,
  at each output coordinate, the image of the real sum of products over the contracted axis:
    • rows against columns, [1024,256]·[256,256]:   (a·b) p q = Σ_k a p k · b k q;
    • rows against rows,    [1024,256]·[1024,256]ᵀ: (a·bᵀ) p j = Σ_e a p e · b j e.
  A change of float format is the identity on the extended reals and a shape cast to the same shape is the
  identity, so each projection payload is the first product of its two arguments, and the score payload is the
  second. The three start values are constant arrays: a finite negative real (the word 0xFF333332 read as a
  binary32 number) for the running maximum, and zero for the running sum and the accumulator. The word
  0x3D800000 read as a binary32 number is 1/16.
-/
import proofs.«146421_j33767032881830_2_alg».proof.Proof.Gen.KernelIdeal.Skeleton
import proofs.«146421_j33767032881830_2_alg».proof.Proof.Spec
import proofs.«146421_j33767032881830_2_alg».proof.Proof.LibRowSoftmax
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen Cert.Spec

/-! ## The two contractions read at an index

For each product the operand indices at output index (p, q) and contraction coordinate k are computed from the
contraction's dimension numbers; the sum over the one-axis contraction index is re-indexed by its coordinate. -/

theorem xw_lhs_keep (i : S1024x256.Idx) (q : dot_S1024x256_S256x256_S1024x256_1_0_0_1_n_n.contr.Idx) : (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem xw_lhs_contr (i : S1024x256.Idx) (q : dot_S1024x256_S256x256_S1024x256_1_0_0_1_n_n.contr.Idx) : (dot_S1024x256_S256x256_S1024x256_1_0_0_1_n_n.lhsIdx i q 1).val = (q ⟨0, by decide⟩).val :=
  dot_S1024x256_S256x256_S1024x256_1_0_0_1_n_n.lhsIdx_val_of_single rfl i q
theorem xw_rhs_contr (i : S1024x256.Idx) (q : dot_S1024x256_S256x256_S1024x256_1_0_0_1_n_n.contr.Idx) : (dot_S1024x256_S256x256_S1024x256_1_0_0_1_n_n.rhsIdx i q 0).val = (q ⟨0, by decide⟩).val :=
  dot_S1024x256_S256x256_S1024x256_1_0_0_1_n_n.rhsIdx_val_of_single rfl i q
theorem xw_rhs_keep (i : S1024x256.Idx) (q : dot_S1024x256_S256x256_S1024x256_1_0_0_1_n_n.contr.Idx) : (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- Rows against columns, [1024,256]·[256,256] into zero: at (p, q) the sum over k of a(p,k)·b(k,q). -/
theorem matmul_xw_apply {φ₁ φ₂ : FTy} (a : FVec Ideal S1024x256 φ₁) (b : FVec Ideal S256x256 φ₂) (p : Fin 1024) (q : Fin 256) :
    matmul dot_S1024x256_S256x256_S1024x256_1_0_0_1_n_n none a b (constant (F := Ideal) S1024x256 .f32 0x00000000#32) (ix2 p q)
      = ∑ k : Fin 256, a (ix2 p k) * b (ix2 k q) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p q) ((contrEquiv1 dot_S1024x256_S256x256_S1024x256_1_0_0_1_n_n 256 rfl rfl).symm k) = ix2 p k :=
    funext fun c => Fin.ext (by
      match c with
      | ⟨0, _⟩ => exact xw_lhs_keep _ _
      | ⟨1, _⟩ => exact (xw_lhs_contr _ _).trans hk)
  have er : dot_S1024x256_S256x256_S1024x256_1_0_0_1_n_n.rhsIdx (ix2 p q) ((contrEquiv1 dot_S1024x256_S256x256_S1024x256_1_0_0_1_n_n 256 rfl rfl).symm k) = ix2 k q :=
    funext fun c => Fin.ext (by
      match c with
      | ⟨0, _⟩ => exact (xw_rhs_contr _ _).trans hk
      | ⟨1, _⟩ => exact xw_rhs_keep _ _)
  rw [el, er]

theorem qk_lhs_keep (i : S1024x1024.Idx) (q : dot_S1024x256_S1024x256_S1024x1024_1_1_0_0_n_n.contr.Idx) : (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem qk_lhs_contr (i : S1024x1024.Idx) (q : dot_S1024x256_S1024x256_S1024x1024_1_1_0_0_n_n.contr.Idx) : (dot_S1024x256_S1024x256_S1024x1024_1_1_0_0_n_n.lhsIdx i q 1).val = (q ⟨0, by decide⟩).val :=
  dot_S1024x256_S1024x256_S1024x1024_1_1_0_0_n_n.lhsIdx_val_of_single rfl i q
theorem qk_rhs_contr (i : S1024x1024.Idx) (q : dot_S1024x256_S1024x256_S1024x1024_1_1_0_0_n_n.contr.Idx) : (dot_S1024x256_S1024x256_S1024x1024_1_1_0_0_n_n.rhsIdx i q 1).val = (q ⟨0, by decide⟩).val :=
  dot_S1024x256_S1024x256_S1024x1024_1_1_0_0_n_n.rhsIdx_val_of_single rfl i q
theorem qk_rhs_keep (i : S1024x1024.Idx) (q : dot_S1024x256_S1024x256_S1024x1024_1_1_0_0_n_n.contr.Idx) : (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl

/-- Rows against rows, [1024,256]·[1024,256]ᵀ into zero: at (p, j) the sum over e of a(p,e)·b(j,e). -/
theorem matmul_qk_apply {φ₁ φ₂ : FTy} (a : FVec Ideal S1024x256 φ₁) (b : FVec Ideal S1024x256 φ₂) (p : Fin 1024) (q : Fin 1024) :
    matmul dot_S1024x256_S1024x256_S1024x1024_1_1_0_0_n_n none a b (constant (F := Ideal) S1024x1024 .f32 0x00000000#32) (ix2 p q)
      = ∑ k : Fin 256, a (ix2 p k) * b (ix2 q k) := by
  simp only [matmul]
  rw [Ideal.matmul_constant_zero_apply, ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p q) ((contrEquiv1 dot_S1024x256_S1024x256_S1024x1024_1_1_0_0_n_n 256 rfl rfl).symm k) = ix2 p k :=
    funext fun c => Fin.ext (by
      match c with
      | ⟨0, _⟩ => exact qk_lhs_keep _ _
      | ⟨1, _⟩ => exact (qk_lhs_contr _ _).trans hk)
  have er : dot_S1024x256_S1024x256_S1024x1024_1_1_0_0_n_n.rhsIdx (ix2 p q) ((contrEquiv1 dot_S1024x256_S1024x256_S1024x1024_1_1_0_0_n_n 256 rfl rfl).symm k) = ix2 q k :=
    funext fun c => Fin.ext (by
      match c with
      | ⟨1, _⟩ => exact (qk_rhs_contr _ _).trans hk
      | ⟨0, _⟩ => exact qk_rhs_keep _ _)
  rw [el, er]

/-! ## Arrays of real entries -/

/-- A finite sum of products of images of reals is the image of the real sum of products. -/
theorem sum_coe_mul_coe {ι : Type*} [Fintype ι] (f g : ι → ℝ) :
    ∑ k, ((f k : ℝ) : EReal) * ((g k : ℝ) : EReal) = ((∑ k, f k * g k : ℝ) : EReal) := by
  rw [RowSoftmax.coe_sum]
  exact Finset.sum_congr rfl fun k _ => (EReal.coe_mul _ _).symm

/-- An array that is, at every coordinate, the image of a real has real entries. -/
theorem isReal_of_apply {n0 n1 : Nat} {a : (⟨2, ![n0, n1]⟩ : Shape).Idx → EReal} (f : Fin n0 → Fin n1 → ℝ)
    (h : ∀ p q, a (ix2 p q) = ((f p q : ℝ) : EReal)) : IsReal a := by
  intro j
  obtain ⟨p, q, rfl⟩ : ∃ (p : Fin n0) (q : Fin n1), j = ix2 p q := ⟨j 0, j 1, eq_ix2 j⟩
  rw [h p q, EReal.toReal_coe]

/-- ... and those reals are its real entries. -/
theorem toR_of_apply {n0 n1 : Nat} {a : (⟨2, ![n0, n1]⟩ : Shape).Idx → EReal} (f : Fin n0 → Fin n1 → ℝ)
    (h : ∀ p q, a (ix2 p q) = ((f p q : ℝ) : EReal)) (p : Fin n0) (q : Fin n1) : toR a p q = f p q := by
  unfold toR
  rw [h p q, EReal.toReal_coe]

/-- The one column coordinate of a [n,1] array. -/
theorem fin1_eq_zero (u : Fin 1) : u = 0 := Subsingleton.elim _ _

/-! ## The projections: x·w on real entries -/

/-- The product of a [1024,256] and a [256,256] array of real entries, each first changed to the narrower
    float format (the identity on extended reals), at (p, q): the image of Σ_k x p k · w k q. -/
theorem proj_apply (x : FVec Ideal S1024x256 .f32) (w : FVec Ideal S256x256 .f32) (hx : IsReal x) (hw : IsReal w)
    (p : Fin 1024) (q : Fin 256) :
    matmul dot_S1024x256_S256x256_S1024x256_1_0_0_1_n_n none (truncf .bf16 x bitsLt_bf16_f32) (truncf .bf16 w bitsLt_bf16_f32)
        (constant (F := Ideal) S1024x256 .f32 0x00000000#32) (ix2 p q)
      = ((∑ k : Fin 256, toR x p k * toR w k q : ℝ) : EReal) := by
  rw [matmul_xw_apply, ← sum_coe_mul_coe]
  exact Finset.sum_congr rfl fun k _ => congrArg₂ (· * ·) (hx.at p k) (hw.at k q)

/-- The first projection payload at (p, q): Σ_k x p k · w k q. -/
theorem k0_pay2_apply (x : Vec Ideal S1024x256 .f32) (w : Vec Ideal S256x256 .f32) (hx : IsReal x) (hw : IsReal w)
    (p : Fin 1024) (q : Fin 256) :
    k0_pay2 (F := Ideal) x w (ix2 p q) = ((∑ k : Fin 256, toR x p k * toR w k q : ℝ) : EReal) := by
  unfold k0_pay2 k0_pay1
  exact proj_apply x w hx hw p q

/-- The second projection payload at (p, q): Σ_k x p k · w k q. -/
theorem k0_pay3_apply (x : Vec Ideal S1024x256 .f32) (w : Vec Ideal S256x256 .f32) (hx : IsReal x) (hw : IsReal w)
    (p : Fin 1024) (q : Fin 256) :
    k0_pay3 (F := Ideal) x w (ix2 p q) = ((∑ k : Fin 256, toR x p k * toR w k q : ℝ) : EReal) := by
  unfold k0_pay3 k0_pay1
  exact proj_apply x w hx hw p q

/-- The query projection payload at (p, q): Σ_k x p k · w k q (its shape casts are to the same shape). -/
theorem k1_pay7_apply (x : Vec Ideal S1024x256 .f32) (w : Vec Ideal S256x256 .f32) (hx : IsReal x) (hw : IsReal w)
    (p : Fin 1024) (q : Fin 256) :
    k1_pay7 (F := Ideal) x w (ix2 p q) = ((∑ k : Fin 256, toR x p k * toR w k q : ℝ) : EReal) := by
  unfold k1_pay7
  simp only [shapeCast_self]
  exact proj_apply x w hx hw p q

/-- The first projection payload has real entries. -/
theorem k0_pay2_isReal (x : Vec Ideal S1024x256 .f32) (w : Vec Ideal S256x256 .f32) (hx : IsReal x) (hw : IsReal w) :
    IsReal (k0_pay2 (F := Ideal) x w) := isReal_of_apply _ (k0_pay2_apply x w hx hw)
/-- Its real entries. -/
theorem k0_pay2_toR (x : Vec Ideal S1024x256 .f32) (w : Vec Ideal S256x256 .f32) (hx : IsReal x) (hw : IsReal w)
    (p : Fin 1024) (q : Fin 256) : toR (k0_pay2 (F := Ideal) x w) p q = ∑ k : Fin 256, toR x p k * toR w k q :=
  toR_of_apply _ (k0_pay2_apply x w hx hw) p q
/-- The second projection payload has real entries. -/
theorem k0_pay3_isReal (x : Vec Ideal S1024x256 .f32) (w : Vec Ideal S256x256 .f32) (hx : IsReal x) (hw : IsReal w) :
    IsReal (k0_pay3 (F := Ideal) x w) := isReal_of_apply _ (k0_pay3_apply x w hx hw)
/-- Its real entries. -/
theorem k0_pay3_toR (x : Vec Ideal S1024x256 .f32) (w : Vec Ideal S256x256 .f32) (hx : IsReal x) (hw : IsReal w)
    (p : Fin 1024) (q : Fin 256) : toR (k0_pay3 (F := Ideal) x w) p q = ∑ k : Fin 256, toR x p k * toR w k q :=
  toR_of_apply _ (k0_pay3_apply x w hx hw) p q
/-- The query projection payload has real entries. -/
theorem k1_pay7_isReal (x : Vec Ideal S1024x256 .f32) (w : Vec Ideal S256x256 .f32) (hx : IsReal x) (hw : IsReal w) :
    IsReal (k1_pay7 (F := Ideal) x w) := isReal_of_apply _ (k1_pay7_apply x w hx hw)
/-- Its real entries. -/
theorem k1_pay7_toR (x : Vec Ideal S1024x256 .f32) (w : Vec Ideal S256x256 .f32) (hx : IsReal x) (hw : IsReal w)
    (p : Fin 1024) (q : Fin 256) : toR (k1_pay7 (F := Ideal) x w) p q = ∑ k : Fin 256, toR x p k * toR w k q :=
  toR_of_apply _ (k1_pay7_apply x w hx hw) p q

/-! ## The scores: q·kᵀ on real entries -/

/-- The score of query row `p` against key row `j`: the dot product of the two rows' real entries. -/
def sc (qq kk : (⟨2, ![1024, 256]⟩ : Shape).Idx → EReal) (p j : Fin 1024) : ℝ :=
  ∑ e : Fin 256, toR qq p e * toR kk j e

/-- The score payload at (p, j): the image of `sc p j`. -/
theorem k1_pay8_apply (qq kk : Vec Ideal S1024x256 .bf16) (hq : IsReal qq) (hk : IsReal kk) (p j : Fin 1024) :
    k1_pay8 (F := Ideal) qq kk (ix2 p j) = ((sc qq kk p j : ℝ) : EReal) := by
  unfold k1_pay8 sc
  simp only [shapeCast_self]
  refine (matmul_qk_apply (φ₁ := .bf16) (φ₂ := .bf16) _ _ p j).trans ?_
  rw [← sum_coe_mul_coe]
  exact Finset.sum_congr rfl fun e _ => congrArg₂ (· * ·) (hq.at p e) (hk.at j e)

/-- The score payload has real entries. -/
theorem k1_pay8_isReal (qq kk : Vec Ideal S1024x256 .bf16) (hq : IsReal qq) (hk : IsReal kk) :
    IsReal (k1_pay8 (F := Ideal) qq kk) := isReal_of_apply _ (k1_pay8_apply qq kk hq hk)
/-- Its real entries are the scores. -/
theorem k1_pay8_toR (qq kk : Vec Ideal S1024x256 .bf16) (hq : IsReal qq) (hk : IsReal kk) (p j : Fin 1024) :
    toR (k1_pay8 (F := Ideal) qq kk) p j = sc qq kk p j := toR_of_apply _ (k1_pay8_apply qq kk hq hk) p j

/-! ## The start values and the identity casts -/

/-- The start value of the running maximum, as a real number: what the word 0xFF333332 denotes as a binary32 number. -/
def negBig : ℝ := (Ideal.ofBits .f32 0xFF333332#32).toReal

/-- The word 0xFF333332 denotes a finite real: negative sign, exponent field 254, fraction field 3355442. -/
theorem ofBits_negBig : Ideal.ofBits .f32 0xFF333332#32 = ((negBig : ℝ) : EReal) := by
  have h : ∃ c : ℝ, Ideal.ofBits .f32 0xFF333332#32 = ((c : ℝ) : EReal) := by
    refine ⟨(-1 : ℝ) * ((2 ^ 23 + 3355442 : ℕ) : ℝ) * (2 : ℝ) ^ ((254 : ℤ) - (2 ^ (8 - 1) - 1) - (23 : ℕ)), ?_⟩
    simp [Ideal.ofBits, Ideal.ieee, -EReal.coe_mul]
  obtain ⟨c, hc⟩ := h
  unfold negBig
  rw [hc, EReal.toReal_coe]

/-- The running maximum's start array is the constant `negBig`. -/
theorem k1_pay4_apply (i : S1024x1.Idx) : k1_pay4 (F := Ideal) i = ((negBig : ℝ) : EReal) := by
  unfold k1_pay4
  simp only [shapeCast_self]
  exact ofBits_negBig
/-- It has real entries. -/
theorem k1_pay4_isReal : IsReal (k1_pay4 (F := Ideal)) := isReal_of_apply (fun _ _ => negBig) fun _ _ => k1_pay4_apply _
/-- Its real entries. -/
theorem k1_pay4_toR (p : Fin 1024) (u : Fin 1) : toR (k1_pay4 (F := Ideal)) p u = negBig :=
  toR_of_apply (fun _ _ => negBig) (fun _ _ => k1_pay4_apply _) p u

/-- The running sum's start array is zero. -/
theorem k1_pay5_apply (i : S1024x1.Idx) : k1_pay5 (F := Ideal) i = 0 := by
  unfold k1_pay5
  simp only [shapeCast_self]
  exact Ideal.ofBits_zero_f32
/-- It has real entries. -/
theorem k1_pay5_isReal : IsReal (k1_pay5 (F := Ideal)) :=
  isReal_of_apply (fun _ _ => 0) fun _ _ => (k1_pay5_apply _).trans EReal.coe_zero.symm
/-- Its real entries. -/
theorem k1_pay5_toR (p : Fin 1024) (u : Fin 1) : toR (k1_pay5 (F := Ideal)) p u = 0 :=
  toR_of_apply (fun _ _ => 0) (fun _ _ => (k1_pay5_apply _).trans EReal.coe_zero.symm) p u

/-- The accumulator's start array is zero. -/
theorem k1_pay6_apply (i : S1024x256.Idx) : k1_pay6 (F := Ideal) i = 0 := by
  unfold k1_pay6
  simp only [shapeCast_self]
  exact Ideal.ofBits_zero_f32
/-- It has real entries. -/
theorem k1_pay6_isReal : IsReal (k1_pay6 (F := Ideal)) :=
  isReal_of_apply (fun _ _ => 0) fun _ _ => (k1_pay6_apply _).trans EReal.coe_zero.symm
/-- Its real entries. -/
theorem k1_pay6_toR (p : Fin 1024) (d : Fin 256) : toR (k1_pay6 (F := Ideal)) p d = 0 :=
  toR_of_apply (fun _ _ => 0) (fun _ _ => (k1_pay6_apply _).trans EReal.coe_zero.symm) p d

/-- The accumulator written back is the accumulator: a shape cast to the same shape. -/
theorem k1_pay1_eq (v : FVec Ideal S1024x256 .f32) : k1_pay1 (F := Ideal) v = v := by
  unfold k1_pay1
  exact shapeCast_self _ _
/-- The running maximum written back is the running maximum. -/
theorem k1_pay2_eq (v : FVec Ideal S1024x1 .f32) : k1_pay2 (F := Ideal) v = v := by
  unfold k1_pay2
  exact shapeCast_self _ _

/-- The word 0x3D800000 denotes 1/16: positive sign, exponent field 123 = 127 - 4, fraction field 0. -/
theorem ofBits_sixteenth : Ideal.ofBits .f32 0x3D800000#32 = (((1 / 16 : ℝ)) : EReal) := by
  simp [Ideal.ofBits, Ideal.ieee, -EReal.coe_mul]
  norm_num

end Cert.KernelIdeal.Pay

end
-- ==== Proof.KI.Val0.lean ====
/-
  The first kernel region's two output arrays as whole-array functions of its arguments, on the extended reals.

  The grid has 8 points. Point t reads rows 1024 t .. 1024 t + 1023 of the sequence array x (8192 x 256) and the two
  whole 256 x 256 weight matrices, and writes rows 1024 t .. 1024 t + 1023 of each output array: the product of
  its block of x with the weight matrix. When x and the weights have real entries, the product of a block of rows
  with a matrix is, at (p, q), the real sum Σ_k x (1024 t + p) k · w k q: entry (1024 t + p, q) of the projection
  x · w. So what point t writes back is block t of the ONE array proj x w; the 8 blocks tile the 8192 rows
  (row r lies in the block of point r / 1024); hence after the region each output array IS proj x w:
  the key array proj x wk and the value array proj x wv.
-/
import proofs.«146421_j33767032881830_2_alg».proof.Proof.KI.R0
import proofs.«146421_j33767032881830_2_alg».proof.Proof.KIPay1
import proofs.«146421_j33767032881830_2_alg».proof.Proof.Spec
import Idealize.ShloMosaic.Lib.Pipeline.Value

noncomputable section

open scoped BigOperators

namespace Cert.KernelIdeal.Val0

open Cert.KernelIdeal Cert.KernelIdeal.Gen Cert.KernelIdeal.Fr Cert.KernelIdeal.Pay Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offset, as the constant function. -/
theorem hz : (![0, 0] : Fin 2 → Nat) = fun _ => 0 := funext fun a => by fin_cases a <;> rfl

/-- The projection of a real sequence array by a real weight matrix, as an array of extended reals. -/
def projArr (x : (⟨2, ![8192, 256]⟩ : Shape).Idx → EReal) (w : (⟨2, ![256, 256]⟩ : Shape).Idx → EReal) :
    (⟨2, ![8192, 256]⟩ : Shape).Idx → EReal :=
  fun idx => ((proj (toR x) (toR w) (idx 0) (idx 1) : ℝ) : EReal)

/-- The block index maps over the grid: at point t the sequence window and both output windows are at block
    (t, 0), the two weight windows at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- A grid point is below 8. -/
theorem t_lt (t : Fin cfg0.N) : t.val < 8 := lt_of_lt_of_eq t.isLt N_0

/-- Row p of the block at point t is row 1024 t + p of the array. -/
def rowAt (t : Fin cfg0.N) (p : Fin 1024) : Fin 8192 := ⟨1024 * t.val + p.val, by have := t_lt t; have := p.isLt; omega⟩

/-- The sequence window's block at point t, at (p, k), is the sequence array at (1024 t + p, k). -/
theorem iblk0_0_apply (c : Dev nD) (t : Fin cfg0.N) (p : Fin 1024) (k : Fin 256) :
    (iblk0 V c 0 t : Vec Ideal S1024x256 .f32) (ix2 p k)
      = (V c main_arg0 : S8192x256.Idx → EReal) (ix2 (rowAt t p) k) := by
  obtain ⟨e0, e1, -⟩ := idx_facts t
  unfold iblk0
  rw [View.read_apply]
  show (V c main_arg0 : S8192x256.Idx → EReal) _ = _
  congr 1
  funext a
  apply Fin.ext
  match a with
  | ⟨0, _⟩ => show win0_0.index t (0 : Fin 2) * 1024 + 1 * p.val = 1024 * t.val + p.val; rw [e0]; omega
  | ⟨1, _⟩ => show win0_0.index t (1 : Fin 2) * 256 + 1 * k.val = k.val; rw [e1]; omega

/-- A weight window's block, at any point, is the whole weight matrix (window 1: the key weights). -/
theorem iblk0_1_apply (c : Dev nD) (t : Fin cfg0.N) (k : Fin 256) (q : Fin 256) :
    (iblk0 V c 1 t : Vec Ideal S256x256 .f32) (ix2 k q) = (V c main_arg2 : S256x256.Idx → EReal) (ix2 k q) := by
  obtain ⟨-, -, e0, e1, -⟩ := idx_facts t
  unfold iblk0
  rw [View.read_apply]
  show (V c main_arg2 : S256x256.Idx → EReal) _ = _
  congr 1
  funext a
  apply Fin.ext
  match a with
  | ⟨0, _⟩ => show win0_1.index t (0 : Fin 2) * 256 + 1 * k.val = k.val; rw [e0]; omega
  | ⟨1, _⟩ => show win0_1.index t (1 : Fin 2) * 256 + 1 * q.val = q.val; rw [e1]; omega

/-- Window 2's block, at any point, is the whole value weight matrix. -/
theorem iblk0_2_apply (c : Dev nD) (t : Fin cfg0.N) (k : Fin 256) (q : Fin 256) :
    (iblk0 V c 2 t : Vec Ideal S256x256 .f32) (ix2 k q) = (V c main_arg3 : S256x256.Idx → EReal) (ix2 k q) := by
  obtain ⟨-, -, -, -, e0, e1, -⟩ := idx_facts t
  unfold iblk0
  rw [View.read_apply]
  show (V c main_arg3 : S256x256.Idx → EReal) _ = _
  congr 1
  funext a
  apply Fin.ext
  match a with
  | ⟨0, _⟩ => show win0_2.index t (0 : Fin 2) * 256 + 1 * k.val = k.val; rw [e0]; omega
  | ⟨1, _⟩ => show win0_2.index t (1 : Fin 2) * 256 + 1 * q.val = q.val; rw [e1]; omega

/-- A block of rows of a real array is real. -/
theorem iblk0_0_real (c : Dev nD) (hx : IsReal (n0 := 8192) (n1 := 256) (V c main_arg0)) (t : Fin cfg0.N) :
    IsReal (n0 := 1024) (n1 := 256) (iblk0 V c 0 t) :=
  isReal_of_apply (fun p k => toR (n0 := 8192) (n1 := 256) (V c main_arg0) (rowAt t p) k)
    fun p k => (iblk0_0_apply V c t p k).trans (hx.at _ _)
/-- The key weights, read as window 1's block, are real. -/
theorem iblk0_1_real (c : Dev nD) (hk : IsReal (n0 := 256) (n1 := 256) (V c main_arg2)) (t : Fin cfg0.N) :
    IsReal (n0 := 256) (n1 := 256) (iblk0 V c 1 t) :=
  isReal_of_apply (fun k q => toR (n0 := 256) (n1 := 256) (V c main_arg2) k q)
    fun k q => (iblk0_1_apply V c t k q).trans (hk.at _ _)
/-- The value weights, read as window 2's block, are real. -/
theorem iblk0_2_real (c : Dev nD) (hv : IsReal (n0 := 256) (n1 := 256) (V c main_arg3)) (t : Fin cfg0.N) :
    IsReal (n0 := 256) (n1 := 256) (iblk0 V c 2 t) :=
  isReal_of_apply (fun k q => toR (n0 := 256) (n1 := 256) (V c main_arg3) k q)
    fun k q => (iblk0_2_apply V c t k q).trans (hv.at _ _)

/-- The real entries of the sequence window's block at point t are rows 1024 t .. of the sequence array's. -/
theorem iblk0_0_toR (c : Dev nD) (t : Fin cfg0.N) (p : Fin 1024) (k : Fin 256) :
    toR (n0 := 1024) (n1 := 256) (iblk0 V c 0 t) p k = toR (n0 := 8192) (n1 := 256) (V c main_arg0) (rowAt t p) k :=
  congrArg EReal.toReal (iblk0_0_apply V c t p k)
/-- The real entries of window 1's block are the key weights' real entries. -/
theorem iblk0_1_toR (c : Dev nD) (t : Fin cfg0.N) (k q : Fin 256) :
    toR (n0 := 256) (n1 := 256) (iblk0 V c 1 t) k q = toR (n0 := 256) (n1 := 256) (V c main_arg2) k q :=
  congrArg EReal.toReal (iblk0_1_apply V c t k q)
/-- The real entries of window 2's block are the value weights' real entries. -/
theorem iblk0_2_toR (c : Dev nD) (t : Fin cfg0.N) (k q : Fin 256) :
    toR (n0 := 256) (n1 := 256) (iblk0 V c 2 t) k q = toR (n0 := 256) (n1 := 256) (V c main_arg3) k q :=
  congrArg EReal.toReal (iblk0_2_apply V c t k q)

/-- Block t of an output window, at (p, q), sits at (1024 t + p, q) of its array. -/
theorem emb3 (t : Fin cfg0.N) (p : Fin 1024) (q : Fin 256) :
    ((cfg0.win 3).blk t).view.emb (ix2 p q) = (ix2 (rowAt t p) q : S8192x256.Idx) := by
  obtain ⟨-, -, -, -, -, -, e0, e1, -⟩ := idx_facts t
  funext a
  apply Fin.ext
  match a with
  | ⟨0, _⟩ => show win0_3.index t (0 : Fin 2) * 1024 + 1 * p.val = 1024 * t.val + p.val; rw [e0]; omega
  | ⟨1, _⟩ => show win0_3.index t (1 : Fin 2) * 256 + 1 * q.val = q.val; rw [e1]; omega
/-- The same for the value projection's window. -/
theorem emb4 (t : Fin cfg0.N) (p : Fin 1024) (q : Fin 256) :
    ((cfg0.win 4).blk t).view.emb (ix2 p q) = (ix2 (rowAt t p) q : S8192x256.Idx) := by
  obtain ⟨-, -, -, -, -, -, -, -, e0, e1⟩ := idx_facts t
  funext a
  apply Fin.ext
  match a with
  | ⟨0, _⟩ => show win0_4.index t (0 : Fin 2) * 1024 + 1 * p.val = 1024 * t.val + p.val; rw [e0]; omega
  | ⟨1, _⟩ => show win0_4.index t (1 : Fin 2) * 256 + 1 * q.val = q.val; rw [e1]; omega

/-- What point t writes back to the key projection's array is block t of the projection of the sequence array
    by the key weights. -/
theorem flushed3_eq (c : Dev nD) (hx : IsReal (n0 := 8192) (n1 := 256) (V c main_arg0))
    (hk : IsReal (n0 := 256) (n1 := 256) (V c main_arg2)) (t : Fin cfg0.N) :
    (dat0 V c).flushed 3 t
      = ((cfg0.win 3).blk t).view.read (Elt Ideal) (projArr (V c main_arg0) (V c main_arg2)) := by
  show (cfg0.win 3).cut (grid0.coords t) ((dat0 V c).after 3 t) = _
  rw [after0_3]
  unfold out3
  rw [View.canon_unit_zero hz]
  simp only [View.ld_unit_zero (S := S1024x256) hz, View.ld_unit_zero (S := S256x256) hz]
  funext j
  obtain ⟨p, q, rfl⟩ : ∃ (p : Fin 1024) (q : Fin 256), j = ix2 p q := ⟨j 0, j 1, eq_ix2 (n0 := 1024) (n1 := 256) j⟩
  rw [View.read_apply]
  show k0_pay2 (F := Ideal) (iblk0 V c 0 t) (iblk0 V c 1 t) (ix2 p q)
    = projArr (V c main_arg0) (V c main_arg2) (((cfg0.win 3).blk t).view.emb (ix2 p q))
  rw [emb3, k0_pay2_apply _ _ (iblk0_0_real V c hx t) (iblk0_1_real V c hk t)]
  simp only [iblk0_0_toR, iblk0_1_toR]
  rfl

/-- What point t writes back to the value projection's array is block t of the projection of the sequence array
    by the value weights. -/
theorem flushed4_eq (c : Dev nD) (hx : IsReal (n0 := 8192) (n1 := 256) (V c main_arg0))
    (hv : IsReal (n0 := 256) (n1 := 256) (V c main_arg3)) (t : Fin cfg0.N) :
    (dat0 V c).flushed 4 t
      = ((cfg0.win 4).blk t).view.read (Elt Ideal) (projArr (V c main_arg0) (V c main_arg3)) := by
  show (cfg0.win 4).cut (grid0.coords t) ((dat0 V c).after 4 t) = _
  rw [after0_4]
  unfold out4
  rw [View.canon_unit_zero hz]
  simp only [View.ld_unit_zero (S := S1024x256) hz, View.ld_unit_zero (S := S256x256) hz]
  funext j
  obtain ⟨p, q, rfl⟩ : ∃ (p : Fin 1024) (q : Fin 256), j = ix2 p q := ⟨j 0, j 1, eq_ix2 (n0 := 1024) (n1 := 256) j⟩
  rw [View.read_apply]
  show k0_pay3 (F := Ideal) (iblk0 V c 0 t) (iblk0 V c 2 t) (ix2 p q)
    = projArr (V c main_arg0) (V c main_arg3) (((cfg0.win 4).blk t).view.emb (ix2 p q))
  rw [emb4, k0_pay3_apply _ _ (iblk0_0_real V c hx t) (iblk0_2_real V c hv t)]
  simp only [iblk0_0_toR, iblk0_2_toR]
  rfl

/-- An index of an output array is in point t's block iff each coordinate is in the block's range on its axis. -/
theorem mem_blk3 (t : Fin cfg0.N) (i : S8192x256.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v2_0).slice (win0_3.rect t)).set ↔ _
  rw [View.set_slice_whole, Rect.mem_set_unit]
  exact Iff.rfl
/-- The same for the value projection's window. -/
theorem mem_blk4 (t : Fin cfg0.N) (i : S8192x256.Idx) :
    i ∈ ((cfg0.win 4).blk t).view.set ↔ ∀ a : Fin 2, win0_4.index t a * S1024x256.size a ≤ (i a).val ∧ (i a).val < win0_4.index t a * S1024x256.size a + S1024x256.size a := by
  show i ∈ ((View.whole main_v2_1).slice (win0_4.rect t)).set ↔ _
  rw [View.set_slice_whole, Rect.mem_set_unit]
  exact Iff.rfl

/-- Row r of an output array is in the block of point r / 1024. -/
theorem cover3 (i : S8192x256.Idx) : ∃ t : Fin cfg0.N, (cfg0.win 3).flush t = true ∧ i ∈ ((cfg0.win 3).blk t).view.set := by
  have hi0 : (i 0).val < 8192 := (i 0).isLt
  have hi1 : (i 1).val < 256 := (i 1).isLt
  let t : Fin cfg0.N := ⟨(i 0).val / 1024, lt_of_lt_of_eq (by omega) N_0.symm⟩
  refine ⟨t, flush0_3 t, ?_⟩
  rw [mem_blk3]
  obtain ⟨-, -, -, -, -, -, e0, e1, -⟩ := idx_facts t
  have ht : t.val = (i 0).val / 1024 := rfl
  intro a
  match a with
  | ⟨0, _⟩ => show win0_3.index t (0 : Fin 2) * 1024 ≤ (i 0).val ∧ (i 0).val < win0_3.index t (0 : Fin 2) * 1024 + 1024; rw [e0]; omega
  | ⟨1, _⟩ => show win0_3.index t (1 : Fin 2) * 256 ≤ (i 1).val ∧ (i 1).val < win0_3.index t (1 : Fin 2) * 256 + 256; rw [e1]; omega
/-- The same for the value projection's array. -/
theorem cover4 (i : S8192x256.Idx) : ∃ t : Fin cfg0.N, (cfg0.win 4).flush t = true ∧ i ∈ ((cfg0.win 4).blk t).view.set := by
  have hi0 : (i 0).val < 8192 := (i 0).isLt
  have hi1 : (i 1).val < 256 := (i 1).isLt
  let t : Fin cfg0.N := ⟨(i 0).val / 1024, lt_of_lt_of_eq (by omega) N_0.symm⟩
  refine ⟨t, flush0_4 t, ?_⟩
  rw [mem_blk4]
  obtain ⟨-, -, -, -, -, -, -, -, e0, e1⟩ := idx_facts t
  have ht : t.val = (i 0).val / 1024 := rfl
  intro a
  match a with
  | ⟨0, _⟩ => show win0_4.index t (0 : Fin 2) * 1024 ≤ (i 0).val ∧ (i 0).val < win0_4.index t (0 : Fin 2) * 1024 + 1024; rw [e0]; omega
  | ⟨1, _⟩ => show win0_4.index t (1 : Fin 2) * 256 ≤ (i 1).val ∧ (i 1).val < win0_4.index t (1 : Fin 2) * 256 + 256; rw [e1]; omega

/-- After the first region the key array is the projection of the sequence array by the key weights. -/
theorem K_array (c : Dev nD) (hx : IsReal (n0 := 8192) (n1 := 256) (V c main_arg0))
    (hk : IsReal (n0 := 256) (n1 := 256) (V c main_arg2)) :
    (dat0 V c).arrAt 3 cfg0.N = projArr (V c main_arg0) (V c main_arg2) :=
  (dat0 V c).arrAt_eq_of_cover 3 (projArr (V c main_arg0) (V c main_arg2)) (fun t _ => flushed3_eq V c hx hk t) cover3

/-- After the first region the value array is the projection of the sequence array by the value weights. -/
theorem V_array (c : Dev nD) (hx : IsReal (n0 := 8192) (n1 := 256) (V c main_arg0))
    (hv : IsReal (n0 := 256) (n1 := 256) (V c main_arg3)) :
    (dat0 V c).arrAt 4 cfg0.N = projArr (V c main_arg0) (V c main_arg3) :=
  (dat0 V c).arrAt_eq_of_cover 4 (projArr (V c main_arg0) (V c main_arg3)) (fun t _ => flushed4_eq V c hx hv t) cover4

/-- The projection array at coordinates. -/
theorem projArr_apply (x : (⟨2, ![8192, 256]⟩ : Shape).Idx → EReal) (w : (⟨2, ![256, 256]⟩ : Shape).Idx → EReal)
    (i : Fin 8192) (e : Fin 256) : projArr x w (ix2 i e) = ((proj (toR x) (toR w) i e : ℝ) : EReal) := rfl
/-- The projection array has real entries. -/
theorem projArr_isReal (x : (⟨2, ![8192, 256]⟩ : Shape).Idx → EReal) (w : (⟨2, ![256, 256]⟩ : Shape).Idx → EReal) :
    IsReal (projArr x w) := isReal_of_apply _ (projArr_apply x w)
/-- The real entries of the projection array are the real projections. -/
theorem projArr_toR (x : (⟨2, ![8192, 256]⟩ : Shape).Idx → EReal) (w : (⟨2, ![256, 256]⟩ : Shape).Idx → EReal)
    (i : Fin 8192) (e : Fin 256) : toR (projArr x w) i e = proj (toR x) (toR w) i e :=
  toR_of_apply _ (projArr_apply x w) i e

end Cert.KernelIdeal.Val0

end
-- ==== Proof.LibFlashRow.lean ====
/-
  The block-wise ("online") softmax over the reals.

  A row of scores `x_0, x_1, …` and value rows `y_0, y_1, …` is read in consecutive blocks.  A running state
  `(m, l, acc)` is kept: `m` a running maximum, `l` a running normaliser, `acc` a running weighted sum of the
  value rows.  Reading a block with scores `s j` and value rows `v j` replaces the state by
      m'   = max m (max_j s j),
      l'   = exp (m - m') · l   + Σ_j exp (s j - m'),
      acc' = exp (m - m') · acc + Σ_j exp (s j - m') · v j.
  Started from `(c, 0, 0)` with `c` any real number, after `n` blocks the state satisfies the invariant
      l   = Σ_{b < n} Σ_j exp (s b j - m),        acc = Σ_{b < n} Σ_j exp (s b j - m) · v b j,
  because the factor `exp (m - m')` turns every `exp (x - m)` into `exp (x - m')`.  Hence, after at least one
  block, `acc / l` is the exp-weighted mean `(Σ exp (s b j) · v b j) / (Σ exp (s b j))`: the common factor
  `exp (-m)` cancels, whatever the running maximum `m` is (in particular whatever the start `c` was).

  Also: a sum over `Fin (n * k)` is the double sum over `n` blocks of `k` consecutive indices, and the resulting
  statement for a row of 8192 entries read in 8 blocks of 1024.

  This module is general mathematics; it imports no program.
-/
import Mathlib.Analysis.SpecialFunctions.Exp
import Mathlib.Algebra.BigOperators.Fin
import Mathlib.Data.Fintype.BigOperators
import Mathlib.Tactic

noncomputable section

open scoped BigOperators

namespace FlashRow

/-- Multiplying by `exp (m - m')` changes the shift of an exponential from `m` to `m'`. -/
theorem exp_shift_mul (m m' x : ℝ) : Real.exp (m - m') * Real.exp (x - m) = Real.exp (x - m') := by
  rw [← Real.exp_add]
  exact congrArg Real.exp (by ring)

variable {J H : Type} [Fintype J] [Nonempty J] [Fintype H]

/-- The maximum of a block of scores. -/
def bmax (s : J → ℝ) : ℝ := Finset.univ.sup' Finset.univ_nonempty s

/-- Every score of a block is at most the block maximum. -/
theorem le_bmax (s : J → ℝ) (j : J) : s j ≤ bmax s := Finset.le_sup' s (Finset.mem_univ j)

/-- One step: from the running maximum `m`, normaliser `l` and accumulator `acc`, with a block of scores `s`
    and value rows `v`: the new maximum `m' = max m (bmax s)`, the old sums rescaled by `exp (m - m')` plus the
    block's contribution shifted by `m'`. -/
def step (m l : ℝ) (acc : H → ℝ) (s : J → ℝ) (v : J → H → ℝ) : ℝ × ℝ × (H → ℝ) :=
  let m' := max m (bmax s)
  (m', Real.exp (m - m') * l + ∑ j, Real.exp (s j - m'),
    fun h => Real.exp (m - m') * acc h + ∑ j, Real.exp (s j - m') * v j h)

/-- The state after `n` blocks, from the start `(c, 0, 0)` with `c` any real (a finite sentinel). -/
def run (c : ℝ) (s : ℕ → J → ℝ) (v : ℕ → J → H → ℝ) : ℕ → ℝ × ℝ × (H → ℝ)
  | 0 => (c, 0, fun _ => 0)
  | n + 1 => step (run c s v n).1 (run c s v n).2.1 (run c s v n).2.2 (s n) (v n)

variable (c : ℝ) (s : ℕ → J → ℝ) (v : ℕ → J → H → ℝ)

/-- The start state. -/
theorem run_zero : run c s v 0 = (c, 0, fun _ => 0) := rfl

/-- The state after `n + 1` blocks is one step from the state after `n` blocks. -/
theorem run_succ (n : ℕ) :
    run c s v (n + 1) = step (run c s v n).1 (run c s v n).2.1 (run c s v n).2.2 (s n) (v n) := rfl

/-- The running maximum after `n + 1` blocks. -/
theorem run_m_succ (n : ℕ) : (run c s v (n + 1)).1 = max (run c s v n).1 (bmax (s n)) := rfl

/-- The running normaliser after `n + 1` blocks, in terms of the new running maximum. -/
theorem run_l_succ (n : ℕ) :
    (run c s v (n + 1)).2.1 = Real.exp ((run c s v n).1 - (run c s v (n + 1)).1) * (run c s v n).2.1
      + ∑ j, Real.exp (s n j - (run c s v (n + 1)).1) := rfl

/-- The running accumulator after `n + 1` blocks, in terms of the new running maximum. -/
theorem run_acc_succ (n : ℕ) (h : H) :
    (run c s v (n + 1)).2.2 h = Real.exp ((run c s v n).1 - (run c s v (n + 1)).1) * (run c s v n).2.2 h
      + ∑ j, Real.exp (s n j - (run c s v (n + 1)).1) * v n j h := rfl

/-- Invariant of the normaliser: after `n` blocks it is the sum of `exp (score - running maximum)` over
    all scores read so far. -/
theorem run_l (n : ℕ) :
    (run c s v n).2.1 = ∑ b ∈ Finset.range n, ∑ j, Real.exp (s b j - (run c s v n).1) := by
  induction n with
  | zero => simp [run]
  | succ n ih =>
    rw [Finset.sum_range_succ, run_l_succ, ih, Finset.mul_sum]
    refine congrArg (· + _) (Finset.sum_congr rfl fun b _ => ?_)
    rw [Finset.mul_sum]
    exact Finset.sum_congr rfl fun j _ => exp_shift_mul _ _ _

/-- Invariant of the accumulator: after `n` blocks it is the sum of `exp (score - running maximum) · value`
    over all rows read so far. -/
theorem run_acc (n : ℕ) (h : H) :
    (run c s v n).2.2 h = ∑ b ∈ Finset.range n, ∑ j, Real.exp (s b j - (run c s v n).1) * v b j h := by
  induction n with
  | zero => simp [run]
  | succ n ih =>
    rw [Finset.sum_range_succ, run_acc_succ, ih, Finset.mul_sum]
    refine congrArg (· + _) (Finset.sum_congr rfl fun b _ => ?_)
    rw [Finset.mul_sum]
    exact Finset.sum_congr rfl fun j _ => by rw [← mul_assoc, exp_shift_mul]

/-- After at least one block the normaliser is positive. -/
theorem run_l_pos (n : ℕ) (hn : 0 < n) : 0 < (run c s v n).2.1 := by
  rw [run_l]
  exact Finset.sum_pos (fun b _ => Finset.sum_pos (fun j _ => Real.exp_pos _) Finset.univ_nonempty)
    (Finset.nonempty_range_iff.mpr hn.ne')

/-- The total of the unshifted weights over at least one block is positive. -/
theorem sum_exp_pos (n : ℕ) (hn : 0 < n) : 0 < ∑ b ∈ Finset.range n, ∑ j, Real.exp (s b j) :=
  Finset.sum_pos (fun b _ => Finset.sum_pos (fun j _ => Real.exp_pos _) Finset.univ_nonempty)
    (Finset.nonempty_range_iff.mpr hn.ne')

/-- The result of the block-wise softmax: accumulator over normaliser is the exp-weighted mean of the value
    rows, with unshifted weights `exp (s b j)`; the running maximum cancels. -/
theorem final (n : ℕ) (_hn : 0 < n) (h : H) :
    (run c s v n).2.2 h / (run c s v n).2.1
      = (∑ b ∈ Finset.range n, ∑ j, Real.exp (s b j) * v b j h)
        / (∑ b ∈ Finset.range n, ∑ j, Real.exp (s b j)) := by
  rw [run_l, run_acc]
  generalize (run c s v n).1 = M
  have e : ∀ x : ℝ, Real.exp (x - M) = Real.exp x / Real.exp M := fun x => Real.exp_sub x M
  simp only [e, div_mul_eq_mul_div, ← Finset.sum_div]
  exact div_div_div_cancel_right₀ (Real.exp_ne_zero M) _ _

omit [Fintype J] [Nonempty J] [Fintype H] in
/-- Re-indexing: a sum over `Fin (n * k)` is the double sum over `n` blocks of `k` consecutive indices. -/
theorem sum_blocks (n k : ℕ) (f : ℕ → ℝ) :
    ∑ i : Fin (n * k), f i = ∑ b ∈ Finset.range n, ∑ j : Fin k, f (b * k + j) := by
  rw [Fin.sum_univ_eq_sum_range (fun i => f i) (n * k)]
  induction n with
  | zero => simp
  | succ n ih =>
    rw [Nat.succ_mul, Finset.sum_range_add, ih, Finset.sum_range_succ,
      Fin.sum_univ_eq_sum_range (fun j => f (n * k + j)) k]

/-- Re-indexing of a sum over 8192 indices as 8 blocks of 1024. -/
theorem sum_blocks_8192 (g : ℕ → ℝ) :
    ∑ i : Fin 8192, g i = ∑ b ∈ Finset.range 8, ∑ j : Fin 1024, g (b * 1024 + j) :=
  sum_blocks 8 1024 g

/-- The block-wise softmax of a row of 8192 scores `S` against value rows `V`, read in 8 blocks of 1024:
    accumulator over normaliser is the exp-weighted mean over the whole row, for any start `c`. -/
theorem final_flat (S : ℕ → ℝ) (V : ℕ → H → ℝ) (h : H) :
    (run c (fun b (j : Fin 1024) => S (b * 1024 + j)) (fun b (j : Fin 1024) h => V (b * 1024 + j) h) 8).2.2 h
      / (run c (fun b (j : Fin 1024) => S (b * 1024 + j)) (fun b (j : Fin 1024) h => V (b * 1024 + j) h) 8).2.1
      = (∑ i : Fin 8192, Real.exp (S i) * V i h) / (∑ i : Fin 8192, Real.exp (S i)) := by
  rw [final c _ _ 8 (by norm_num) h, sum_blocks_8192 (fun i => Real.exp (S i) * V i h),
    sum_blocks_8192 (fun i => Real.exp (S i))]

/-- The state after `n` blocks depends only on the first `n` blocks. -/
theorem run_congr {s s' : ℕ → J → ℝ} {v v' : ℕ → J → H → ℝ} (n : ℕ)
    (hs : ∀ b, b < n → s b = s' b) (hv : ∀ b, b < n → v b = v' b) : run c s v n = run c s' v' n := by
  induction n with
  | zero => rfl
  | succ n ih =>
    rw [run_succ, run_succ, ih (fun b hb => hs b (Nat.lt_succ_of_lt hb)) (fun b hb => hv b (Nat.lt_succ_of_lt hb)),
      hs n (Nat.lt_succ_self n), hv n (Nat.lt_succ_self n)]

omit [Fintype J] [Nonempty J] [Fintype H] in
/-- The extension of a function on `Fin N` to all naturals, by zero from `N` on. -/
def ext0 {N : ℕ} {α : Type} [Zero α] (f : Fin N → α) (n : ℕ) : α := if h : n < N then f ⟨n, h⟩ else 0

omit [Fintype J] [Nonempty J] [Fintype H] in
/-- The extension agrees with the function below `N`. -/
theorem ext0_lt {N : ℕ} {α : Type} [Zero α] (f : Fin N → α) (n : ℕ) (h : n < N) : ext0 f n = f ⟨n, h⟩ :=
  dif_pos h

omit [Fintype J] [Nonempty J] [Fintype H] in
/-- The extension agrees with the function at (the value of) an index. -/
theorem ext0_val {N : ℕ} {α : Type} [Zero α] (f : Fin N → α) (i : Fin N) : ext0 f (i : ℕ) = f i :=
  dif_pos i.isLt

/-- The block-wise softmax of a row of 8192 scores `S` against value rows `V` indexed by `Fin 8192`, read in
    8 blocks of 1024 (block `b`, position `j` is index `b * 1024 + j`): accumulator over normaliser is the
    exp-weighted mean over the whole row, for any start `c`. -/
theorem final_flat_fin (S : Fin 8192 → ℝ) (V : Fin 8192 → H → ℝ) (h : H) :
    (run c (fun b (j : Fin 1024) => ext0 S (b * 1024 + j)) (fun b (j : Fin 1024) => ext0 V (b * 1024 + j)) 8).2.2 h
      / (run c (fun b (j : Fin 1024) => ext0 S (b * 1024 + j)) (fun b (j : Fin 1024) => ext0 V (b * 1024 + j)) 8).2.1
      = (∑ i : Fin 8192, Real.exp (S i) * V i h) / (∑ i : Fin 8192, Real.exp (S i)) := by
  refine (final_flat c (ext0 S) (ext0 V) h).trans ?_
  simp only [ext0_val]

end FlashRow

end
-- ==== Proof.KernelLaw.lean ====
/-
  The law of the block-wise attention row, over the reals.

  For a sequence `x` (8192 rows of width 256) and square weight matrices `wq, wk, wv`, fix a query row `i`.
  * Scale folding: multiplying the query weights by 1/16 before projecting multiplies every projected entry,
    hence every dot product with a projected key row, by 1/16; so the dot products of the pre-scaled query row
    with the key rows are the scaled scores `score x wq wk i j`.
  * Reading the 8192 scores of row `i` and the 8192 projected value rows in 8 blocks of 1024 with the
    block-wise softmax recursion (`FlashRow.run`, from any real start `c`) gives accumulator / normaliser
    = `attnR x wq wk wv i d`, the softmax attention of the specification.
  The statement is given for the canonical blocks (block `b`, position `j` is row `b * 1024 + j`) and for any
  family of blocks that agrees with them on the first 8 blocks.  This module imports no program.
-/
import proofs.«146421_j33767032881830_2_alg».proof.Proof.Spec
import proofs.«146421_j33767032881830_2_alg».proof.Proof.LibFlashRow

noncomputable section

open scoped BigOperators

namespace Cert.KernelLaw

open Cert.Spec FlashRow

/-- The query weights multiplied entrywise by 1/16. -/
def scaled (wq : Fin 256 → Fin 256 → ℝ) : Fin 256 → Fin 256 → ℝ := fun k e => wq k e * (1 / 16)

/-- Row `b * 1024 + j` of block `b < 8`, position `j < 1024`, is below 8192. -/
theorem blk_lt {b : ℕ} (hb : b < 8) (j : Fin 1024) : b * 1024 + (j : ℕ) < 8192 := by
  have := j.isLt
  omega

variable (x : Fin 8192 → Fin 256 → ℝ) (wq wk wv : Fin 256 → Fin 256 → ℝ)

/-- Projecting with the pre-scaled weights is the projection times 1/16. -/
theorem proj_scaled (i : Fin 8192) (e : Fin 256) : proj x (scaled wq) i e = proj x wq i e * (1 / 16) := by
  unfold proj scaled
  rw [Finset.sum_mul]
  exact Finset.sum_congr rfl fun k _ => (mul_assoc _ _ _).symm

/-- Scale folding: the dot product of the pre-scaled query row `i` with the key row `jj` is the scaled score. -/
theorem score_scaled (i jj : Fin 8192) :
    ∑ e, proj x (scaled wq) i e * proj x wk jj e = score x wq wk i jj := by
  unfold score
  rw [Finset.sum_mul]
  refine Finset.sum_congr rfl fun e _ => ?_
  rw [proj_scaled]
  ring

/-- The block-wise softmax over any 8 blocks that hold the scaled scores of row `i` and the projected value
    rows (block `b`, position `j` holding row `b * 1024 + j`) gives the attention of the specification. -/
theorem kernel_row_blocks (c : ℝ) (i : Fin 8192) (d : Fin 256)
    (s : ℕ → Fin 1024 → ℝ) (v : ℕ → Fin 1024 → Fin 256 → ℝ)
    (hs : ∀ b (hb : b < 8) (j : Fin 1024), s b j = score x wq wk i ⟨b * 1024 + j, blk_lt hb j⟩)
    (hv : ∀ b (hb : b < 8) (j : Fin 1024) (h : Fin 256), v b j h = proj x wv ⟨b * 1024 + j, blk_lt hb j⟩ h) :
    (run c s v 8).2.2 d / (run c s v 8).2.1 = attnR x wq wk wv i d := by
  have e : run c s v 8
      = run c (fun b (j : Fin 1024) => ext0 (fun jj => score x wq wk i jj) (b * 1024 + j))
          (fun b (j : Fin 1024) => ext0 (fun jj => proj x wv jj) (b * 1024 + j)) 8 := by
    refine run_congr c 8 (fun b hb => ?_) (fun b hb => ?_)
    · funext j
      rw [ext0_lt _ _ (blk_lt hb j)]
      exact hs b hb j
    · funext j h
      rw [ext0_lt _ _ (blk_lt hb j)]
      exact hv b hb j h
  rw [e]
  exact final_flat_fin c (fun jj => score x wq wk i jj) (fun jj => proj x wv jj) d

/-- The block-wise softmax of the dot products of the pre-scaled query row `i` with the key rows, against the
    projected value rows, read in the canonical 8 blocks of 1024, gives the attention of the specification. -/
theorem kernel_row (c : ℝ) (i : Fin 8192) (d : Fin 256) :
    (run c (fun b (j : Fin 1024) =>
          ext0 (fun jj : Fin 8192 => ∑ e, proj x (scaled wq) i e * proj x wk jj e) (b * 1024 + j))
        (fun b (j : Fin 1024) => ext0 (fun jj : Fin 8192 => proj x wv jj) (b * 1024 + j)) 8).2.2 d
      / (run c (fun b (j : Fin 1024) =>
          ext0 (fun jj : Fin 8192 => ∑ e, proj x (scaled wq) i e * proj x wk jj e) (b * 1024 + j))
        (fun b (j : Fin 1024) => ext0 (fun jj : Fin 8192 => proj x wv jj) (b * 1024 + j)) 8).2.1
      = attnR x wq wk wv i d := by
  refine kernel_row_blocks x wq wk wv c i d _ _ (fun b hb j => ?_) (fun b hb j h => ?_)
  · rw [ext0_lt _ _ (blk_lt hb j)]
    exact score_scaled x wq wk i _
  · rw [ext0_lt _ _ (blk_lt hb j)]

end Cert.KernelLaw

end
-- ==== Proof.KI.Host.lean ====
/-
  The host operations before the kernel's regions: the query weights multiplied entrywise by 1/16.

  Three operations run on the host before the first region: the constant whose binary32 word 0x3D800000 denotes
  1/16, its broadcast to a 256 x 256 array, and the entrywise product of the query weights with that array. So
  afterwards the product's buffer holds wq k e · (1/16) at (k, e) — real when the query weights are real — and
  the sequence array and the key and value weights, which no host operation writes, are as before.
-/
import proofs.«146421_j33767032881830_2_alg».proof.Proof.Gen.KernelIdeal.Launch
import proofs.«146421_j33767032881830_2_alg».proof.Proof.KIPay1
import proofs.«146421_j33767032881830_2_alg».proof.Proof.Spec
import proofs.«146421_j33767032881830_2_alg».proof.Proof.KernelLaw
import Idealize.ShloMosaic.Lib.StableHlo.Run

noncomputable section

namespace Cert.KernelIdeal.HostV

open Cert.KernelIdeal Cert.KernelIdeal.Gen Cert.KernelIdeal.Pay Cert.Spec
open Idealize.ShloMosaic Idealize.ShloMosaic.TcCoe Idealize.ShloMosaic.ValueIdx Idealize.SL.Sem

variable (W : Valuation τ sig (Elt Ideal))

/-- After the host operations the scaled weights' buffer holds the query weights times the broadcast constant. -/
theorem after_v1 :
    (StableHlo.after hostOps0 W (Proc.devRef .tc main_v1) : S256x256.Idx → EReal)
      = mulf (W (Proc.devRef .tc main_arg1))
          (broadcastInDim S256x256 ![] bcast_S_S256x256 (constant (F := Ideal) S_ .f32 0x3D800000#32)) := by
  dsimp only [hostOps0]
  after_results

/-- A real 256 x 256 array times the broadcast constant is, at (k, e), the real w k e · (1/16). -/
theorem scale_apply (w : (⟨2, ![256, 256]⟩ : Shape).Idx → EReal) (h : IsReal w) (k e : Fin 256) :
    mulf (F := Ideal) (s := S256x256) (φ := .f32) w
        (broadcastInDim S256x256 ![] bcast_S_S256x256 (constant (F := Ideal) S_ .f32 0x3D800000#32)) (ix2 k e)
      = ((Cert.KernelLaw.scaled (toR w) k e : ℝ) : EReal) := by
  show w (ix2 k e) * Ideal.ofBits .f32 0x3D800000#32 = _
  rw [h.at, ofBits_sixteenth, ← EReal.coe_mul]
  rfl

/-- At (k, e), with real query weights, the scaled weights' buffer holds the real wq k e · (1/16). -/
theorem v1_apply (h : IsReal (n0 := 256) (n1 := 256) (W (Proc.devRef .tc main_arg1))) (k e : Fin 256) :
    (StableHlo.after hostOps0 W (Proc.devRef .tc main_v1) : S256x256.Idx → EReal) (ix2 k e)
      = ((Cert.KernelLaw.scaled (toR (n0 := 256) (n1 := 256) (W (Proc.devRef .tc main_arg1))) k e : ℝ) : EReal) := by
  rw [after_v1]
  exact scale_apply _ h k e

/-- The scaled weights are real when the query weights are. -/
theorem v1_isReal (h : IsReal (n0 := 256) (n1 := 256) (W (Proc.devRef .tc main_arg1))) :
    IsReal (n0 := 256) (n1 := 256) (StableHlo.after hostOps0 W (Proc.devRef .tc main_v1)) :=
  isReal_of_apply _ (v1_apply W h)

/-- Their real entries are the query weights' real entries times 1/16. -/
theorem v1_toR (h : IsReal (n0 := 256) (n1 := 256) (W (Proc.devRef .tc main_arg1))) (k e : Fin 256) :
    toR (n0 := 256) (n1 := 256) (StableHlo.after hostOps0 W (Proc.devRef .tc main_v1)) k e
      = Cert.KernelLaw.scaled (toR (n0 := 256) (n1 := 256) (W (Proc.devRef .tc main_arg1))) k e :=
  toR_of_apply _ (v1_apply W h) k e

/-- No host operation writes the sequence array. -/
theorem after_arg0 : StableHlo.after hostOps0 W (Proc.devRef .tc main_arg0) = W (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-- No host operation writes the key weights. -/
theorem after_arg2 : StableHlo.after hostOps0 W (Proc.devRef .tc main_arg2) = W (Proc.devRef .tc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-- No host operation writes the value weights. -/
theorem after_arg3 : StableHlo.after hostOps0 W (Proc.devRef .tc main_arg3) = W (Proc.devRef .tc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

end Cert.KernelIdeal.HostV

end
-- ==== Proof.KI.Blocks1.lean ====
/-
  Which rows of which array each staged block of the attention region is, and the cover of the output window.

  The region's grid is 8 x 8; point t = 8 qi + ki has query tile qi = t / 8 and key tile ki = t % 8.  Each window
  cuts its array into blocks of 1024 rows (the whole array for the 256 x 256 weights); the block index maps,
  decided once over the 64 points, are
      window 0 (the sequence x)            : block (t / 8, 0)
      window 1 (the scaled query weights)  : block (0, 0), the whole array
      window 2, 3 (the projected keys and values) : block (t % 8, 0)
      window 4 (the output)                : block (t / 8, 0).
  An element (p, e) of a block with block index (b, 0) is the array's element (1024 b + p, e).  So a staged block
  read at (p, e) is the array read at that row, and every row r of the output array lies in the block written
  back at point 8 (r / 1024) + 7, the last key tile of its query tile.
-/
import proofs.«146421_j33767032881830_2_alg».proof.Proof.KI.R1Runs
import Idealize.ShloMosaic.Lib.Pipeline.Value
import Idealize.ShloMosaic.Lib.ValueIdx

set_option maxRecDepth 16384

noncomputable section

namespace Cert.KernelIdeal.Blk1

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat Cfg Window)

variable {F : FTy → Type} [FloatOps F]

/-- The block index maps of the five windows, decided once over the grid: query tile `t / 8`, key tile `t % 8`. -/
theorem idx_facts : ∀ t : Fin cfg1.N,
    win1_0.index t (0 : Fin 2) = t.val / 8 ∧ win1_0.index t (1 : Fin 2) = 0
    ∧ win1_1.index t (0 : Fin 2) = 0 ∧ win1_1.index t (1 : Fin 2) = 0
    ∧ win1_2.index t (0 : Fin 2) = t.val % 8 ∧ win1_2.index t (1 : Fin 2) = 0
    ∧ win1_3.index t (0 : Fin 2) = t.val % 8 ∧ win1_3.index t (1 : Fin 2) = 0
    ∧ win1_4.index t (0 : Fin 2) = t.val / 8 ∧ win1_4.index t (1 : Fin 2) = 0 :=
  (by decide +kernel : ∀ t : Fin grid1.N, _)

/-- Row `p` of query tile `t / 8` is a row of the sequence. -/
theorem qrow_lt (t : Fin cfg1.N) (p : Fin 1024) : 1024 * (t.val / 8) + p.val < 8192 := by
  have hN : cfg1.N = 64 := Gen.N_1
  have := t.isLt
  have := p.isLt
  omega

/-- Row `j` of key tile `t % 8` is a row of the sequence. -/
theorem krow_lt (t : Fin cfg1.N) (j : Fin 1024) : 1024 * (t.val % 8) + j.val < 8192 := by
  have := j.isLt
  omega

section Blocks
variable (V : (c : Dev nD) → (b : Ref sig .tc) → Buf (Elt F) ((c : Thread nD τ).loc b))

/-- The sequence's block at point `t` is rows `1024 (t / 8) …` of the sequence. -/
theorem blk0 (c : Dev nD) (t : Fin cfg1.N) (p : Fin 1024) (e : Fin 256) :
    (iblk1 V c 0 t : S1024x256.Idx → Elt F .f32) (ix2 p e)
      = (V c main_arg0 : S8192x256.Idx → Elt F .f32) (ix2 ⟨1024 * (t.val / 8) + p.val, qrow_lt t p⟩ e) := by
  obtain ⟨h0, h1, -⟩ := idx_facts t
  unfold iblk1
  rw [View.read_apply]
  show V c main_arg0 _ = V c main_arg0 _
  congr 1
  funext a
  apply Fin.ext
  match a with
  | ⟨0, _⟩ => show win1_0.index t (0 : Fin 2) * 1024 + 1 * p.val = 1024 * (t.val / 8) + p.val; rw [h0]; omega
  | ⟨1, _⟩ => show win1_0.index t (1 : Fin 2) * 256 + 1 * e.val = e.val; rw [h1]; omega

/-- The scaled query weights' block at every point is the whole array. -/
theorem blk1 (c : Dev nD) (t : Fin cfg1.N) (k e : Fin 256) :
    (iblk1 V c 1 t : S256x256.Idx → Elt F .f32) (ix2 k e) = (V c main_v1 : S256x256.Idx → Elt F .f32) (ix2 k e) := by
  obtain ⟨-, -, h0, h1, -⟩ := idx_facts t
  unfold iblk1
  rw [View.read_apply]
  show V c main_v1 _ = V c main_v1 _
  congr 1
  funext a
  apply Fin.ext
  match a with
  | ⟨0, _⟩ => show win1_1.index t (0 : Fin 2) * 256 + 1 * k.val = k.val; rw [h0]; omega
  | ⟨1, _⟩ => show win1_1.index t (1 : Fin 2) * 256 + 1 * e.val = e.val; rw [h1]; omega

/-- The same as an equation of arrays. -/
theorem blk1_eq (c : Dev nD) (t : Fin cfg1.N) :
    (iblk1 V c 1 t : S256x256.Idx → Elt F .f32) = (V c main_v1 : S256x256.Idx → Elt F .f32) := by
  funext i
  obtain ⟨k, e, rfl⟩ : ∃ (k e : Fin 256), i = ix2 k e := ⟨i 0, i 1, eq_ix2 i⟩
  exact blk1 V c t k e

/-- The projected keys' block at point `t` is rows `1024 (t % 8) …` of the projected keys. -/
theorem blk2 (c : Dev nD) (t : Fin cfg1.N) (j : Fin 1024) (e : Fin 256) :
    (iblk1 V c 2 t : S1024x256.Idx → Elt F .bf16) (ix2 j e)
      = (V c main_v2_0 : S8192x256.Idx → Elt F .bf16) (ix2 ⟨1024 * (t.val % 8) + j.val, krow_lt t j⟩ e) := by
  obtain ⟨-, -, -, -, h0, h1, -⟩ := idx_facts t
  unfold iblk1
  rw [View.read_apply]
  show V c main_v2_0 _ = V c main_v2_0 _
  congr 1
  funext a
  apply Fin.ext
  match a with
  | ⟨0, _⟩ => show win1_2.index t (0 : Fin 2) * 1024 + 1 * j.val = 1024 * (t.val % 8) + j.val; rw [h0]; omega
  | ⟨1, _⟩ => show win1_2.index t (1 : Fin 2) * 256 + 1 * e.val = e.val; rw [h1]; omega

/-- The projected values' block at point `t` is rows `1024 (t % 8) …` of the projected values. -/
theorem blk3 (c : Dev nD) (t : Fin cfg1.N) (j : Fin 1024) (e : Fin 256) :
    (iblk1 V c 3 t : S1024x256.Idx → Elt F .bf16) (ix2 j e)
      = (V c main_v2_1 : S8192x256.Idx → Elt F .bf16) (ix2 ⟨1024 * (t.val % 8) + j.val, krow_lt t j⟩ e) := by
  obtain ⟨-, -, -, -, -, -, h0, h1, -⟩ := idx_facts t
  unfold iblk1
  rw [View.read_apply]
  show V c main_v2_1 _ = V c main_v2_1 _
  congr 1
  funext a
  apply Fin.ext
  match a with
  | ⟨0, _⟩ => show win1_3.index t (0 : Fin 2) * 1024 + 1 * j.val = 1024 * (t.val % 8) + j.val; rw [h0]; omega
  | ⟨1, _⟩ => show win1_3.index t (1 : Fin 2) * 256 + 1 * e.val = e.val; rw [h1]; omega

end Blocks

/-- The output window's block at point `t`, read off any contents `G` of the output array, is rows
    `1024 (t / 8) …` of `G`. -/
theorem outblk (G : S8192x256.Idx → Elt F .f32) (t : Fin cfg1.N) (p : Fin 1024) (d : Fin 256) :
    (((cfg1.win 4).blk t).view.read (Elt F) G : S1024x256.Idx → Elt F .f32) (ix2 p d)
      = G (ix2 ⟨1024 * (t.val / 8) + p.val, qrow_lt t p⟩ d) := by
  obtain ⟨-, -, -, -, -, -, -, -, h0, h1⟩ := idx_facts t
  rw [View.read_apply]
  show G _ = G _
  congr 1
  funext a
  apply Fin.ext
  match a with
  | ⟨0, _⟩ => show win1_4.index t (0 : Fin 2) * 1024 + 1 * p.val = 1024 * (t.val / 8) + p.val; rw [h0]; omega
  | ⟨1, _⟩ => show win1_4.index t (1 : Fin 2) * 256 + 1 * d.val = d.val; rw [h1]; omega

/-- An index of the output array is in point `t`'s block iff each coordinate is in the block's range on its axis. -/
theorem mem_blk4 (t : Fin cfg1.N) (i : S8192x256.Idx) :
    i ∈ ((cfg1.win 4).blk t).view.set
      ↔ ∀ a : Fin 2, win1_4.index t a * S1024x256.size a ≤ (i a).val
          ∧ (i a).val < win1_4.index t a * S1024x256.size a + S1024x256.size a := by
  show i ∈ ((View.whole main_v3).slice (win1_4.rect t)).set ↔ _
  rw [View.set_slice_whole, Rect.mem_set_unit]
  exact Iff.rfl

/-- Every index of the output array lies in a block that is written back: row `r` in the block of point
    `8 (r / 1024) + 7`, the last key tile of query tile `r / 1024`. -/
theorem cover4 (i : S8192x256.Idx) :
    ∃ t : Fin cfg1.N, (cfg1.win 4).flush t = true ∧ i ∈ ((View.whole main_v3).slice (win1_4.rect t)).set := by
  have hN : cfg1.N = 64 := Gen.N_1
  have hi0 : (i 0).val < 8192 := (i 0).isLt
  have hi1 : (i 1).val < 256 := (i 1).isLt
  have hlt : 8 * ((i 0).val / 1024) + 7 < cfg1.N := by omega
  have htv : (⟨8 * ((i 0).val / 1024) + 7, hlt⟩ : Fin cfg1.N).val = 8 * ((i 0).val / 1024) + 7 := rfl
  generalize (⟨8 * ((i 0).val / 1024) + 7, hlt⟩ : Fin cfg1.N) = t at htv
  obtain ⟨-, -, -, -, -, -, -, -, h0, h1⟩ := idx_facts t
  refine ⟨t, (Gen.flush1_4 t).mpr (by omega), ?_⟩
  show i ∈ ((cfg1.win 4).blk t).view.set
  rw [mem_blk4]
  intro a
  match a with
  | ⟨0, _⟩ =>
    show win1_4.index t (0 : Fin 2) * 1024 ≤ (i 0).val ∧ (i 0).val < win1_4.index t (0 : Fin 2) * 1024 + 1024
    rw [h0]; omega
  | ⟨1, _⟩ =>
    show win1_4.index t (1 : Fin 2) * 256 ≤ (i 1).val ∧ (i 1).val < win1_4.index t (1 : Fin 2) * 256 + 256
    rw [h1]; omega

end Cert.KernelIdeal.Blk1

end
-- ==== Proof.KIPay2.lean ====
/-
  The kernel's arithmetic read at an index, on the extended reals — part 2: the running maximum.

  The maximum reduction of the [1024,1024] score block along its rows, started from the bottom element, is at row p
  the running maximum of the row's entries; the entries are images of reals and there are 1024 of them, so it is the
  image of the greatest score of the row. Cast to a column and joined with the old running maximum (a real), it is
  the image of  m' p = max (m p) (max_j sc p j).
-/
import proofs.«146421_j33767032881830_2_alg».proof.Proof.KIPay1

noncomputable section

open scoped BigOperators

namespace Cert.KernelIdeal.Pay

open Idealize.ShloMosaic Idealize.ShloMosaic.ValueIdx Cert.KernelIdeal Cert.KernelIdeal.Gen Cert.Spec

/-! ## A column of row results: the cast [a] → [a,1] -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The maximum along a row -/

/-- The word 0xFF800000 denotes the bottom element: the start of a maximum. -/
theorem ofBits_negInf : Ideal.ofBits .f32 0xFF800000#32 = ⊥ := by simp [Ideal.ofBits, Ideal.ieee]

/-- Row `p` of a [1024,1024] array with column `j` inserted is the index (p, j). -/
theorem lift_row (p j : Fin 1024) : reduces_S1024x1024_S1024.lift (ix1 p) j = ix2 p j := by
  funext c
  match c with
  | ⟨0, _⟩ => exact Fin.ext rfl
  | ⟨1, _⟩ => exact Fin.ext rfl

/-- The maximum reduction of a [1024,1024] array along its rows, at row `p`: the running maximum from the bottom
    element over the row's entries. -/
theorem rowmax_apply (src : FVec Ideal S1024x1024 .f32) (p : Fin 1024) :
    multiReduction .maximumf [1] S1024 src 0xFF800000#32 reduces_S1024x1024_S1024 (.inl rfl) rfl (ix1 p)
      = (Finset.univ : Finset (Fin 1024)).fold max (⊥ : EReal) (fun j => src (ix2 p j)) := by
  refine (Ideal.multiReduction_maximumf_single src _ reduces_S1024x1024_S1024 _ _ (ix1 p)).trans ?_
  show (Finset.univ : Finset (Fin 1024)).fold max (Ideal.ofBits .f32 0xFF800000#32)
      (fun j => src (reduces_S1024x1024_S1024.lift (ix1 p) j)) = _
  rw [ofBits_negInf]
  exact congrArg (fun g : Fin 1024 → EReal => (Finset.univ : Finset (Fin 1024)).fold max (⊥ : EReal) g)
    (funext fun j => congrArg src (lift_row p j))

/-- The running maximum from the bottom element over the images of finitely many reals, at least one, is the image of
    their greatest. -/
theorem fold_max_bot_coe {ι : Type*} (s : Finset ι) (hs : s.Nonempty) (f : ι → ℝ) :
    s.fold max (⊥ : EReal) (fun j => ((f j : ℝ) : EReal)) = ((s.sup' hs f : ℝ) : EReal) := by
  apply le_antisymm
  · rw [Finset.fold_max_le]
    exact ⟨bot_le, fun x hx => EReal.coe_le_coe_iff.mpr (Finset.le_sup' f hx)⟩
  · obtain ⟨i, hi, he⟩ := Finset.exists_mem_eq_sup' hs f
    rw [Finset.le_fold_max]
    exact Or.inr ⟨i, hi, by rw [he]⟩

/-! ## The new running maximum -/

/-- The new running maximum of row `p`: the greater of the old one and the greatest score of the row. -/
def mNew (qq kk : (⟨2, ![1024, 256]⟩ : Shape).Idx → EReal) (m : (⟨2, ![1024, 1]⟩ : Shape).Idx → EReal) (p : Fin 1024) : ℝ :=
  max (toR m p 0) (Finset.univ.sup' Finset.univ_nonempty fun j : Fin 1024 => sc qq kk p j)

/-- The row maximum of the scores, as a column, at (p, u): the image of the greatest score of row `p`. -/
theorem rowmax_scores_apply (qq kk : Vec Ideal S1024x256 .bf16) (hq : IsReal qq) (hk : IsReal kk) (p : Fin 1024) (u : Fin 1) :
    shapeCast S1024x1 (multiReduction .maximumf [1] S1024 (k1_pay8 (F := Ideal) qq kk) 0xFF800000#32
        reduces_S1024x1024_S1024 (.inl rfl) rfl) shapeCasts_S1024_S1024x1 (ix2 p u)
      = ((Finset.univ.sup' Finset.univ_nonempty fun j : Fin 1024 => sc qq kk p j : ℝ) : EReal) := by
  refine (shapeCast_a_a1_apply _ _ p u).trans ?_
  refine (rowmax_apply _ p).trans ?_
  simp only [k1_pay8_apply qq kk hq hk]
  exact fold_max_bot_coe _ _ _

/-- The new running maximum payload at (p, 0): the image of `mNew p`. -/
theorem k1_pay9_apply (qq kk : Vec Ideal S1024x256 .bf16) (m : Vec Ideal S1024x1 .f32) (hq : IsReal qq) (hk : IsReal kk)
    (hm : IsReal m) (p : Fin 1024) :
    k1_pay9 (F := Ideal) qq kk m (ix2 p 0) = ((mNew qq kk m p : ℝ) : EReal) := by
  unfold k1_pay9 mNew
  show max (m (ix2 p 0)) _ = _
  rw [rowmax_scores_apply qq kk hq hk p 0, hm.at p 0]
  exact (Monotone.map_max EReal.coe_strictMono.monotone).symm

/-- The same at any column coordinate of the one column. -/
theorem k1_pay9_apply' (qq kk : Vec Ideal S1024x256 .bf16) (m : Vec Ideal S1024x1 .f32) (hq : IsReal qq) (hk : IsReal kk)
    (hm : IsReal m) (p : Fin 1024) (u : Fin 1) :
    k1_pay9 (F := Ideal) qq kk m (ix2 p u) = ((mNew qq kk m p : ℝ) : EReal) := by
  obtain rfl := fin1_eq_zero u
  exact k1_pay9_apply qq kk m hq hk hm p

/-- The new running maximum payload has real entries. -/
theorem k1_pay9_isReal (qq kk : Vec Ideal S1024x256 .bf16) (m : Vec Ideal S1024x1 .f32) (hq : IsReal qq) (hk : IsReal kk)
    (hm : IsReal m) : IsReal (k1_pay9 (F := Ideal) qq kk m) :=
  isReal_of_apply (fun p _ => mNew qq kk m p) (k1_pay9_apply' qq kk m hq hk hm)

/-- Its real entries. -/
theorem k1_pay9_toR (qq kk : Vec Ideal S1024x256 .bf16) (m : Vec Ideal S1024x1 .f32) (hq : IsReal qq) (hk : IsReal kk)
    (hm : IsReal m) (p : Fin 1024) (u : Fin 1) : toR (k1_pay9 (F := Ideal) qq kk m) p u = mNew qq kk m p :=
  toR_of_apply (fun p _ => mNew qq kk m p) (k1_pay9_apply' qq kk m hq hk hm) p u

/-- The new running maximum is at least the old one ... -/
theorem le_mNew (qq kk : (⟨2, ![1024, 256]⟩ : Shape).Idx → EReal) (m : (⟨2, ![1024, 1]⟩ : Shape).Idx → EReal) (p : Fin 1024) :
    toR m p 0 ≤ mNew qq kk m p := le_max_left _ _

/-- ... and at least every score of the row. -/
theorem sc_le_mNew (qq kk : (⟨2, ![1024, 256]⟩ : Shape).Idx → EReal) (m : (⟨2, ![1024, 1]⟩ : Shape).Idx → EReal) (p j : Fin 1024) :
    sc qq kk p j ≤ mNew qq kk m p :=
  le_trans (Finset.le_sup' (fun j : Fin 1024 => sc qq kk p j) (Finset.mem_univ j)) (le_max_right _ _)

end Cert.KernelIdeal.Pay

end
-- ==== Proof.KIPayB.lean ====
/-
  The flash step's normaliser, accumulator and final quotient, read at an index on the extended reals.

  One grid step holds a query block `qq`, a key block `kk`, a value block `vv` (1024 rows each), the running
  maximum `m` and normaliser `l` (columns of 1024 rows) and the accumulator `acc` (1024 × 256).  With the block of
  scores `s = k1_pay8 qq kk` and the new maximum `m' = k1_pay9 qq kk m` (both taken as given, with real entries):
    • the rescaling factor of row `p` is `exp (m p - m' p)`, the weight of key `j` is `exp (s p j - m' p)`;
    • the new normaliser is `exp (m p - m' p) · l p + Σ_j exp (s p j - m' p)` — a lane sum along axis 1 from the
      zero word, turned into a column and added to the rescaled old normaliser;
    • the new accumulator is `exp (m p - m' p) · acc p d + Σ_j exp (s p j - m' p) · vv j d` — the product of the
      1024 × 1024 weights with the 1024 × 256 value block into a zero accumulator, added to the rescaled old one;
    • the final quotient is `acc p d / l p` when `l p ≠ 0`.
  Every statement is at entries that are images of reals, where each extended-real operation is the image of the
  real one; each result again has only real entries.  The layout steps met on the way — a vector turned into a
  column, a column broadcast along rows — read one entry of their operand.
-/
import proofs.«146421_j33767032881830_2_alg».proof.Proof.Gen.KernelIdeal.Skeleton
import proofs.«146421_j33767032881830_2_alg».proof.Proof.Spec
import proofs.«146421_j33767032881830_2_alg».proof.Proof.LibRowSoftmax
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayB

open Cert.KernelIdeal Cert.KernelIdeal.Gen Cert.Spec Idealize.ShloMosaic Idealize.ShloMosaic.ValueIdx

section Layout
variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The lane sum of a `[1024, 1024]` array along axis 1 from the zero word, read at row `p`: the sum over the row. -/
theorem rowsum_apply (src : FVec Ideal S1024x1024 .f32) (hφ : FKind.Formats .f32)
    (hacc : (0x00000000#32 : BitVec 32) = 0x00000000#32) (p : Fin 1024) :
    multiReduction (F := Ideal) .add [1] S1024 src 0x00000000#32 reduces_S1024x1024_S1024 hφ hacc (ix1 p)
      = ∑ j : Fin 1024, src (ix2 p j) := by
  refine (Ideal.multiReduction_add_single src 0x00000000#32 reduces_S1024x1024_S1024 hφ hacc (ix1 p)).trans ?_
  refine Finset.sum_congr rfl fun k _ => congrArg src ?_
  funext a
  match a with
  | ⟨0, _⟩ => rfl
  | ⟨1, _⟩ => rfl

/-- The dimension numbers of the weights-times-values product: `[1024, 1024] · [1024, 256] → [1024, 256]`,
    contracting axis 1 of the left operand with axis 0 of the right one. -/
abbrev Dpv : DotDims S1024x1024 S1024x256 S1024x256 := dot_S1024x1024_S1024x256_S1024x256_1_0_0_1_n_n

/-- The left operand's row coordinate is the output's row coordinate. -/
theorem pv_lhs0 (i : S1024x256.Idx) (q : Dpv.contr.Idx) : (Dpv.lhsIdx i q 0).val = (i 0).val := by
  unfold DotDims.lhsIdx
  rw [dif_neg (show ¬(0 : Fin S1024x1024.rank) ∈ Dpv.lhsBatch by decide),
    dif_pos (show (0 : Fin S1024x1024.rank) ∈ Dpv.lhsNonContracting by decide)]
  rfl

/-- The right operand's column coordinate is the output's column coordinate. -/
theorem pv_rhs1 (i : S1024x256.Idx) (q : Dpv.contr.Idx) : (Dpv.rhsIdx i q 1).val = (i 1).val := by
  unfold DotDims.rhsIdx
  rw [dif_neg (show ¬(1 : Fin S1024x256.rank) ∈ Dpv.rhsBatch by decide),
    dif_pos (show (1 : Fin S1024x256.rank) ∈ Dpv.rhsNonContracting by decide)]
  rfl

/-- The product of a `[1024, 1024]` array with a `[1024, 256]` array into the zero accumulator, read at `(p, d)`:
    the sum over the shared index. -/
theorem pv_apply (A : FVec Ideal S1024x1024 .bf16) (B : FVec Ideal S1024x256 .bf16) (p : Fin 1024) (d : Fin 256) :
    matmul (F := Ideal) Dpv none A B (constant (F := Ideal) S1024x256 .f32 0x00000000#32) (ix2 p d)
      = ∑ j : Fin 1024, A (ix2 p j) * B (ix2 j d) := by
  refine (Ideal.matmul_constant_zero_apply Dpv none A B (ix2 p d)).trans ?_
  rw [← Equiv.sum_comp (contrEquiv1 Dpv 1024 rfl rfl).symm]
  refine Finset.sum_congr rfl fun k _ => ?_
  have hk := contrEquiv1_symm_val Dpv 1024 rfl rfl k
  have el : Dpv.lhsIdx (ix2 p d) ((contrEquiv1 Dpv 1024 rfl rfl).symm k) = ix2 p k := funext fun a => Fin.ext (by
    match a with
    | ⟨0, _⟩ => exact pv_lhs0 _ _
    | ⟨1, _⟩ => exact (Dpv.lhsIdx_val_of_single rfl _ _).trans hk)
  have er : Dpv.rhsIdx (ix2 p d) ((contrEquiv1 Dpv 1024 rfl rfl).symm k) = ix2 k d := funext fun a => Fin.ext (by
    match a with
    | ⟨0, _⟩ => exact (Dpv.rhsIdx_val_of_single rfl _ _).trans hk
    | ⟨1, _⟩ => exact pv_rhs1 _ _)
  rw [el, er]

/-- An array that reads a real at every pair of coordinates has only real entries. -/
theorem isReal_of_apply {n0 n1 : ℕ} (a : (⟨2, ![n0, n1]⟩ : Shape).Idx → EReal) (r : Fin n0 → Fin n1 → ℝ)
    (h : ∀ p q, a (ix2 p q) = ((r p q : ℝ) : EReal)) : IsReal a := fun j => by
  obtain ⟨p, q, rfl⟩ : ∃ (p : Fin n0) (q : Fin n1), j = ix2 p q := ⟨j 0, j 1, eq_ix2 j⟩
  rw [h p q, EReal.toReal_coe]

section Payloads

variable (qq kk vv : Vec Ideal S1024x256 .bf16) (m l : Vec Ideal S1024x1 .f32) (acc : Vec Ideal S1024x256 .f32)

/-- The rescaling factor of a row: `exp (old maximum - new maximum)`, a real when both maxima are. -/
theorem pay10_apply (hm : IsReal m) (hm' : IsReal (k1_pay9 (F := Ideal) qq kk m)) (p : Fin 1024) :
    k1_pay10 (F := Ideal) qq kk m m (ix2 p (0 : Fin 1))
      = ((Real.exp (toR m p 0 - toR (k1_pay9 (F := Ideal) qq kk m) p 0) : ℝ) : EReal) := by
  show Ideal.exp (m (ix2 p (0 : Fin 1)) - k1_pay9 (F := Ideal) qq kk m (ix2 p (0 : Fin 1))) = _
  rw [hm.at p 0, hm'.at p 0, ← EReal.coe_sub, Ideal.exp_coe]

/-- The weight of key `j` for row `p`: `exp (score - new maximum)`, a real when the score and the maximum are. -/
theorem pay11_apply (hs : IsReal (k1_pay8 (F := Ideal) qq kk)) (hm' : IsReal (k1_pay9 (F := Ideal) qq kk m))
    (p j : Fin 1024) :
    k1_pay11 (F := Ideal) qq kk m (ix2 p j)
      = ((Real.exp (toR (k1_pay8 (F := Ideal) qq kk) p j - toR (k1_pay9 (F := Ideal) qq kk m) p 0) : ℝ) : EReal) := by
  show Ideal.exp (k1_pay8 (F := Ideal) qq kk (ix2 p j)
      - broadcastTo S1024x1024 (k1_pay9 (F := Ideal) qq kk m) broadcasts_S1024x1_S1024x1024 (ix2 p j)) = _
  rw [broadcastTo_a1_ab_apply, hs.at p j, hm'.at p 0, ← EReal.coe_sub, Ideal.exp_coe]

/-- The new normaliser of row `p`: the old one rescaled plus the sum of the block's weights. -/
theorem pay12_apply (hm : IsReal m) (hl : IsReal l) (hs : IsReal (k1_pay8 (F := Ideal) qq kk))
    (hm' : IsReal (k1_pay9 (F := Ideal) qq kk m)) (p : Fin 1024) :
    k1_pay12 (F := Ideal) qq kk m m l (ix2 p (0 : Fin 1))
      = ((Real.exp (toR m p 0 - toR (k1_pay9 (F := Ideal) qq kk m) p 0) * toR l p 0
          + ∑ j : Fin 1024, Real.exp (toR (k1_pay8 (F := Ideal) qq kk) p j - toR (k1_pay9 (F := Ideal) qq kk m) p 0) : ℝ)
          : EReal) := by
  unfold k1_pay12
  rw [shapeCast_self]
  show k1_pay10 (F := Ideal) qq kk m m (ix2 p (0 : Fin 1)) * l (ix2 p (0 : Fin 1))
      + shapeCast S1024x1 (multiReduction (F := Ideal) .add [1] S1024 (k1_pay11 (F := Ideal) qq kk m) 0x00000000#32
          reduces_S1024x1024_S1024 (.inl rfl) rfl) shapeCasts_S1024_S1024x1 (ix2 p (0 : Fin 1)) = _
  rw [shapeCast_a_a1_apply, rowsum_apply, pay10_apply qq kk m hm hm' p, hl.at p 0]
  simp only [pay11_apply qq kk m hs hm' p]
  rw [← EReal.coe_mul, ← RowSoftmax.coe_sum, ← EReal.coe_add]

/-- The new accumulator of row `p`, column `d`: the old one rescaled plus the block's weights against the value rows. -/
theorem pay13_apply (hm : IsReal m) (hacc : IsReal acc) (hv : IsReal vv) (hs : IsReal (k1_pay8 (F := Ideal) qq kk))
    (hm' : IsReal (k1_pay9 (F := Ideal) qq kk m)) (p : Fin 1024) (d : Fin 256) :
    k1_pay13 (F := Ideal) qq kk vv m m acc (ix2 p d)
      = ((Real.exp (toR m p 0 - toR (k1_pay9 (F := Ideal) qq kk m) p 0) * toR acc p d
          + ∑ j : Fin 1024, Real.exp (toR (k1_pay8 (F := Ideal) qq kk) p j - toR (k1_pay9 (F := Ideal) qq kk m) p 0)
              * toR vv j d : ℝ) : EReal) := by
  unfold k1_pay13
  rw [shapeCast_self]
  show broadcastTo S1024x256 (k1_pay10 (F := Ideal) qq kk m m) broadcasts_S1024x1_S1024x256 (ix2 p d) * acc (ix2 p d)
      + matmul (F := Ideal) Dpv none (truncf .bf16 (k1_pay11 (F := Ideal) qq kk m) bitsLt_bf16_f32) vv
          (constant (F := Ideal) S1024x256 .f32 0x00000000#32) (ix2 p d) = _
  rw [broadcastTo_a1_ab_apply, pv_apply, pay10_apply qq kk m hm hm' p, hacc.at p d]
  simp only [truncf_apply, pay11_apply qq kk m hs hm' p, hv.at _ d]
  simp only [← EReal.coe_mul, ← RowSoftmax.coe_sum, ← EReal.coe_add]

/-- The new normaliser has only real entries. -/
theorem pay12_isReal (hm : IsReal m) (hl : IsReal l) (hs : IsReal (k1_pay8 (F := Ideal) qq kk))
    (hm' : IsReal (k1_pay9 (F := Ideal) qq kk m)) : IsReal (k1_pay12 (F := Ideal) qq kk m m l) :=
  isReal_of_apply _ (fun p _ => Real.exp (toR m p 0 - toR (k1_pay9 (F := Ideal) qq kk m) p 0) * toR l p 0
      + ∑ j : Fin 1024, Real.exp (toR (k1_pay8 (F := Ideal) qq kk) p j - toR (k1_pay9 (F := Ideal) qq kk m) p 0))
    fun p q => by
      obtain rfl : q = 0 := Subsingleton.elim q 0
      exact pay12_apply qq kk m l hm hl hs hm' p

/-- The new accumulator has only real entries. -/
theorem pay13_isReal (hm : IsReal m) (hacc : IsReal acc) (hv : IsReal vv) (hs : IsReal (k1_pay8 (F := Ideal) qq kk))
    (hm' : IsReal (k1_pay9 (F := Ideal) qq kk m)) : IsReal (k1_pay13 (F := Ideal) qq kk vv m m acc) :=
  isReal_of_apply _ _ fun p d => pay13_apply qq kk vv m acc hm hacc hv hs hm' p d

end Payloads

/-- The result of row `p`, column `d`: accumulator over normaliser, the real quotient when the normaliser is not zero. -/
theorem pay3_apply (acc : Vec Ideal S1024x256 .f32) (l : Vec Ideal S1024x1 .f32) (hacc : IsReal acc) (hl : IsReal l) (p : Fin 1024) (d : Fin 256) (h0 : toR l p 0 ≠ 0) :
    k1_pay3 (F := Ideal) acc l (ix2 p d) = ((toR acc p d / toR l p 0 : ℝ) : EReal) := by
  show Ideal.div (acc (ix2 p d)) (broadcastTo S1024x256 l broadcasts_S1024x1_S1024x256 (ix2 p d)) = _
  rw [broadcastTo_a1_ab_apply, hacc.at p d, hl.at p 0, RowSoftmax.div_coe_coe _ _ h0]

/-- The result has only real entries when no normaliser is zero. -/
theorem pay3_isReal (acc : Vec Ideal S1024x256 .f32) (l : Vec Ideal S1024x1 .f32) (hacc : IsReal acc) (hl : IsReal l) (h0 : ∀ p, toR l p 0 ≠ 0) :
    IsReal (k1_pay3 (F := Ideal) acc l) :=
  isReal_of_apply _ _ fun p d => pay3_apply acc l hacc hl p d (h0 p)

end Cert.KernelIdeal.PayB

end
-- ==== Proof.KIFlash.lean ====
/-
  One query tile's eight body steps as the block-wise softmax recursion, on the extended reals.

  The state of a query tile is (running maximum, normaliser, accumulator, projected query tile); `init` is its
  start (a finite negative constant, zero, zero, the projection), `step` reads one key block and one value block,
  `iter n` is the state after blocks 0..n, and `outBlk` divides the accumulator by the normaliser.

  For arrays of real entries and a fixed row p of the tile, with scores  s b j = Σ_e q p e · k_b j e  and value rows
  v b j d = v_b j d, the row p of `iter n` — its running maximum, normaliser and accumulator row — is the state
  `FlashRow.run c s v (n + 1)` of the block-wise softmax recursion over the reals started from the constant c:
  each payload of a step, read at row p, is the corresponding component of `FlashRow.step`. All entries stay
  real, the normaliser is positive after the first block, so the output block at (p, d) is the image of the real
  quotient accumulator / normaliser after eight blocks.
-/
import proofs.«146421_j33767032881830_2_alg».proof.Proof.KIPay2
import proofs.«146421_j33767032881830_2_alg».proof.Proof.KIPayB
import proofs.«146421_j33767032881830_2_alg».proof.Proof.LibFlashRow

noncomputable section

open scoped BigOperators

namespace Cert.KernelIdeal.Flash

open Idealize.ShloMosaic Idealize.ShloMosaic.ValueIdx Cert.KernelIdeal Cert.KernelIdeal.Gen Cert.Spec Cert.KernelIdeal.Pay

/-! ## The state of a query tile and its steps -/

/-- The state: running maximum, normaliser, accumulator, projected query tile. -/
abbrev St := Vec Ideal S1024x1 .f32 × Vec Ideal S1024x1 .f32 × Vec Ideal S1024x256 .f32 × Vec Ideal S1024x256 .bf16

/-- The start state of a query tile: the constant running maximum, zero normaliser, zero accumulator, and the
    projection of the tile's rows. -/
def init (xb : Vec Ideal S1024x256 .f32) (wqb : Vec Ideal S256x256 .f32) : St :=
  (k1_pay4 (F := Ideal), k1_pay5 (F := Ideal), k1_pay6 (F := Ideal), k1_pay7 (F := Ideal) xb wqb)

/-- One step: read a key block and a value block. -/
def step (kb vb : Vec Ideal S1024x256 .bf16) (p : St) : St :=
  (k1_pay2 (F := Ideal) (k1_pay9 (F := Ideal) p.2.2.2 kb p.1), k1_pay12 (F := Ideal) p.2.2.2 kb p.1 p.1 p.2.1,
    k1_pay1 (F := Ideal) (k1_pay13 (F := Ideal) p.2.2.2 kb vb p.1 p.1 p.2.2.1), p.2.2.2)

/-- The state after the key and value blocks `0 .. n`. -/
def iter (xb : Vec Ideal S1024x256 .f32) (wqb : Vec Ideal S256x256 .f32) (kb vb : ℕ → Vec Ideal S1024x256 .bf16) : ℕ → St
  | 0 => step (kb 0) (vb 0) (init xb wqb)
  | n + 1 => step (kb (n + 1)) (vb (n + 1)) (iter xb wqb kb vb n)

/-- The output block of a state: accumulator over normaliser. -/
def outBlk (p : St) : Vec Ideal S1024x256 .f32 := k1_pay3 (F := Ideal) p.2.2.1 p.2.1

/-! ## A state of real entries, and its row -/

/-- All four arrays of a state have real entries. -/
def AllReal (P : St) : Prop := IsReal P.1 ∧ IsReal P.2.1 ∧ IsReal P.2.2.1 ∧ IsReal P.2.2.2

/-- Row `p` of a state over the reals: its running maximum, its normaliser, its accumulator row. -/
def rowOf (P : St) (p : Fin 1024) : ℝ × ℝ × (Fin 256 → ℝ) :=
  (toR P.1 p 0, toR P.2.1 p 0, fun d => toR P.2.2.1 p d)

/-- An entry that is the image of a real has that real as its real entry. -/
theorem toR_eq_of_apply {n0 n1 : Nat} {a : (⟨2, ![n0, n1]⟩ : Shape).Idx → EReal} {p : Fin n0} {q : Fin n1} {r : ℝ}
    (h : a (ix2 p q) = ((r : ℝ) : EReal)) : toR a p q = r := by
  unfold toR
  rw [h, EReal.toReal_coe]

/-- The start state has real entries. -/
theorem init_allReal (xb : Vec Ideal S1024x256 .f32) (wqb : Vec Ideal S256x256 .f32) (hx : IsReal xb) (hw : IsReal wqb) :
    AllReal (init xb wqb) :=
  ⟨k1_pay4_isReal, k1_pay5_isReal, k1_pay6_isReal, k1_pay7_isReal xb wqb hx hw⟩

/-- Row `p` of the start state: the constant, zero, zero. -/
theorem rowOf_init (xb : Vec Ideal S1024x256 .f32) (wqb : Vec Ideal S256x256 .f32) (p : Fin 1024) :
    rowOf (init xb wqb) p = (negBig, 0, fun _ => 0) := by
  unfold rowOf init
  exact Prod.ext (k1_pay4_toR p 0) (Prod.ext (k1_pay5_toR p 0) (funext fun d => k1_pay6_toR p d))

/-- A step keeps the entries real. -/
theorem step_allReal (kb vb : Vec Ideal S1024x256 .bf16) (hk : IsReal kb) (hv : IsReal vb) (P : St) (hP : AllReal P) :
    AllReal (step kb vb P) := by
  obtain ⟨m, l, acc, q⟩ := P
  obtain ⟨hm, hl, hacc, hq⟩ := hP
  have h8 := k1_pay8_isReal q kb hq hk
  have h9 := k1_pay9_isReal q kb m hq hk hm
  refine ⟨?_, PayB.pay12_isReal q kb m l hm hl h8 h9, ?_, hq⟩
  · show IsReal (k1_pay2 (F := Ideal) (k1_pay9 (F := Ideal) q kb m))
    rw [k1_pay2_eq]
    exact h9
  · show IsReal (k1_pay1 (F := Ideal) (k1_pay13 (F := Ideal) q kb vb m m acc))
    rw [k1_pay1_eq]
    exact PayB.pay13_isReal q kb vb m acc hm hacc hv h8 h9

/-- Row `p` of a step is one step of the block-wise softmax recursion on row `p`, with the scores of the state's
    query row `p` against the key block's rows and the value block's rows. -/
theorem rowOf_step (kb vb : Vec Ideal S1024x256 .bf16) (hk : IsReal kb) (hv : IsReal vb) (P : St) (hP : AllReal P)
    (p : Fin 1024) :
    rowOf (step kb vb P) p
      = FlashRow.step (rowOf P p).1 (rowOf P p).2.1 (rowOf P p).2.2 (fun j => sc P.2.2.2 kb p j) (fun j d => toR vb j d) := by
  obtain ⟨m, l, acc, q⟩ := P
  obtain ⟨hm, hl, hacc, hq⟩ := hP
  have h8 := k1_pay8_isReal q kb hq hk
  have h9 := k1_pay9_isReal q kb m hq hk hm
  have e8 : ∀ j, toR (k1_pay8 (F := Ideal) q kb) p j = sc q kb p j := k1_pay8_toR q kb hq hk p
  have e9 : toR (k1_pay9 (F := Ideal) q kb m) p 0 = max (toR m p 0) (FlashRow.bmax fun j => sc q kb p j) :=
    k1_pay9_toR q kb m hq hk hm p 0
  refine Prod.ext ?_ (Prod.ext ?_ (funext fun d => ?_))
  · show toR (k1_pay2 (F := Ideal) (k1_pay9 (F := Ideal) q kb m)) p 0 = max (toR m p 0) (FlashRow.bmax fun j => sc q kb p j)
    rw [k1_pay2_eq]
    exact e9
  · show toR (k1_pay12 (F := Ideal) q kb m m l) p 0
        = Real.exp (toR m p 0 - max (toR m p 0) (FlashRow.bmax fun j => sc q kb p j)) * toR l p 0
          + ∑ j, Real.exp (sc q kb p j - max (toR m p 0) (FlashRow.bmax fun j => sc q kb p j))
    rw [toR_eq_of_apply (PayB.pay12_apply q kb m l hm hl h8 h9 p)]
    simp only [e8, e9]
  · show toR (k1_pay1 (F := Ideal) (k1_pay13 (F := Ideal) q kb vb m m acc)) p d
        = Real.exp (toR m p 0 - max (toR m p 0) (FlashRow.bmax fun j => sc q kb p j)) * toR acc p d
          + ∑ j, Real.exp (sc q kb p j - max (toR m p 0) (FlashRow.bmax fun j => sc q kb p j)) * toR vb j d
    rw [k1_pay1_eq, toR_eq_of_apply (PayB.pay13_apply q kb vb m acc hm hacc hv h8 h9 p d)]
    simp only [e8, e9]

/-! ## Eight steps -/

section Iter

variable (xb : Vec Ideal S1024x256 .f32) (wqb : Vec Ideal S256x256 .f32) (kb vb : ℕ → Vec Ideal S1024x256 .bf16)

/-- The scores of row `p` of the projected query tile against the rows of key block `b`. -/
abbrev sRow (p : Fin 1024) : ℕ → Fin 1024 → ℝ := fun b j => sc (k1_pay7 (F := Ideal) xb wqb) (kb b) p j

/-- The rows of value block `b`. -/
abbrev vRow : ℕ → Fin 1024 → Fin 256 → ℝ := fun b j d => toR (vb b) j d

/-- The projected query tile is carried unchanged. -/
theorem iter_q (n : ℕ) : (iter xb wqb kb vb n).2.2.2 = k1_pay7 (F := Ideal) xb wqb := by
  induction n with
  | zero => rfl
  | succ n ih => exact ih

/-- Every state of the iteration has real entries. -/
theorem iter_allReal (hx : IsReal xb) (hw : IsReal wqb) (hk : ∀ n, IsReal (kb n)) (hv : ∀ n, IsReal (vb n)) (n : ℕ) :
    AllReal (iter xb wqb kb vb n) := by
  induction n with
  | zero => exact step_allReal (kb 0) (vb 0) (hk 0) (hv 0) _ (init_allReal xb wqb hx hw)
  | succ n ih => exact step_allReal (kb (n + 1)) (vb (n + 1)) (hk (n + 1)) (hv (n + 1)) _ ih

/-- The running maximum, the normaliser and the accumulator after blocks `0 .. n` have real entries. -/
theorem iter_isReal (hx : IsReal xb) (hw : IsReal wqb) (hk : ∀ n, IsReal (kb n)) (hv : ∀ n, IsReal (vb n)) (n : ℕ) :
    IsReal (iter xb wqb kb vb n).1 ∧ IsReal (iter xb wqb kb vb n).2.1 ∧ IsReal (iter xb wqb kb vb n).2.2.1 :=
  ⟨(iter_allReal xb wqb kb vb hx hw hk hv n).1, (iter_allReal xb wqb kb vb hx hw hk hv n).2.1,
    (iter_allReal xb wqb kb vb hx hw hk hv n).2.2.1⟩

/-- Row `p` after blocks `0 .. n` is the state of the block-wise softmax recursion after `n + 1` blocks. -/
theorem rowOf_iter (hx : IsReal xb) (hw : IsReal wqb) (hk : ∀ n, IsReal (kb n)) (hv : ∀ n, IsReal (vb n)) (n : ℕ)
    (p : Fin 1024) :
    rowOf (iter xb wqb kb vb n) p = FlashRow.run negBig (sRow xb wqb kb p) (vRow vb) (n + 1) := by
  induction n with
  | zero =>
    show rowOf (step (kb 0) (vb 0) (init xb wqb)) p = _
    rw [rowOf_step (kb 0) (vb 0) (hk 0) (hv 0) _ (init_allReal xb wqb hx hw) p, rowOf_init]
    rfl
  | succ n ih =>
    show rowOf (step (kb (n + 1)) (vb (n + 1)) (iter xb wqb kb vb n)) p = _
    rw [rowOf_step (kb (n + 1)) (vb (n + 1)) (hk (n + 1)) (hv (n + 1)) _ (iter_allReal xb wqb kb vb hx hw hk hv n) p,
      ih, iter_q]
    rfl

/-- The same by components. -/
theorem iter_run (hx : IsReal xb) (hw : IsReal wqb) (hk : ∀ n, IsReal (kb n)) (hv : ∀ n, IsReal (vb n)) (n : ℕ)
    (p : Fin 1024) :
    toR (iter xb wqb kb vb n).1 p 0 = (FlashRow.run negBig (sRow xb wqb kb p) (vRow vb) (n + 1)).1
      ∧ toR (iter xb wqb kb vb n).2.1 p 0 = (FlashRow.run negBig (sRow xb wqb kb p) (vRow vb) (n + 1)).2.1
      ∧ ∀ d, toR (iter xb wqb kb vb n).2.2.1 p d = (FlashRow.run negBig (sRow xb wqb kb p) (vRow vb) (n + 1)).2.2 d := by
  have h := rowOf_iter xb wqb kb vb hx hw hk hv n p
  exact ⟨congrArg Prod.fst h, congrArg (fun t => t.2.1) h, fun d => congrFun (congrArg (fun t => t.2.2) h) d⟩

/-- After at least one block no normaliser is zero. -/
theorem iter_l_ne_zero (hx : IsReal xb) (hw : IsReal wqb) (hk : ∀ n, IsReal (kb n)) (hv : ∀ n, IsReal (vb n)) (n : ℕ)
    (p : Fin 1024) : toR (iter xb wqb kb vb n).2.1 p 0 ≠ 0 := by
  rw [(iter_run xb wqb kb vb hx hw hk hv n p).2.1]
  exact ne_of_gt (FlashRow.run_l_pos negBig _ _ (n + 1) (Nat.succ_pos n))

/-- The output block after the eight blocks, at (p, d): the image of accumulator over normaliser of the block-wise
    softmax recursion after eight blocks on row `p`. -/
theorem outBlk_apply (hx : IsReal xb) (hw : IsReal wqb) (hk : ∀ n, IsReal (kb n)) (hv : ∀ n, IsReal (vb n))
    (p : Fin 1024) (d : Fin 256) :
    outBlk (iter xb wqb kb vb 7) (ix2 p d)
      = (((FlashRow.run negBig (sRow xb wqb kb p) (vRow vb) 8).2.2 d
          / (FlashRow.run negBig (sRow xb wqb kb p) (vRow vb) 8).2.1 : ℝ) : EReal) := by
  have hr := iter_allReal xb wqb kb vb hx hw hk hv 7
  have h := iter_run xb wqb kb vb hx hw hk hv 7 p
  unfold outBlk
  rw [PayB.pay3_apply _ _ hr.2.2.1 hr.2.1 p d (iter_l_ne_zero xb wqb kb vb hx hw hk hv 7 p), h.2.1, h.2.2 d]

/-- The output block after the eight blocks has real entries. -/
theorem outBlk_isReal (hx : IsReal xb) (hw : IsReal wqb) (hk : ∀ n, IsReal (kb n)) (hv : ∀ n, IsReal (vb n)) :
    IsReal (outBlk (iter xb wqb kb vb 7)) :=
  isReal_of_apply _ (outBlk_apply xb wqb kb vb hx hw hk hv)

end Iter

end Cert.KernelIdeal.Flash

end
-- ==== Proof.KI.Val1.lean ====
/-
  The attention region's output array as a whole-array function of its arguments, on the extended reals.

  The grid has 64 points; point t = 8 qi + ki has query tile qi = t / 8 and key tile ki = t % 8. The scratch state
  after point 8 qi + n is the n-th iterate of the block-wise softmax step over the query tile qi: from the start
  state of the tile (first key tile), one step per key tile, each reading key block and value block ki. At the
  last key tile the output block is accumulator over normaliser of the eighth iterate.

  When the sequence x, the pre-scaled query weights, the projected keys and the projected values have real entries,
  row p of the tile's eighth iterate is the block-wise softmax recursion over the reals on the scores of query row
  1024 qi + p against all 8192 key rows (read in 8 blocks of 1024) and the 8192 projected value rows; its
  accumulator over normaliser is the softmax attention of the specification at that row. So what the last point of
  tile qi writes back is block qi of ONE array, the attention array; the 8 blocks tile the 8192 rows; hence after
  the region the output array IS the attention array.
-/
import proofs.«146421_j33767032881830_2_alg».proof.Proof.KI.R1
import proofs.«146421_j33767032881830_2_alg».proof.Proof.KI.Blocks1
import proofs.«146421_j33767032881830_2_alg».proof.Proof.KIFlash
import proofs.«146421_j33767032881830_2_alg».proof.Proof.KernelLaw
import proofs.«146421_j33767032881830_2_alg».proof.Proof.Spec
import Idealize.ShloMosaic.Lib.Pipeline.Value

noncomputable section

open scoped BigOperators

namespace Cert.KernelIdeal.Val1

open Cert.KernelIdeal Cert.KernelIdeal.Gen Cert.KernelIdeal.Fr Cert.KernelIdeal.Pay Cert.Spec
open Idealize.ShloMosaic Idealize.ShloMosaic.TcCoe Idealize.ShloMosaic.ValueIdx Idealize.SL.Sem
open Idealize.ShloMosaic.Pipeline (Dat)

/-! ## The points of a query tile -/

/-- Point `n` of query tile `qi` (both read modulo 8): the point `8 qi + n`. -/
def pt (qi n : ℕ) : Fin cfg1.N := ⟨8 * (qi % 8) + n % 8, by have hN : cfg1.N = 64 := N_1; omega⟩

/-- Its position. -/
theorem pt_val (qi n : ℕ) (hq : qi < 8) (hn : n < 8) : (pt qi n).val = 8 * qi + n := by
  show 8 * (qi % 8) + n % 8 = 8 * qi + n
  omega

/-- Every point is the point `t % 8` of the tile `t / 8`. -/
theorem eq_pt (t : Fin cfg1.N) : t = pt (t.val / 8) (t.val % 8) := by
  have hN : cfg1.N = 64 := N_1
  have := t.isLt
  refine Fin.ext ?_
  show t.val = 8 * (t.val / 8 % 8) + t.val % 8 % 8
  omega

/-- Row `p` of the query tile of point `t`, as a row of the sequence. -/
def qrow (t : Fin cfg1.N) (p : Fin 1024) : Fin 8192 := ⟨1024 * (t.val / 8) + p.val, Blk1.qrow_lt t p⟩
/-- Row `j` of the key tile of point `t`, as a row of the sequence. -/
def krow (t : Fin cfg1.N) (j : Fin 1024) : Fin 8192 := ⟨1024 * (t.val % 8) + j.val, Blk1.krow_lt t j⟩

section Region
variable (V : (c : Dev nD) → (b : Ref sig .tc) → Buf (Elt Ideal) ((c : Thread nD τ).loc b)) (c : Dev nD)

/-- The tile's block of the sequence. -/
abbrev tileX (qi : ℕ) : Vec Ideal S1024x256 .f32 := iblk1 V c 0 (pt qi 0)
/-- The pre-scaled query weights, as the tile's first point stages them. -/
abbrev tileW (qi : ℕ) : Vec Ideal S256x256 .f32 := iblk1 V c 1 (pt qi 0)
/-- The key blocks the tile's points stage. -/
abbrev tileK (qi : ℕ) : ℕ → Vec Ideal S1024x256 .bf16 := fun n => iblk1 V c 2 (pt qi n)
/-- The value blocks the tile's points stage. -/
abbrev tileV (qi : ℕ) : ℕ → Vec Ideal S1024x256 .bf16 := fun n => iblk1 V c 3 (pt qi n)

/-! ## The scratch state along a tile -/

/-- The state after a position does not depend on how the position is written. -/
theorem outsAt1_idx (n n' : ℕ) (h : n < cfg1.N) (h' : n' < cfg1.N) (e : n = n') :
    outsAt1 V c n h = outsAt1 V c n' h' := by
  subst e
  rfl

/-- The first component of a pair given by an equation. -/
theorem fst_of_eq {α β : Type} {z : α × β} {a : α} {b : β} (h : z = (a, b)) : z.1 = a := by rw [h]

/-- One more key tile is one more step. -/
theorem iter_succ (xb : Vec Ideal S1024x256 .f32) (wqb : Vec Ideal S256x256 .f32) (kb vb : ℕ → Vec Ideal S1024x256 .bf16) (n : ℕ) :
    Flash.iter xb wqb kb vb (n + 1) = Flash.step (kb (n + 1)) (vb (n + 1)) (Flash.iter xb wqb kb vb n) := rfl

section Tile
variable
  (hA : ∀ (t : Fin cfg1.N) (h0 : t.val % 8 = 0), stA (F := Ideal) V c t h0
      = Flash.step (iblk1 V c 2 t) (iblk1 V c 3 t) (Flash.init (iblk1 V c 0 t) (iblk1 V c 1 t)))
  (hB : ∀ (t : Fin cfg1.N) (h0 : ¬t.val % 8 = 0) (h7 : ¬t.val % 8 = 7) (p : Flash.St), stB (F := Ideal) V c t h0 h7 p
      = Flash.step (iblk1 V c 2 t) (iblk1 V c 3 t) p)
  (hC : ∀ (t : Fin cfg1.N) (h0 : ¬t.val % 8 = 0) (h7 : t.val % 8 = 7) (p : Flash.St), stC (F := Ideal) V c t h0 h7 p
      = Flash.step (iblk1 V c 2 t) (iblk1 V c 3 t) p)
  (hO : ∀ (t : Fin cfg1.N) (h0 : ¬t.val % 8 = 0) (h7 : t.val % 8 = 7) (p : Flash.St), outC (F := Ideal) V c t h0 h7 p
      = Flash.outBlk (Flash.step (iblk1 V c 2 t) (iblk1 V c 3 t) p))

include hA hB hC in
/-- The scratch state after point `n` of query tile `qi` is the `n`-th iterate of the tile's recursion. -/
theorem tile_st (qi : ℕ) (hq8 : qi < 8) (n : ℕ) (hn : n < 8) :
    (outsAt1 V c (pt qi n).val (pt qi n).isLt).2
      = Flash.iter (tileX V c qi) (tileW V c qi) (tileK V c qi) (tileV V c qi) n := by
  induction n with
  | zero =>
    have h0 : (pt qi 0).val % 8 = 0 := by rw [pt_val qi 0 hq8 hn]; omega
    rw [outsAt1_A V c (pt qi 0) h0]
    exact hA (pt qi 0) h0
  | succ n ih =>
    have hn' : n < 8 := Nat.lt_of_succ_lt hn
    have hv : (pt qi (n + 1)).val = 8 * qi + (n + 1) := pt_val qi (n + 1) hq8 hn
    have h0 : ¬(pt qi (n + 1)).val % 8 = 0 := by rw [hv]; omega
    have ep : prevSt V c (pt qi (n + 1)) = (outsAt1 V c (pt qi n).val (pt qi n).isLt).2 :=
      congrArg Prod.snd (outsAt1_idx V c _ _ _ _ (by rw [hv, pt_val qi n hq8 hn']; omega))
    by_cases h7 : (pt qi (n + 1)).val % 8 = 7
    · rw [outsAt1_C V c (pt qi (n + 1)) h0 h7]
      show stC V c (pt qi (n + 1)) h0 h7 (prevSt V c (pt qi (n + 1))) = _
      rw [hC (pt qi (n + 1)) h0 h7, ep, ih hn']
      rfl
    · rw [outsAt1_B V c (pt qi (n + 1)) h0 h7]
      show stB V c (pt qi (n + 1)) h0 h7 (prevSt V c (pt qi (n + 1))) = _
      rw [hB (pt qi (n + 1)) h0 h7, ep, ih hn']
      rfl

include hA hB hC hO in
/-- The output block at the tile's last point is accumulator over normaliser of the eighth iterate. -/
theorem tile_out (qi : ℕ) (hq8 : qi < 8) :
    (outsAt1 V c (pt qi 7).val (pt qi 7).isLt).1
      = Flash.outBlk (Flash.iter (tileX V c qi) (tileW V c qi) (tileK V c qi) (tileV V c qi) 7) := by
  have hv : (pt qi 7).val = 8 * qi + 7 := pt_val qi 7 hq8 (by decide)
  have h0 : ¬(pt qi 7).val % 8 = 0 := by rw [hv]; omega
  have h7 : (pt qi 7).val % 8 = 7 := by rw [hv]; omega
  have ep : prevSt V c (pt qi 7) = (outsAt1 V c (pt qi 6).val (pt qi 6).isLt).2 :=
    congrArg Prod.snd (outsAt1_idx V c _ _ _ _ (by rw [hv, pt_val qi 6 hq8 (by decide)]; omega))
  refine (fst_of_eq (outsAt1_C V c (pt qi 7) h0 h7)).trans ?_
  refine (hO (pt qi 7) h0 h7 _).trans ?_
  rw [ep, tile_st V c hA hB hC qi hq8 6 (by decide)]
  exact congrArg Flash.outBlk (iter_succ (tileX V c qi) (tileW V c qi) (tileK V c qi) (tileV V c qi) 6).symm

end Tile

/-! ## The staged blocks of real arrays, and a tile's output block as attention rows -/

section Data
variable (x : Fin 8192 → Fin 256 → ℝ) (wq wk wv : Fin 256 → Fin 256 → ℝ)
  (hx : IsReal (n0 := 8192) (n1 := 256) (V c main_arg0) ∧ ∀ i e, toR (n0 := 8192) (n1 := 256) (V c main_arg0) i e = x i e)
  (hq : IsReal (n0 := 256) (n1 := 256) (V c main_v1)
    ∧ ∀ k e, toR (n0 := 256) (n1 := 256) (V c main_v1) k e = Cert.KernelLaw.scaled wq k e)
  (hk : IsReal (n0 := 8192) (n1 := 256) (V c main_v2_0)
    ∧ ∀ i e, toR (n0 := 8192) (n1 := 256) (V c main_v2_0) i e = proj x wk i e)
  (hv : IsReal (n0 := 8192) (n1 := 256) (V c main_v2_1)
    ∧ ∀ i e, toR (n0 := 8192) (n1 := 256) (V c main_v2_1) i e = proj x wv i e)

include hx in
/-- The sequence's block at point `t` holds rows of the real sequence. -/
theorem blkX_apply (t : Fin cfg1.N) (p : Fin 1024) (e : Fin 256) :
    (iblk1 V c 0 t : Vec Ideal S1024x256 .f32) (ix2 p e) = ((x (qrow t p) e : ℝ) : EReal) :=
  (Blk1.blk0 (F := Ideal) V c t p e).trans
    ((hx.1.at (qrow t p) e).trans (congrArg (fun r : ℝ => (r : EReal)) (hx.2 (qrow t p) e)))
include hx in
theorem blkX_isReal (t : Fin cfg1.N) : IsReal (n0 := 1024) (n1 := 256) (iblk1 V c 0 t) :=
  isReal_of_apply (fun p e => x (qrow t p) e) (blkX_apply V c x hx t)
include hx in
theorem blkX_toR (t : Fin cfg1.N) (p : Fin 1024) (e : Fin 256) :
    toR (n0 := 1024) (n1 := 256) (iblk1 V c 0 t) p e = x (qrow t p) e :=
  toR_of_apply (fun p e => x (qrow t p) e) (blkX_apply V c x hx t) p e

include hq in
/-- The query weights' block at every point holds the pre-scaled real weights. -/
theorem blkW_apply (t : Fin cfg1.N) (k e : Fin 256) :
    (iblk1 V c 1 t : Vec Ideal S256x256 .f32) (ix2 k e) = ((Cert.KernelLaw.scaled wq k e : ℝ) : EReal) :=
  (Blk1.blk1 (F := Ideal) V c t k e).trans
    ((hq.1.at k e).trans (congrArg (fun r : ℝ => (r : EReal)) (hq.2 k e)))
include hq in
theorem blkW_isReal (t : Fin cfg1.N) : IsReal (n0 := 256) (n1 := 256) (iblk1 V c 1 t) :=
  isReal_of_apply (fun k e => Cert.KernelLaw.scaled wq k e) (blkW_apply V c wq hq t)
include hq in
theorem blkW_toR (t : Fin cfg1.N) (k e : Fin 256) :
    toR (n0 := 256) (n1 := 256) (iblk1 V c 1 t) k e = Cert.KernelLaw.scaled wq k e :=
  toR_of_apply (fun k e => Cert.KernelLaw.scaled wq k e) (blkW_apply V c wq hq t) k e

include hk in
/-- The projected keys' block at point `t` holds rows of the real key projection. -/
theorem blkK_apply (t : Fin cfg1.N) (j : Fin 1024) (e : Fin 256) :
    (iblk1 V c 2 t : Vec Ideal S1024x256 .bf16) (ix2 j e) = ((proj x wk (krow t j) e : ℝ) : EReal) :=
  (Blk1.blk2 (F := Ideal) V c t j e).trans
    ((hk.1.at (krow t j) e).trans (congrArg (fun r : ℝ => (r : EReal)) (hk.2 (krow t j) e)))
include hk in
theorem blkK_isReal (t : Fin cfg1.N) : IsReal (n0 := 1024) (n1 := 256) (iblk1 V c 2 t) :=
  isReal_of_apply (fun j e => proj x wk (krow t j) e) (blkK_apply V c x wk hk t)
include hk in
theorem blkK_toR (t : Fin cfg1.N) (j : Fin 1024) (e : Fin 256) :
    toR (n0 := 1024) (n1 := 256) (iblk1 V c 2 t) j e = proj x wk (krow t j) e :=
  toR_of_apply (fun j e => proj x wk (krow t j) e) (blkK_apply V c x wk hk t) j e

include hv in
/-- The projected values' block at point `t` holds rows of the real value projection. -/
theorem blkV_apply (t : Fin cfg1.N) (j : Fin 1024) (e : Fin 256) :
    (iblk1 V c 3 t : Vec Ideal S1024x256 .bf16) (ix2 j e) = ((proj x wv (krow t j) e : ℝ) : EReal) :=
  (Blk1.blk3 (F := Ideal) V c t j e).trans
    ((hv.1.at (krow t j) e).trans (congrArg (fun r : ℝ => (r : EReal)) (hv.2 (krow t j) e)))
include hv in
theorem blkV_isReal (t : Fin cfg1.N) : IsReal (n0 := 1024) (n1 := 256) (iblk1 V c 3 t) :=
  isReal_of_apply (fun j e => proj x wv (krow t j) e) (blkV_apply V c x wv hv t)
include hv in
theorem blkV_toR (t : Fin cfg1.N) (j : Fin 1024) (e : Fin 256) :
    toR (n0 := 1024) (n1 := 256) (iblk1 V c 3 t) j e = proj x wv (krow t j) e :=
  toR_of_apply (fun j e => proj x wv (krow t j) e) (blkV_apply V c x wv hv t) j e

include hx hq hk in
/-- The scores of row `p` of query tile `qi` against key block `b` are the scaled scores of the specification. -/
theorem row_scores (qi : ℕ) (hq8 : qi < 8) (p : Fin 1024) (i : Fin 8192) (hi : i.val = 1024 * qi + p.val)
    (b : ℕ) (hb : b < 8) (j : Fin 1024) :
    Flash.sRow (tileX V c qi) (tileW V c qi) (tileK V c qi) p b j
      = score x wq wk i ⟨b * 1024 + j, Cert.KernelLaw.blk_lt hb j⟩ := by
  have ei : qrow (pt qi 0) p = i := Fin.ext (by
    show 1024 * ((pt qi 0).val / 8) + p.val = i.val
    rw [pt_val qi 0 hq8 (by decide), hi]; omega)
  have ej : krow (pt qi b) j = ⟨b * 1024 + j, Cert.KernelLaw.blk_lt hb j⟩ := Fin.ext (by
    show 1024 * ((pt qi b).val % 8) + j.val = b * 1024 + j.val
    rw [pt_val qi b hq8 hb]; omega)
  show ∑ e : Fin 256, toR (k1_pay7 (F := Ideal) (tileX V c qi) (tileW V c qi)) p e * toR (n0 := 1024) (n1 := 256) (iblk1 V c 2 (pt qi b)) j e = _
  rw [← Cert.KernelLaw.score_scaled]
  refine Finset.sum_congr rfl fun e _ => ?_
  rw [k1_pay7_toR _ _ (blkX_isReal V c x hx (pt qi 0)) (blkW_isReal V c wq hq (pt qi 0)) p e,
    blkK_toR V c x wk hk (pt qi b) j e, ej]
  refine congrArg (· * _) ?_
  show _ = ∑ k, x i k * Cert.KernelLaw.scaled wq k e
  refine Finset.sum_congr rfl fun k _ => ?_
  rw [blkX_toR V c x hx (pt qi 0) p k, blkW_toR V c wq hq (pt qi 0) k e, ei]

include hv in
/-- The value rows of block `b` are the projected value rows of the specification. -/
theorem row_values (qi : ℕ) (hq8 : qi < 8) (b : ℕ) (hb : b < 8) (j : Fin 1024) (h : Fin 256) :
    Flash.vRow (tileV V c qi) b j h = proj x wv ⟨b * 1024 + j, Cert.KernelLaw.blk_lt hb j⟩ h := by
  have ej : krow (pt qi b) j = ⟨b * 1024 + j, Cert.KernelLaw.blk_lt hb j⟩ := Fin.ext (by
    show 1024 * ((pt qi b).val % 8) + j.val = b * 1024 + j.val
    rw [pt_val qi b hq8 hb]; omega)
  show toR (n0 := 1024) (n1 := 256) (iblk1 V c 3 (pt qi b)) j h = _
  rw [blkV_toR V c x wv hv (pt qi b) j h, ej]

include hx hq hk hv in
/-- The output block of query tile `qi` after its eight key tiles, at (p, d): the attention of the specification at
    row `1024 qi + p`. -/
theorem tile_attn (qi : ℕ) (hq8 : qi < 8) (p : Fin 1024) (d : Fin 256) (i : Fin 8192) (hi : i.val = 1024 * qi + p.val) :
    Flash.outBlk (Flash.iter (tileX V c qi) (tileW V c qi) (tileK V c qi) (tileV V c qi) 7) (ix2 p d)
      = ((attnR x wq wk wv i d : ℝ) : EReal) := by
  rw [Flash.outBlk_apply (tileX V c qi) (tileW V c qi) (tileK V c qi) (tileV V c qi)
    (blkX_isReal V c x hx (pt qi 0)) (blkW_isReal V c wq hq (pt qi 0)) (fun n => blkK_isReal V c x wk hk (pt qi n))
    (fun n => blkV_isReal V c x wv hv (pt qi n)) p d]
  exact congrArg (fun r : ℝ => (r : EReal)) (Cert.KernelLaw.kernel_row_blocks x wq wk wv negBig i d _ _
    (row_scores V c x wq wk hx hq hk qi hq8 p i hi) (row_values V c x wv hv qi hq8))

/-! ## The output array -/

/-- The attention array: the softmax attention of the specification at every (row, column), as extended reals. -/
def attnArr : (⟨2, ![8192, 256]⟩ : Shape).Idx → EReal :=
  fun idx => ((attnR x wq wk wv (idx 0) (idx 1) : ℝ) : EReal)

section Out
variable
  (hA : ∀ (t : Fin cfg1.N) (h0 : t.val % 8 = 0), stA (F := Ideal) V c t h0
      = Flash.step (iblk1 V c 2 t) (iblk1 V c 3 t) (Flash.init (iblk1 V c 0 t) (iblk1 V c 1 t)))
  (hB : ∀ (t : Fin cfg1.N) (h0 : ¬t.val % 8 = 0) (h7 : ¬t.val % 8 = 7) (p : Flash.St), stB (F := Ideal) V c t h0 h7 p
      = Flash.step (iblk1 V c 2 t) (iblk1 V c 3 t) p)
  (hC : ∀ (t : Fin cfg1.N) (h0 : ¬t.val % 8 = 0) (h7 : t.val % 8 = 7) (p : Flash.St), stC (F := Ideal) V c t h0 h7 p
      = Flash.step (iblk1 V c 2 t) (iblk1 V c 3 t) p)
  (hO : ∀ (t : Fin cfg1.N) (h0 : ¬t.val % 8 = 0) (h7 : t.val % 8 = 7) (p : Flash.St), outC (F := Ideal) V c t h0 h7 p
      = Flash.outBlk (Flash.step (iblk1 V c 2 t) (iblk1 V c 3 t) p))

include hx hq hk hv hA hB hC hO in
/-- The output block at a last key tile, at (p, d): the attention of the specification at row `1024 (t / 8) + p`. -/
theorem out_entry (t : Fin cfg1.N) (h7 : t.val % 8 = 7) (p : Fin 1024) (d : Fin 256) :
    (outsAt1 V c t.val t.isLt).1 (ix2 p d) = ((attnR x wq wk wv (qrow t p) d : ℝ) : EReal) := by
  have hN : cfg1.N = 64 := N_1
  have hlt := t.isLt
  have et : t = pt (t.val / 8) 7 := by
    have h := eq_pt t
    rw [h7] at h
    exact h
  have hq8 : t.val / 8 < 8 := by omega
  generalize t.val / 8 = qi at et hq8
  subst et
  rw [tile_out V c hA hB hC hO qi hq8]
  exact tile_attn V c x wq wk wv hx hq hk hv qi hq8 p d (qrow (pt qi 7) p) (by
    show 1024 * ((pt qi 7).val / 8) + p.val = 1024 * qi + p.val
    rw [pt_val qi 7 hq8 (by decide)]; omega)

include hx hq hk hv hA hB hC hO in
/-- What a last key tile writes back is its block of the attention array. -/
theorem flushed4 (t : Fin cfg1.N) (hf : (cfg1.win 4).flush t = true) :
    (dat1 V c).flushed 4 t = ((cfg1.win 4).blk t).view.read (Elt Ideal) (attnArr x wq wk wv) := by
  have h7 : t.val % 8 = 7 := (flush1_4 t).mp hf
  show (cfg1.win 4).cut (grid1.coords t) ((dat1 V c).after 4 t) = _
  rw [after1_4]
  funext j
  obtain ⟨p, d, rfl⟩ : ∃ (p : Fin 1024) (d : Fin 256), j = ix2 p d := ⟨j 0, j 1, eq_ix2 (n0 := 1024) (n1 := 256) j⟩
  refine Eq.trans ?_ (Blk1.outblk (F := Ideal) (attnArr x wq wk wv) t p d).symm
  show (outsAt1 V c t.val t.isLt).1 (ix2 p d) = _
  exact out_entry V c x wq wk wv hx hq hk hv hA hB hC hO t h7 p d

include hx hq hk hv hA hB hC hO in
/-- After the region the output array is the attention array. -/
theorem out_array : (dat1 V c).arrAt 4 cfg1.N = attnArr x wq wk wv :=
  (dat1 V c).arrAt_eq_of_cover 4 (attnArr x wq wk wv)
    (fun t hf => flushed4 V c x wq wk wv hx hq hk hv hA hB hC hO t hf) Blk1.cover4

end Out

/-- The attention array at coordinates. -/
theorem attnArr_apply (i : Fin 8192) (d : Fin 256) :
    attnArr x wq wk wv (ix2 i d) = ((attnR x wq wk wv i d : ℝ) : EReal) := rfl

end Data

end Region

end Cert.KernelIdeal.Val1

end
-- ==== Proof.KI.Pieces.lean ====
/-
  What each case of the attention body leaves in the scratch buffers and in the output block is one step of the
  running-softmax recursion on the point's key and value blocks.

  A grid point loads the projected query tile q, the key block, the value block, the running maximum m, the normaliser
  l and the accumulator acc, and stores: the new maximum max (m, rowmax (q kᵀ)); the new normaliser
  exp (m - m') l + rowsum exp (q kᵀ - m'); the new accumulator exp (m - m') acc + exp (q kᵀ - m') v.  At a first key
  tile it first stores the start state (the finite start of the maximum, zero normaliser, zero accumulator, the
  projection of the query rows) and reads it back; at a last key tile it moreover stores accumulator / normaliser of the
  values just stored into the output block.  Each buffer is written by stores that cover it whole from offset zero, so
  what a buffer holds afterwards is the payload of its last store, and a load after a store reads that payload.
-/
import proofs.«146421_j33767032881830_2_alg».proof.Proof.KI.R1
import proofs.«146421_j33767032881830_2_alg».proof.Proof.KIFlash
import Idealize.ShloMosaic.Lib.Pipeline.Value
import Idealize.ShloMosaic.Lib.Tactic

set_option maxRecDepth 16384

noncomputable section

namespace Cert.KernelIdeal.Pieces

open Cert.KernelIdeal Cert.KernelIdeal.Gen Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer rectangle. -/
theorem hz : (![0, 0] : Fin 2 → Nat) = fun _ => 0 := funext fun a => by fin_cases a <;> rfl

section Region1
variable (V : (c : Dev nD) → (b : Ref sig .tc) → Buf (Elt F) ((c : Thread nD τ).loc b))

/-- A middle point leaves one step of the recursion from the state it finds, generically in the float instance. -/
theorem stB_gen (c : Dev nD) (t : Fin cfg1.N) (h0 : ¬t.val % 8 = 0) (h7 : ¬t.val % 8 = 7) (p : St (F := F)) :
    stB V c t h0 h7 p = (k1_pay2 (k1_pay9 p.2.2.2 (iblk1 V c 2 t) p.1), k1_pay12 p.2.2.2 (iblk1 V c 2 t) p.1 p.1 p.2.1,
      k1_pay1 (k1_pay13 p.2.2.2 (iblk1 V c 2 t) (iblk1 V c 3 t) p.1 p.1 p.2.2.1), p.2.2.2) := by
  have eM := (Memref.isWhole_whole _ : (scM).IsWhole).read_unread (Val := Elt F) p.1
  have eL := (Memref.isWhole_whole _ : (scL).IsWhole).read_unread (Val := Elt F) p.2.1
  have eA := (Memref.isWhole_whole _ : (scA).IsWhole).read_unread (Val := Elt F) p.2.2.1
  have eQ := (Memref.isWhole_whole _ : (scQ).IsWhole).read_unread (Val := Elt F) p.2.2.2
  unfold stB
  refine Prod.ext ?_ (Prod.ext ?_ (Prod.ext ?_ rfl))
  · dsimp only
    rw [View.read_writes_eq_canon _ _ _ (covB_M V c t h0 h7 p)]
    unfold runB kernelRun1_B
    dsimp only
    sl_unfold_words
    rw [View.canon_unit_zero (S := S1024x1) hz]
    simp only [View.readAt_eq_ld, Memref.IsWhole.read_unread, View.ld_unit_zero (S := S1024x256) hz,
      View.ld_unit_zero (S := S1024x1) hz, eM, eL, eA, eQ]
  · dsimp only
    rw [View.read_writes_eq_canon _ _ _ (covB_L V c t h0 h7 p)]
    unfold runB kernelRun1_B
    dsimp only
    sl_unfold_words
    rw [View.canon_unit_zero (S := S1024x1) hz]
    simp only [View.readAt_eq_ld, Memref.IsWhole.read_unread, View.ld_unit_zero (S := S1024x256) hz,
      View.ld_unit_zero (S := S1024x1) hz, eM, eL, eA, eQ]
  · dsimp only
    rw [View.read_writes_eq_canon _ _ _ (covB_A V c t h0 h7 p)]
    unfold runB kernelRun1_B
    dsimp only
    sl_unfold_words
    rw [View.canon_unit_zero (S := S1024x256) hz]
    simp only [View.readAt_eq_ld, Memref.IsWhole.read_unread, View.ld_unit_zero (S := S1024x256) hz,
      View.ld_unit_zero (S := S1024x1) hz, eM, eL, eA, eQ]

/-- A last-key-tile point leaves one step of the recursion from the state it finds, generically in the float instance. -/
theorem stC_gen (c : Dev nD) (t : Fin cfg1.N) (h0 : ¬t.val % 8 = 0) (h7 : t.val % 8 = 7) (p : St (F := F)) :
    stC V c t h0 h7 p = (k1_pay2 (k1_pay9 p.2.2.2 (iblk1 V c 2 t) p.1), k1_pay12 p.2.2.2 (iblk1 V c 2 t) p.1 p.1 p.2.1,
      k1_pay1 (k1_pay13 p.2.2.2 (iblk1 V c 2 t) (iblk1 V c 3 t) p.1 p.1 p.2.2.1), p.2.2.2) := by
  have eM := (Memref.isWhole_whole _ : (scM).IsWhole).read_unread (Val := Elt F) p.1
  have eL := (Memref.isWhole_whole _ : (scL).IsWhole).read_unread (Val := Elt F) p.2.1
  have eA := (Memref.isWhole_whole _ : (scA).IsWhole).read_unread (Val := Elt F) p.2.2.1
  have eQ := (Memref.isWhole_whole _ : (scQ).IsWhole).read_unread (Val := Elt F) p.2.2.2
  unfold stC
  refine Prod.ext ?_ (Prod.ext ?_ (Prod.ext ?_ rfl))
  · dsimp only
    rw [View.read_writes_eq_canon _ _ _ (covC_M V c t h0 h7 p)]
    unfold runC kernelRun1_C
    dsimp only
    sl_unfold_words
    rw [View.canon_unit_zero (S := S1024x1) hz]
    simp only [View.readAt_eq_ld, Memref.IsWhole.read_unread, View.ld_unit_zero (S := S1024x256) hz,
      View.ld_unit_zero (S := S1024x1) hz, eM, eL, eA, eQ]
  · dsimp only
    rw [View.read_writes_eq_canon _ _ _ (covC_L V c t h0 h7 p)]
    unfold runC kernelRun1_C
    dsimp only
    sl_unfold_words
    rw [View.canon_unit_zero (S := S1024x1) hz]
    simp only [View.readAt_eq_ld, Memref.IsWhole.read_unread, View.ld_unit_zero (S := S1024x256) hz,
      View.ld_unit_zero (S := S1024x1) hz, eM, eL, eA, eQ]
  · dsimp only
    rw [View.read_writes_eq_canon _ _ _ (covC_A V c t h0 h7 p)]
    unfold runC kernelRun1_C
    dsimp only
    sl_unfold_words
    rw [View.canon_unit_zero (S := S1024x256) hz]
    simp only [View.readAt_eq_ld, Memref.IsWhole.read_unread, View.ld_unit_zero (S := S1024x256) hz,
      View.ld_unit_zero (S := S1024x1) hz, eM, eL, eA, eQ]

/-- A last-key-tile point leaves, in the output block, accumulator over normaliser of the state it has just stored. -/
theorem outC_gen (c : Dev nD) (t : Fin cfg1.N) (h0 : ¬t.val % 8 = 0) (h7 : t.val % 8 = 7) (p : St (F := F)) :
    outC V c t h0 h7 p = k1_pay3 (k1_pay1 (k1_pay13 p.2.2.2 (iblk1 V c 2 t) (iblk1 V c 3 t) p.1 p.1 p.2.2.1))
      (k1_pay12 p.2.2.2 (iblk1 V c 2 t) p.1 p.1 p.2.1) := by
  have eM := (Memref.isWhole_whole _ : (scM).IsWhole).read_unread (Val := Elt F) p.1
  have eL := (Memref.isWhole_whole _ : (scL).IsWhole).read_unread (Val := Elt F) p.2.1
  have eA := (Memref.isWhole_whole _ : (scA).IsWhole).read_unread (Val := Elt F) p.2.2.1
  have eQ := (Memref.isWhole_whole _ : (scQ).IsWhole).read_unread (Val := Elt F) p.2.2.2
  unfold outC
  rw [View.read_writes_eq_canon _ _ _ (covC_O V c t h0 h7 p)]
  unfold runC kernelRun1_C
  dsimp only
  sl_unfold_words
  rw [View.canon_unit_zero (S := S1024x256) hz, View.readCov_unit_zero (S := S1024x256) _ hz,
    View.readCov_unit_zero (S := S1024x1) _ hz]
  simp only [View.readAt_eq_ld, Memref.IsWhole.read_unread, View.ld_unit_zero (S := S1024x256) hz,
      View.ld_unit_zero (S := S1024x1) hz, eM, eL, eA, eQ]

/-- A first-key-tile point leaves one step of the recursion from the start state of its query tile (the finite start
    of the maximum, zero normaliser, zero accumulator, the projected query rows), generically in the float instance. -/
theorem stA_gen (c : Dev nD) (t : Fin cfg1.N) (h0 : t.val % 8 = 0) :
    stA V c t h0 = (k1_pay2 (k1_pay9 (k1_pay7 (iblk1 V c 0 t) (iblk1 V c 1 t)) (iblk1 V c 2 t) k1_pay4),
      k1_pay12 (k1_pay7 (iblk1 V c 0 t) (iblk1 V c 1 t)) (iblk1 V c 2 t) k1_pay4 k1_pay4 k1_pay5,
      k1_pay1 (k1_pay13 (k1_pay7 (iblk1 V c 0 t) (iblk1 V c 1 t)) (iblk1 V c 2 t) (iblk1 V c 3 t) k1_pay4 k1_pay4 k1_pay6),
      k1_pay7 (iblk1 V c 0 t) (iblk1 V c 1 t)) := by
  unfold stA
  refine Prod.ext ?_ (Prod.ext ?_ (Prod.ext ?_ ?_))
  · dsimp only
    rw [View.read_writes_eq_canon _ _ _ (covA_M V c t h0)]
    unfold runA kernelRun1_A
    dsimp only
    sl_unfold_words
    rw [View.canon_cons_unit_zero (S := S1024x1) hz, View.readCov_unit_zero (S := S1024x256) _ hz,
      View.readCov_unit_zero (S := S1024x1) _ hz]
    simp only [View.readAt_eq_ld, Memref.IsWhole.read_unread, View.ld_unit_zero (S := S1024x256) hz,
      View.ld_unit_zero (S := S1024x1) hz, View.ld_unit_zero (S := S256x256) hz]
  · dsimp only
    rw [View.read_writes_eq_canon _ _ _ (covA_L V c t h0)]
    unfold runA kernelRun1_A
    dsimp only
    sl_unfold_words
    rw [View.canon_cons_unit_zero (S := S1024x1) hz, View.readCov_unit_zero (S := S1024x256) _ hz]
    simp only [View.readCov_unit_zero (S := S1024x1) _ hz]
    simp only [View.readAt_eq_ld, Memref.IsWhole.read_unread, View.ld_unit_zero (S := S1024x256) hz,
      View.ld_unit_zero (S := S1024x1) hz, View.ld_unit_zero (S := S256x256) hz]
  · dsimp only
    rw [View.read_writes_eq_canon _ _ _ (covA_A V c t h0)]
    unfold runA kernelRun1_A
    dsimp only
    sl_unfold_words
    rw [View.canon_cons_unit_zero (S := S1024x256) hz]
    simp only [View.readCov_unit_zero (S := S1024x1) _ hz, View.readCov_unit_zero (S := S1024x256) _ hz]
    simp only [View.readAt_eq_ld, Memref.IsWhole.read_unread, View.ld_unit_zero (S := S1024x256) hz,
      View.ld_unit_zero (S := S1024x1) hz, View.ld_unit_zero (S := S256x256) hz]
  · dsimp only
    rw [View.read_writes_eq_canon _ _ _ (covA_Q V c t h0)]
    unfold runA kernelRun1_A
    dsimp only
    sl_unfold_words
    rw [View.canon_unit_zero (S := S1024x256) hz]
    simp only [View.readAt_eq_ld, Memref.IsWhole.read_unread, View.ld_unit_zero (S := S1024x256) hz,
      View.ld_unit_zero (S := S1024x1) hz, View.ld_unit_zero (S := S256x256) hz]

end Region1

/-! ## At the extended reals: each case is the recursion's step -/

section AtIdeal
variable (V : (c : Dev nD) → (b : Ref sig .tc) → Buf (Elt Ideal) ((c : Thread nD τ).loc b))

/-- A first-key-tile point leaves the step from the start state of its query tile. -/
theorem stA_eq (c : Dev nD) (t : Fin cfg1.N) (h0 : t.val % 8 = 0) :
    stA (F := Ideal) V c t h0
      = Flash.step (iblk1 V c 2 t) (iblk1 V c 3 t) (Flash.init (iblk1 V c 0 t) (iblk1 V c 1 t)) :=
  stA_gen V c t h0

/-- A middle point leaves the step from the state it finds. -/
theorem stB_eq (c : Dev nD) (t : Fin cfg1.N) (h0 : ¬t.val % 8 = 0) (h7 : ¬t.val % 8 = 7) (p : Flash.St) :
    stB (F := Ideal) V c t h0 h7 p = Flash.step (iblk1 V c 2 t) (iblk1 V c 3 t) p :=
  stB_gen V c t h0 h7 p

/-- A last-key-tile point leaves the step from the state it finds … -/
theorem stC_eq (c : Dev nD) (t : Fin cfg1.N) (h0 : ¬t.val % 8 = 0) (h7 : t.val % 8 = 7) (p : Flash.St) :
    stC (F := Ideal) V c t h0 h7 p = Flash.step (iblk1 V c 2 t) (iblk1 V c 3 t) p :=
  stC_gen V c t h0 h7 p

/-- … and, in the output block, accumulator over normaliser of that new state. -/
theorem outC_eq (c : Dev nD) (t : Fin cfg1.N) (h0 : ¬t.val % 8 = 0) (h7 : t.val % 8 = 7) (p : Flash.St) :
    outC (F := Ideal) V c t h0 h7 p = Flash.outBlk (Flash.step (iblk1 V c 2 t) (iblk1 V c 3 t) p) :=
  outC_gen V c t h0 h7 p

end AtIdeal

end Cert.KernelIdeal.Pieces

end
-- ==== Proof.Finite.lean ====
/-
  The precondition decoded: when every entry of each of the four argument arrays has absolute value strictly
  below +∞, every entry is a real number (neither infinity).
-/
import proofs.«146421_j33767032881830_2_alg».proof.Defs
import proofs.«146421_j33767032881830_2_alg».proof.Proof.Gen.Pre_finite_inputs
import proofs.«146421_j33767032881830_2_alg».proof.Proof.Spec
import Idealize.ShloMosaic.Lib.ReduceAll
import Idealize.ShloMosaic.PureOps.Ideal.Laws

noncomputable section

open Idealize.ShloMosaic Idealize.ShloMosaic.ValueIdx Idealize.SL.Sem

namespace Cert.Finite

open Cert.Spec

/-- The scalar shape has one index. -/
instance : Subsingleton (⟨0, ![]⟩ : Shape).Idx := ⟨fun a b => funext fun d => d.elim0⟩

/-- The word 0x7F800000 denotes +∞. -/
theorem ofBits_inf : Ideal.ofBits .f32 0x7F800000#32 = (⊤ : EReal) := by
  simp [Ideal.ofBits, Ideal.ieee]

/-- An extended real whose absolute value compares strictly below +∞ is a real. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    x = ((x.toReal : ℝ) : EReal) := by
  simp only [Ideal.cmpf_def, Ideal.hostAbsf_def, Ideal.absf_def, Ideal.ofBits_def, ofBits_inf, Ideal.cmp] at h
  induction x using EReal.rec with
  | bot => simp at h
  | top => simp at h
  | coe r => simp

/-- A rank-2 array whose entries all compare, in absolute value, strictly below +∞ has only real entries. -/
theorem isReal_of_all {n0 n1 : Nat} (a : FVec Ideal ⟨2, ![n0, n1]⟩ .f32)
    (bc : (⟨0, ![]⟩ : Shape).BroadcastsInDim ⟨2, ![n0, n1]⟩ (![] : Fin 0 → Fin 2))
    (h' : (⟨2, ![n0, n1]⟩ : Shape).ReducesTo [0, 1] ⟨0, ![]⟩) (hu : 0 < (⟨0, ![]⟩ : Shape).numel)
    (e : Host.reduce IntOp.andi (cmpf .olt (Host.absf a)
          (broadcastInDim ⟨2, ![n0, n1]⟩ ![] bc (constant (F := Ideal) ⟨0, ![]⟩ .f32 0x7F800000#32)))
        (constantI ⟨0, ![]⟩ 1 1#1) h' hu ix0 = 1#1) : IsReal a := by
  intro j
  exact real_of_abs_lt (a j) (Host.reduce_andi_all _ _ h' hu ix0 e j)

/-- The precondition, all ones, says each of the four argument arrays has only real entries. -/
theorem real_of_pre (a0 : FVec Ideal ⟨2, ![8192, 256]⟩ .f32) (a1 a2 a3 : FVec Ideal ⟨2, ![256, 256]⟩ .f32)
    (h : Cert.Pre_finite_inputs.fn (F := Ideal) a0 a1 a2 a3 = (fun _ => 1#1)) :
    IsReal a0 ∧ IsReal a1 ∧ IsReal a2 ∧ IsReal a3 := by
  have e := congrFun h ix0
  dsimp only [Cert.Pre_finite_inputs.fn, Cert.Pre_finite_inputs.fn_part1, andi] at e
  rw [IntOp.andi_eq_one, IntOp.andi_eq_one, IntOp.andi_eq_one] at e
  obtain ⟨⟨⟨e0, e1⟩, e2⟩, e3⟩ := e
  exact ⟨isReal_of_all a0 _ _ _ e0, isReal_of_all a1 _ _ _ e1, isReal_of_all a2 _ _ _ e2, isReal_of_all a3 _ _ _ e3⟩

/-- Under the kernel's precondition its four argument arrays have only real entries, on every device. -/
theorem pre_real (m : (ℓ : Loc Cert.KernelIdeal.nD Cert.KernelIdeal.τ Cert.KernelIdeal.sig) → Buf (Elt Ideal) ℓ)
    (h : Cert.Pre_KernelIdeal m) (c : Dev Cert.KernelIdeal.nD) :
    IsReal (n0 := 8192) (n1 := 256) (m ((c.tc : Thread Cert.KernelIdeal.nD Cert.KernelIdeal.τ).loc Cert.KernelIdeal.main_arg0))
    ∧ IsReal (n0 := 256) (n1 := 256) (m ((c.tc : Thread Cert.KernelIdeal.nD Cert.KernelIdeal.τ).loc Cert.KernelIdeal.main_arg1))
    ∧ IsReal (n0 := 256) (n1 := 256) (m ((c.tc : Thread Cert.KernelIdeal.nD Cert.KernelIdeal.τ).loc Cert.KernelIdeal.main_arg2))
    ∧ IsReal (n0 := 256) (n1 := 256) (m ((c.tc : Thread Cert.KernelIdeal.nD Cert.KernelIdeal.τ).loc Cert.KernelIdeal.main_arg3)) :=
  real_of_pre _ _ _ _ (h c)

/-- Under the reference's precondition its four argument arrays have only real entries, on every device. -/
theorem pre_real_ref (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    IsReal (n0 := 8192) (n1 := 256) (m ((c.tc : Thread Cert.ReferenceIdeal.nD Cert.ReferenceIdeal.τ).loc Cert.ReferenceIdeal.main_arg0))
    ∧ IsReal (n0 := 256) (n1 := 256) (m ((c.tc : Thread Cert.ReferenceIdeal.nD Cert.ReferenceIdeal.τ).loc Cert.ReferenceIdeal.main_arg1))
    ∧ IsReal (n0 := 256) (n1 := 256) (m ((c.tc : Thread Cert.ReferenceIdeal.nD Cert.ReferenceIdeal.τ).loc Cert.ReferenceIdeal.main_arg2))
    ∧ IsReal (n0 := 256) (n1 := 256) (m ((c.tc : Thread Cert.ReferenceIdeal.nD Cert.ReferenceIdeal.τ).loc Cert.ReferenceIdeal.main_arg3)) :=
  real_of_pre _ _ _ _ (h c)

end Cert.Finite

end
-- ==== Proof.KI.Value.lean ====
/-
  The kernel program's result buffer holds softmax attention of the real entries of its arguments.

  The program's buffers are followed through its three stretches. Under the precondition the four argument arrays
  x, wq, wk, wv have real entries. The host stretch leaves wq · (1/16) in the scaled weights' buffer; the first region
  leaves the projections x · wk and x · wv in the key and value arrays; the second region finds x as launched, the
  scaled weights, and those two projections, and leaves in the result array, at (i, d),
  (Σ_j exp (s i j) · (x·wv) j d) / (Σ_j exp (s i j)) with s i j = (Σ_e (x·wq) i e · (x·wk) j e) · (1/16):
  the specification's attention of the real entries of the arguments.
-/
import proofs.«146421_j33767032881830_2_alg».proof.Proof.KI.Frame
import proofs.«146421_j33767032881830_2_alg».proof.Proof.KI.Val0
import proofs.«146421_j33767032881830_2_alg».proof.Proof.KI.Host
import proofs.«146421_j33767032881830_2_alg».proof.Proof.KI.Val1
import proofs.«146421_j33767032881830_2_alg».proof.Proof.KI.Pieces
import proofs.«146421_j33767032881830_2_alg».proof.Proof.Finite
import proofs.«146421_j33767032881830_2_alg».proof.Proof.Spec

noncomputable section

namespace Cert.KernelIdeal.Value

open Cert.KernelIdeal Cert.KernelIdeal.Gen Cert.KernelIdeal.Fr Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

/-- The second region finds the sequence array as launched. -/
theorem V2_arg0 (c : Dev nD) : V2 m ρ c main_arg0 = m ((c.tc : Thread nD τ).loc main_arg0) :=
  (W2_in m ρ c 0 rfl).trans (W1_main_arg0 m ρ c)

/-- The second region finds, in the scaled weights' buffer, what the host stretch left there. -/
theorem V2_v1 (c : Dev nD) :
    V2 m ρ c main_v1 = StableHlo.after hostOps0 (W0 m ρ c) (Proc.devRef .tc main_v1) :=
  W2_of_ne m ρ c main_v1 (by decide)

variable (hpre : Cert.Pre_KernelIdeal m)
include hpre

/-- The second region finds the key array at the projection of the sequence array by the key weights. -/
theorem V2_keys (c : Dev nD) :
    V2 m ρ c main_v2_0 = Val0.projArr (m ((c.tc : Thread nD τ).loc main_arg0)) (m ((c.tc : Thread nD τ).loc main_arg2)) := by
  obtain ⟨hx, -, hk, -⟩ := Cert.Finite.pre_real m hpre c
  refine (W2_arr m ρ c 3).trans ?_
  have e0 : V1 m ρ c main_arg0 = m ((c.tc : Thread nD τ).loc main_arg0) := W1_main_arg0 m ρ c
  have e2 : V1 m ρ c main_arg2 = m ((c.tc : Thread nD τ).loc main_arg2) := W1_main_arg2 m ρ c
  rw [Val0.K_array (V1 m ρ) c (by rw [e0]; exact hx) (by rw [e2]; exact hk), e0, e2]

/-- The second region finds the value array at the projection of the sequence array by the value weights. -/
theorem V2_values (c : Dev nD) :
    V2 m ρ c main_v2_1 = Val0.projArr (m ((c.tc : Thread nD τ).loc main_arg0)) (m ((c.tc : Thread nD τ).loc main_arg3)) := by
  obtain ⟨hx, -, -, hv⟩ := Cert.Finite.pre_real m hpre c
  refine (W2_arr m ρ c 4).trans ?_
  have e0 : V1 m ρ c main_arg0 = m ((c.tc : Thread nD τ).loc main_arg0) := W1_main_arg0 m ρ c
  have e3 : V1 m ρ c main_arg3 = m ((c.tc : Thread nD τ).loc main_arg3) := W1_main_arg3 m ρ c
  rw [Val0.V_array (V1 m ρ) c (by rw [e0]; exact hx) (by rw [e3]; exact hv), e0, e3]

/-- The sequence array the second region finds is real, with the launched array's real entries. -/
theorem hx2 (c : Dev nD) : IsReal (n0 := 8192) (n1 := 256) (V2 m ρ c main_arg0)
    ∧ ∀ i e, toR (n0 := 8192) (n1 := 256) (V2 m ρ c main_arg0) i e = toR (n0 := 8192) (n1 := 256) (m ((c.tc : Thread nD τ).loc main_arg0)) i e := by
  rw [V2_arg0]
  exact ⟨(Cert.Finite.pre_real m hpre c).1, fun _ _ => rfl⟩

/-- The scaled weights the second region finds are real: the query weights' real entries times 1/16. -/
theorem hq2 (c : Dev nD) : IsReal (n0 := 256) (n1 := 256) (V2 m ρ c main_v1)
    ∧ ∀ k e, toR (n0 := 256) (n1 := 256) (V2 m ρ c main_v1) k e
        = Cert.KernelLaw.scaled (toR (n0 := 256) (n1 := 256) (m ((c.tc : Thread nD τ).loc main_arg1))) k e := by
  have hq : IsReal (n0 := 256) (n1 := 256) (W0 m ρ c (Proc.devRef .tc main_arg1)) := (Cert.Finite.pre_real m hpre c).2.1
  rw [V2_v1]
  exact ⟨HostV.v1_isReal (W0 m ρ c) hq, fun k e => HostV.v1_toR (W0 m ρ c) hq k e⟩

/-- The key array the second region finds is real: the real projection by the key weights. -/
theorem hk2 (c : Dev nD) : IsReal (n0 := 8192) (n1 := 256) (V2 m ρ c main_v2_0)
    ∧ ∀ i e, toR (n0 := 8192) (n1 := 256) (V2 m ρ c main_v2_0) i e
        = proj (toR (n0 := 8192) (n1 := 256) (m ((c.tc : Thread nD τ).loc main_arg0))) (toR (n0 := 256) (n1 := 256) (m ((c.tc : Thread nD τ).loc main_arg2))) i e := by
  rw [V2_keys m ρ hpre]
  exact ⟨Val0.projArr_isReal _ _, Val0.projArr_toR _ _⟩

/-- The value array the second region finds is real: the real projection by the value weights. -/
theorem hv2 (c : Dev nD) : IsReal (n0 := 8192) (n1 := 256) (V2 m ρ c main_v2_1)
    ∧ ∀ i e, toR (n0 := 8192) (n1 := 256) (V2 m ρ c main_v2_1) i e
        = proj (toR (n0 := 8192) (n1 := 256) (m ((c.tc : Thread nD τ).loc main_arg0))) (toR (n0 := 256) (n1 := 256) (m ((c.tc : Thread nD τ).loc main_arg3))) i e := by
  rw [V2_values m ρ hpre]
  exact ⟨Val0.projArr_isReal _ _, Val0.projArr_toR _ _⟩

/-- THE KERNEL'S RESULT: under the precondition the result buffer ends holding softmax attention of the real
    entries of the four argument arrays. -/
theorem kernel_value (c : Dev nD) :
    Fr.W3 (F := Ideal) m ρ c (Proc.devRef .tc main_v3)
      = G (m ((c.tc : Thread nD τ).loc main_arg0)) (m ((c.tc : Thread nD τ).loc main_arg1)) (m ((c.tc : Thread nD τ).loc main_arg2)) (m ((c.tc : Thread nD τ).loc main_arg3)) := by
  refine (W3_arr m ρ c 4).trans ?_
  exact Val1.out_array (V2 m ρ) c
    (toR (n0 := 8192) (n1 := 256) (m ((c.tc : Thread nD τ).loc main_arg0))) (toR (n0 := 256) (n1 := 256) (m ((c.tc : Thread nD τ).loc main_arg1)))
    (toR (n0 := 256) (n1 := 256) (m ((c.tc : Thread nD τ).loc main_arg2))) (toR (n0 := 256) (n1 := 256) (m ((c.tc : Thread nD τ).loc main_arg3)))
    (hx2 m ρ hpre c) (hq2 m ρ hpre c) (hk2 m ρ hpre c) (hv2 m ρ hpre c)
    (fun t h0 => Pieces.stA_eq (V2 m ρ) c t h0) (fun t h0 h7 p => Pieces.stB_eq (V2 m ρ) c t h0 h7 p)
    (fun t h0 h7 p => Pieces.stC_eq (V2 m ρ) c t h0 h7 p) (fun t h0 h7 p => Pieces.outC_eq (V2 m ρ) c t h0 h7 p)

end Cert.KernelIdeal.Value

end
-- ==== Proof.KB.R0.lean ====
/-
  The first kernel region (the key and value projections), at any float instance and at any contents V of the
  TensorCore's buffers when the region is entered.

  The grid has 8 points; point t stages rows 1024 t .. 1024 t + 1023 of the sequence array (window 0), the two whole
  256 x 256 weight matrices (windows 1 and 2, fetched once), and writes back one 1024 x 256 block of each projected
  array (windows 3 and 4).  The body loads the three input blocks whole and stores, into each output block, ONE
  whole-block value: the product of the (narrowed) sequence block with the (narrowed) weight matrix, narrowed again.
  So after the body each output staging buffer holds that product as a function of the input blocks (out3, out4),
  every input buffer still holds its block, and nothing else is touched.  This module states that as the body's
  triple, packages it as the pipeline's proof data (dat0) and proves the per-point body obligation.
-/
import proofs.«146421_j33767032881830_2_alg».proof.Proof.Gen.Kernel.Launch
import proofs.«146421_j33767032881830_2_alg».proof.Proof.Gen.Kernel.Skeleton
import proofs.«146421_j33767032881830_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole 1024 x 256 block and the whole 256 x 256 matrix, as rectangles. -/
abbrev rBlk : Rect S1024x256 := Rect.unit (s := S1024x256) ![0, 0] S1024x256.size inb_S1024x256_S1024x256_0_0
abbrev rMat : Rect S256x256 := Rect.unit (s := S256x256) ![0, 0] S256x256.size inb_S256x256_S256x256_0_0

/-- What the body leaves in the key projection's block: the product of the sequence block and the key weights. -/
def out3 (x0 : Vec F S1024x256 .f32) (x1 : Vec F S256x256 .f32) : Vec F S1024x256 .bf16 :=
  View.canon [⟨rBlk, k0_pay2 (View.ld x0 rBlk) (View.ld x1 rMat)⟩]
/-- What the body leaves in the value projection's block: the product of the sequence block and the value weights. -/
def out4 (x0 : Vec F S1024x256 .f32) (x2 : Vec F S256x256 .f32) : Vec F S1024x256 .bf16 :=
  View.canon [⟨rBlk, k0_pay3 (View.ld x0 rBlk) (View.ld x2 rMat)⟩]

/-- One whole-block store covers the block. -/
theorem coverBlk (p0 : Vec F S1024x256 .bf16) (y : S1024x256.Idx) :
    ∃ pc ∈ ([⟨rBlk, p0⟩] : List (View.Piece (Elt F) S1024x256 .bf16)), y ∈ pc.1.set :=
  View.cover_of_tiled [⟨rBlk, p0⟩] S1024x256.size (by rfl) y

set_option maxHeartbeats 1000000 in
/-- The body's triple: on whole staging buffers, the inputs' at contents x0 x1 x2 and the outputs' at anything, the body
    runs to the end without fault and leaves the inputs as they were and each output at its product. -/
theorem sound_kernel0 (c : Dev nD) (E : Set ℕ) (i : grid0.Coords)
    (arg1 : Memref sig .tc .vmem S1024x256 .f32) (harg1 : arg1.IsWhole) (arg2 : Memref sig .tc .vmem S256x256 .f32) (harg2 : arg2.IsWhole)
    (arg3 : Memref sig .tc .vmem S256x256 .f32) (harg3 : arg3.IsWhole) (arg4 : Memref sig .tc .vmem S1024x256 .bf16) (harg4 : arg4.IsWhole)
    (arg5 : Memref sig .tc .vmem S1024x256 .bf16) (harg5 : arg5.IsWhole)
    (x0 : Vec F S1024x256 .f32) (x1 x2 : Vec F S256x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1) ∗ owns (c : Thread nD τ) arg5 fullShare (out4 x0 x2)) -∗ K ⟨⟩))
      ⊢ wp frame (wpE (defs₀ (F := F)) Variants.none c none) E (cc0__kv_kernel i arg1 harg1 arg2 harg2 arg3 harg3 arg4 harg4 arg5 harg5) K := by
  simp only [cc0__kv_kernel_eq_skeleton]; unfold cc0__kv_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverBlk _)
  iexists _; isplitr
  swap; · iexact H4
  ipureintro
  exact View.read_writes_eq_canon _ _ _ (coverBlk _)

/-- The proof data of the first pipeline on core c: the arrays as the region finds them; after the body each input's
    buffer at its block and each output's at its product; nothing carried between points; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out3 (iblk0 V c 0 t) (iblk0 V c 1 t)
    | ⟨4, _⟩ => out4 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out3 (iblk0 V c 0 t) (iblk0 V c 1 t) := by dsimp only [dat0]
theorem after0_4 (c : Dev nD) (t : Fin cfg0.N) : (dat0 V c).after 4 t = out4 (iblk0 V c 0 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.KB.R1Runs.lean ====
/-
  The second kernel region (attention with a running softmax), shared definitions.

  The grid is 8 x 8: point t = 8 qi + ki works on query tile qi (rows 1024 qi ..) and key tile ki.  The body keeps four
  scratch buffers between points: the running row maximum m, the running normaliser l, the running accumulator acc and
  the projected query tile q.  It has two conditionals on the grid position: "ki = 0" (reset m, l, acc and project the
  query tile) and "ki = 7" (divide acc by l and store the output block).  A point is therefore in one of three cases:
  A (ki = 0), B (0 < ki < 7), C (ki = 7).  This module states the conditions in closed form over the grid, says where the
  output window is idle, names the staging and scratch buffers, and opens the region's generic invariant into the four
  scratch buffers, the first region's staging buffers (which this region never touches) and the generator register.
-/
import proofs.«146421_j33767032881830_2_alg».proof.Proof.Gen.Kernel.Launch
import proofs.«146421_j33767032881830_2_alg».proof.Proof.Gen.Kernel.Skeleton
import proofs.«146421_j33767032881830_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions, in closed form over the grid -/

/-- "The key tile is the first one": the reset-and-project branch is taken. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "The key tile is the last one": the normalise-and-store branch is taken. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last key tile the body stores nothing into the output block and the block is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last key tile the output block is stored. -/
theorem liveAt1_4 : ∀ t : Fin cfg1.N, cond1_1 (grid1.coords t) → cfg1.idle 4 (grid1.coords t) = false := by decide +kernel

/-! ## The buffers the body works on -/

abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .f32 := win1_4.stage (cfg1.slots t 4)
abbrev hs1_4 (t : Fin cfg1.N) : (ms1_4 t).IsWhole := hstage1_4 ((cfg1.slots t 4).cast nbuf1_4)
/-- The four scratch buffers: running maximum, running normaliser, running accumulator, projected query tile. -/
abbrev scM : Memref sig .tc .vmem S1024x1 .f32 := Memref.whole cc1_scratch0
abbrev scL : Memref sig .tc .vmem S1024x1 .f32 := Memref.whole cc1_scratch1
abbrev scA : Memref sig .tc .vmem S1024x256 .f32 := Memref.whole cc1_scratch2
abbrev scQ : Memref sig .tc .vmem S1024x256 .bf16 := Memref.whole cc1_scratch3
/-- Views through which the contents of the scratch buffers and of the output block are stated. -/
abbrev VSM : View sig .tc .vmem S1024x1 .f32 := scM.view
abbrev VSL : View sig .tc .vmem S1024x1 .f32 := scL.view
abbrev VSA : View sig .tc .vmem S1024x256 .f32 := scA.view
abbrev VSQ : View sig .tc .vmem S1024x256 .bf16 := scQ.view
abbrev VO4 : View sig .tc .vmem S1024x256 .f32 := (Memref.whole cc1_stg4_0 : Memref sig .tc .vmem S1024x256 .f32).view

/-- A resource beside the first region's eight staging buffers, each at some contents: this region never touches them. -/
abbrev withOthers (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ P)

/-- The region's generic invariant, opened: the first region's staging buffers at anything, the four scratch buffers at
    anything, the generator register at some state. -/
theorem PhiA1_eq (c : Dev nD) :
    (Pipeline.ΦA spec1 c : sProp 𝕄)
      = iprop(withOthers (F := F) c iprop((∃ d, owns (c : Thread nD τ) scM fullShare d) ∗ (∃ d, owns (c : Thread nD τ) scL fullShare d)
          ∗ (∃ d, owns (c : Thread nD τ) scA fullShare d) ∗ (∃ d, owns (c : Thread nD τ) scQ fullShare d)) ∗ (∃ r, prngReg c r)) := by
  unfold Pipeline.ΦA; rw [scopedRest1_eq]; simp only [scM, scL, scA, scQ, owns_whole, withOthers]
  rfl

end Cert.Kernel.Fr

end
-- ==== Proof.KB.R1RunA.lean ====
/-
  The attention body at a point of case A (first key tile): the reset-and-project branch is taken, the
  normalise-and-store branch is not.  Whatever the four scratch buffers hold on entry, the body overwrites each of them
  whole (the pieces it writes are found by running it), leaves the four input blocks as they were and does not touch the
  output block.
-/
import proofs.«146421_j33767032881830_2_alg».proof.Proof.KB.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body writes into the four scratch buffers in case A, with the body's triple. -/
noncomputable def kernelRun1_A (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (arg10 : Memref sig .tc .vmem S1024x256 .bf16) (harg10 : arg10.IsWhole) (hc0 : cond1_0 i) (hc1 : ¬cond1_1 i)
    (x0 : Vec F S1024x256 .f32) (x1 : Vec F S256x256 .f32) (x2 x3 : Vec F S1024x256 .bf16) :
    Σ' (LS0 : List (View.Piece (Elt F) S1024x1 .f32)) (LS1 : List (View.Piece (Elt F) S1024x1 .f32)) (LS2 : List (View.Piece (Elt F) S1024x256 .f32)), { LS3 : List (View.Piece (Elt F) S1024x256 .bf16) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9 arg10 harg10) K } := by
  refine ⟨?_, ?_, ?_, ?_, fun xi4 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.Kernel.Fr

end
-- ==== Proof.KB.R1RunB.lean ====
/-
  The attention body at a point of case B (a key tile that is neither first nor last): neither branch is taken.  From
  the scratch contents the point before left (running maximum, normaliser, accumulator; projected query tile) the body
  rewrites the first three whole, leaves the projected query tile and the four input blocks as they were and does not
  touch the output block.
-/
import proofs.«146421_j33767032881830_2_alg».proof.Proof.KB.R1RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body writes into the maximum, normaliser and accumulator in case B, with the body's triple. -/
noncomputable def kernelRun1_B (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (arg10 : Memref sig .tc .vmem S1024x256 .bf16) (harg10 : arg10.IsWhole) (hc0 : ¬cond1_0 i) (hc1 : ¬cond1_1 i)
    (x0 : Vec F S1024x256 .f32) (x1 : Vec F S256x256 .f32) (x2 x3 : Vec F S1024x256 .bf16)
    (xs0 xs1 : Vec F S1024x1 .f32) (xs2 : Vec F S1024x256 .f32) (xs3 : Vec F S1024x256 .bf16) :
    Σ' (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ owns (c : Thread nD τ) arg10 fullShare xs3) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9 arg10 harg10) K } := by
  refine ⟨?_, ?_, ?_, fun xi4 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; isplitr; · ipureintro; exact harg10.read_unread _
    iexact HS3

end Cert.Kernel.Fr

end
-- ==== Proof.KB.R1RunC.lean ====
/-
  The attention body at a point of case C (last key tile): the reset branch is not taken, the normalise-and-store branch
  is.  As in case B the body rewrites the running maximum, normaliser and accumulator whole from what the point before
  left; then it stores the quotient accumulator / normaliser into the output block, whole.
-/
import proofs.«146421_j33767032881830_2_alg».proof.Proof.KB.R1RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body writes into the output block and into the maximum, normaliser and accumulator in case C, with
    the body's triple. -/
noncomputable def kernelRun1_C (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (arg10 : Memref sig .tc .vmem S1024x256 .bf16) (harg10 : arg10.IsWhole) (hc0 : ¬cond1_0 i) (hc1 : cond1_1 i)
    (x0 : Vec F S1024x256 .f32) (x1 : Vec F S256x256 .f32) (x2 x3 : Vec F S1024x256 .bf16)
    (xs0 xs1 : Vec F S1024x1 .f32) (xs2 : Vec F S1024x256 .f32) (xs3 : Vec F S1024x256 .bf16) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ owns (c : Thread nD τ) arg10 fullShare xs3) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    iexists _; isplitr; · ipureintro; exact harg10.read_unread _
    iexact HS3

end Cert.Kernel.Fr

end
-- ==== Proof.KB.R1.lean ====
/-
  The second kernel region (attention with a running softmax): what the scratch buffers and the output block hold after
  every grid point, and the per-point body obligation.

  After point t the four scratch buffers hold a state (running maximum, normaliser, accumulator, projected query tile)
  defined by recursion on t: at a first key tile (t = 0 mod 8) it is what the reset-and-project case leaves, computed
  from the point's input blocks alone; otherwise it is what the update case leaves, computed from the input blocks and
  the state after point t - 1; at a last key tile (t = 7 mod 8) the output block moreover holds accumulator /
  normaliser.  The region's invariant before point t > 0 is: the scratch buffers hold the state after point t - 1
  (before point 0: anything).  The body obligation is then the body's triple in the point's case.
-/
import proofs.«146421_j33767032881830_2_alg».proof.Proof.KB.R1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The conditions from the closed forms -/

theorem cA0 (t : Fin cfg1.N) (h0 : t.val % 8 = 0) : cond1_0 (grid1.coords t) := (hcond1_0 t).mpr h0
theorem cA1 (t : Fin cfg1.N) (h0 : t.val % 8 = 0) : ¬cond1_1 (grid1.coords t) := fun h => by have := (hcond1_1 t).mp h; omega
theorem cB0 (t : Fin cfg1.N) (h0 : ¬t.val % 8 = 0) : ¬cond1_0 (grid1.coords t) := fun h => h0 ((hcond1_0 t).mp h)
theorem cB1 (t : Fin cfg1.N) (h7 : ¬t.val % 8 = 7) : ¬cond1_1 (grid1.coords t) := fun h => h7 ((hcond1_1 t).mp h)
theorem cC1 (t : Fin cfg1.N) (h7 : t.val % 8 = 7) : cond1_1 (grid1.coords t) := (hcond1_1 t).mpr h7

/-! ## The body's run at a point, case by case, on the point's buffers and input blocks -/

/-- The state the scratch buffers hold: running maximum, normaliser, accumulator, projected query tile. -/
abbrev St : Type := (Vec F S1024x1 .f32 × Vec F S1024x1 .f32 × Vec F S1024x256 .f32 × Vec F S1024x256 .bf16)

abbrev runA (c : Dev nD) (t : Fin cfg1.N) (h0 : t.val % 8 = 0) :=
  kernelRun1_A (F := F) c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) scQ (Memref.isWhole_whole _) (cA0 t h0) (cA1 t h0) (iblk1 V c 0 t) (iblk1 V c 1 t) (iblk1 V c 2 t) (iblk1 V c 3 t)
abbrev runB (c : Dev nD) (t : Fin cfg1.N) (h0 : ¬t.val % 8 = 0) (h7 : ¬t.val % 8 = 7) (p : (Vec F S1024x1 .f32 × Vec F S1024x1 .f32 × Vec F S1024x256 .f32 × Vec F S1024x256 .bf16)) :=
  kernelRun1_B (F := F) c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) scQ (Memref.isWhole_whole _) (cB0 t h0) (cB1 t h7) (iblk1 V c 0 t) (iblk1 V c 1 t) (iblk1 V c 2 t) (iblk1 V c 3 t) p.1 p.2.1 p.2.2.1 p.2.2.2
abbrev runC (c : Dev nD) (t : Fin cfg1.N) (h0 : ¬t.val % 8 = 0) (h7 : t.val % 8 = 7) (p : (Vec F S1024x1 .f32 × Vec F S1024x1 .f32 × Vec F S1024x256 .f32 × Vec F S1024x256 .bf16)) :=
  kernelRun1_C (F := F) c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) scQ (Memref.isWhole_whole _) (cB0 t h0) (cC1 t h7) (iblk1 V c 0 t) (iblk1 V c 1 t) (iblk1 V c 2 t) (iblk1 V c 3 t) p.1 p.2.1 p.2.2.1 p.2.2.2

/-! ## Every store covers its buffer -/

theorem covA_M (c : Dev nD) (t : Fin cfg1.N) (h0 : t.val % 8 = 0) (y : S1024x1.Idx) :
    ∃ pc ∈ (runA V c t h0).1, y ∈ pc.1.set :=
  View.cover_of_tiledL (runA V c t h0).1 S1024x1.size (by sl_kernel_rfl) y
theorem covA_L (c : Dev nD) (t : Fin cfg1.N) (h0 : t.val % 8 = 0) (y : S1024x1.Idx) :
    ∃ pc ∈ (runA V c t h0).2.1, y ∈ pc.1.set :=
  View.cover_of_tiledL (runA V c t h0).2.1 S1024x1.size (by sl_kernel_rfl) y
theorem covA_A (c : Dev nD) (t : Fin cfg1.N) (h0 : t.val % 8 = 0) (y : S1024x256.Idx) :
    ∃ pc ∈ (runA V c t h0).2.2.1, y ∈ pc.1.set :=
  View.cover_of_tiledL (runA V c t h0).2.2.1 S1024x256.size (by sl_kernel_rfl) y
theorem covA_Q (c : Dev nD) (t : Fin cfg1.N) (h0 : t.val % 8 = 0) (y : S1024x256.Idx) :
    ∃ pc ∈ (runA V c t h0).2.2.2.1, y ∈ pc.1.set :=
  View.cover_of_tiledL (runA V c t h0).2.2.2.1 S1024x256.size (by sl_kernel_rfl) y
theorem covB_M (c : Dev nD) (t : Fin cfg1.N) (h0 : ¬t.val % 8 = 0) (h7 : ¬t.val % 8 = 7) (p : (Vec F S1024x1 .f32 × Vec F S1024x1 .f32 × Vec F S1024x256 .f32 × Vec F S1024x256 .bf16)) (y : S1024x1.Idx) :
    ∃ pc ∈ (runB V c t h0 h7 p).1, y ∈ pc.1.set :=
  View.cover_of_tiledL (runB V c t h0 h7 p).1 S1024x1.size (by sl_kernel_rfl) y
theorem covB_L (c : Dev nD) (t : Fin cfg1.N) (h0 : ¬t.val % 8 = 0) (h7 : ¬t.val % 8 = 7) (p : (Vec F S1024x1 .f32 × Vec F S1024x1 .f32 × Vec F S1024x256 .f32 × Vec F S1024x256 .bf16)) (y : S1024x1.Idx) :
    ∃ pc ∈ (runB V c t h0 h7 p).2.1, y ∈ pc.1.set :=
  View.cover_of_tiledL (runB V c t h0 h7 p).2.1 S1024x1.size (by sl_kernel_rfl) y
theorem covB_A (c : Dev nD) (t : Fin cfg1.N) (h0 : ¬t.val % 8 = 0) (h7 : ¬t.val % 8 = 7) (p : (Vec F S1024x1 .f32 × Vec F S1024x1 .f32 × Vec F S1024x256 .f32 × Vec F S1024x256 .bf16)) (y : S1024x256.Idx) :
    ∃ pc ∈ (runB V c t h0 h7 p).2.2.1, y ∈ pc.1.set :=
  View.cover_of_tiledL (runB V c t h0 h7 p).2.2.1 S1024x256.size (by sl_kernel_rfl) y
theorem covC_O (c : Dev nD) (t : Fin cfg1.N) (h0 : ¬t.val % 8 = 0) (h7 : t.val % 8 = 7) (p : (Vec F S1024x1 .f32 × Vec F S1024x1 .f32 × Vec F S1024x256 .f32 × Vec F S1024x256 .bf16)) (y : S1024x256.Idx) :
    ∃ pc ∈ (runC V c t h0 h7 p).1, y ∈ pc.1.set :=
  View.cover_of_tiledL (runC V c t h0 h7 p).1 S1024x256.size (by sl_kernel_rfl) y
theorem covC_M (c : Dev nD) (t : Fin cfg1.N) (h0 : ¬t.val % 8 = 0) (h7 : t.val % 8 = 7) (p : (Vec F S1024x1 .f32 × Vec F S1024x1 .f32 × Vec F S1024x256 .f32 × Vec F S1024x256 .bf16)) (y : S1024x1.Idx) :
    ∃ pc ∈ (runC V c t h0 h7 p).2.1, y ∈ pc.1.set :=
  View.cover_of_tiledL (runC V c t h0 h7 p).2.1 S1024x1.size (by sl_kernel_rfl) y
theorem covC_L (c : Dev nD) (t : Fin cfg1.N) (h0 : ¬t.val % 8 = 0) (h7 : t.val % 8 = 7) (p : (Vec F S1024x1 .f32 × Vec F S1024x1 .f32 × Vec F S1024x256 .f32 × Vec F S1024x256 .bf16)) (y : S1024x1.Idx) :
    ∃ pc ∈ (runC V c t h0 h7 p).2.2.1, y ∈ pc.1.set :=
  View.cover_of_tiledL (runC V c t h0 h7 p).2.2.1 S1024x1.size (by sl_kernel_rfl) y
theorem covC_A (c : Dev nD) (t : Fin cfg1.N) (h0 : ¬t.val % 8 = 0) (h7 : t.val % 8 = 7) (p : (Vec F S1024x1 .f32 × Vec F S1024x1 .f32 × Vec F S1024x256 .f32 × Vec F S1024x256 .bf16)) (y : S1024x256.Idx) :
    ∃ pc ∈ (runC V c t h0 h7 p).2.2.2.1, y ∈ pc.1.set :=
  View.cover_of_tiledL (runC V c t h0 h7 p).2.2.2.1 S1024x256.size (by sl_kernel_rfl) y

/-! ## What each case leaves -/

/-- The scratch state a first-key-tile point leaves. -/
def stA (c : Dev nD) (t : Fin cfg1.N) (h0 : t.val % 8 = 0) : St (F := F) :=
  (VSM.read (Elt F) (VSM.writes (Elt F) VSM.junk (runA V c t h0).1), VSL.read (Elt F) (VSL.writes (Elt F) VSL.junk (runA V c t h0).2.1), VSA.read (Elt F) (VSA.writes (Elt F) VSA.junk (runA V c t h0).2.2.1), VSQ.read (Elt F) (VSQ.writes (Elt F) VSQ.junk (runA V c t h0).2.2.2.1))
/-- The scratch state a middle point leaves, from the state p the point before left. -/
def stB (c : Dev nD) (t : Fin cfg1.N) (h0 : ¬t.val % 8 = 0) (h7 : ¬t.val % 8 = 7) (p : (Vec F S1024x1 .f32 × Vec F S1024x1 .f32 × Vec F S1024x256 .f32 × Vec F S1024x256 .bf16)) : St (F := F) :=
  (VSM.read (Elt F) (VSM.writes (Elt F) VSM.junk (runB V c t h0 h7 p).1), VSL.read (Elt F) (VSL.writes (Elt F) VSL.junk (runB V c t h0 h7 p).2.1), VSA.read (Elt F) (VSA.writes (Elt F) VSA.junk (runB V c t h0 h7 p).2.2.1), p.2.2.2)
/-- The scratch state a last-key-tile point leaves, from the state p the point before left. -/
def stC (c : Dev nD) (t : Fin cfg1.N) (h0 : ¬t.val % 8 = 0) (h7 : t.val % 8 = 7) (p : (Vec F S1024x1 .f32 × Vec F S1024x1 .f32 × Vec F S1024x256 .f32 × Vec F S1024x256 .bf16)) : St (F := F) :=
  (VSM.read (Elt F) (VSM.writes (Elt F) VSM.junk (runC V c t h0 h7 p).2.1), VSL.read (Elt F) (VSL.writes (Elt F) VSL.junk (runC V c t h0 h7 p).2.2.1), VSA.read (Elt F) (VSA.writes (Elt F) VSA.junk (runC V c t h0 h7 p).2.2.2.1), p.2.2.2)
/-- The output block a last-key-tile point leaves. -/
def outC (c : Dev nD) (t : Fin cfg1.N) (h0 : ¬t.val % 8 = 0) (h7 : t.val % 8 = 7) (p : (Vec F S1024x1 .f32 × Vec F S1024x1 .f32 × Vec F S1024x256 .f32 × Vec F S1024x256 .bf16)) : Vec F S1024x256 .f32 :=
  VO4.read (Elt F) (VO4.writes (Elt F) VO4.junk (runC V c t h0 h7 p).1)
/-- A placeholder for the output block at the points that store nothing into it (never consulted: the block is neither
    written back nor read there). -/
def outIdle : Vec F S1024x256 .f32 := VO4.read (Elt F) (VO4.writes (Elt F) VO4.junk [])

/-! ## What the buffers hold after each point -/

/-- The output block and the scratch state after the body at position n, by recursion on n. -/
def outsAt1 (c : Dev nD) : (n : ℕ) → n < cfg1.N → Vec F S1024x256 .f32 × St (F := F)
  | 0, hn => (outIdle, stA V c ⟨0, hn⟩ (Nat.zero_mod _))
  | n + 1, hn =>
    if h0 : (n + 1) % 8 = 0 then (outIdle, stA V c ⟨n + 1, hn⟩ h0)
    else if h7 : (n + 1) % 8 = 7 then
      (outC V c ⟨n + 1, hn⟩ h0 h7 (outsAt1 c n (Nat.lt_of_succ_lt hn)).2, stC V c ⟨n + 1, hn⟩ h0 h7 (outsAt1 c n (Nat.lt_of_succ_lt hn)).2)
    else (outIdle, stB V c ⟨n + 1, hn⟩ h0 h7 (outsAt1 c n (Nat.lt_of_succ_lt hn)).2)

/-- The state after the point before t (t not the first point). -/
abbrev prevSt (c : Dev nD) (t : Fin cfg1.N) : St (F := F) :=
  (outsAt1 V c (t.val - 1) (Nat.lt_of_le_of_lt (Nat.sub_le _ _) t.isLt)).2

theorem outsAt1_A (c : Dev nD) (t : Fin cfg1.N) (h0 : t.val % 8 = 0) :
    outsAt1 V c t.val t.isLt = (outIdle, stA V c t h0) := by
  obtain ⟨n, hn⟩ := t
  cases n with
  | zero => rfl
  | succ n => exact dif_pos h0
theorem outsAt1_B (c : Dev nD) (t : Fin cfg1.N) (h0 : ¬t.val % 8 = 0) (h7 : ¬t.val % 8 = 7) :
    outsAt1 V c t.val t.isLt = (outIdle, stB V c t h0 h7 (prevSt V c t)) := by
  obtain ⟨n, hn⟩ := t
  cases n with
  | zero => exact absurd (Nat.zero_mod _) h0
  | succ n => exact (dif_neg h0).trans (dif_neg h7)
theorem outsAt1_C (c : Dev nD) (t : Fin cfg1.N) (h0 : ¬t.val % 8 = 0) (h7 : t.val % 8 = 7) :
    outsAt1 V c t.val t.isLt = (outC V c t h0 h7 (prevSt V c t), stC V c t h0 h7 (prevSt V c t)) := by
  obtain ⟨n, hn⟩ := t
  cases n with
  | zero => exact absurd (Nat.zero_mod _) h0
  | succ n => exact (dif_neg h0).trans (dif_pos h7)

/-! ## The region's invariant -/

/-- Before position n: anything before the first point; afterwards the scratch buffers at the state the point before left. -/
def PhiS (c : Dev nD) : (n : ℕ) → n ≤ cfg1.N → sProp 𝕄
  | 0, _ => Pipeline.ΦA spec1 c
  | n + 1, hn => iprop(withOthers (F := F) c iprop(owns (c : Thread nD τ) scM fullShare (outsAt1 V c n hn).2.1 ∗ owns (c : Thread nD τ) scL fullShare (outsAt1 V c n hn).2.2.1
      ∗ owns (c : Thread nD τ) scA fullShare (outsAt1 V c n hn).2.2.2.1 ∗ owns (c : Thread nD τ) scQ fullShare (outsAt1 V c n hn).2.2.2.2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(withOthers (F := F) c iprop(owns (c : Thread nD τ) scM fullShare (outsAt1 V c n hn).2.1 ∗ owns (c : Thread nD τ) scL fullShare (outsAt1 V c n hn).2.2.1
      ∗ owns (c : Thread nD τ) scA fullShare (outsAt1 V c n hn).2.2.2.1 ∗ owns (c : Thread nD τ) scQ fullShare (outsAt1 V c n hn).2.2.2.2) ∗ (∃ r, prngReg c r)) := rfl
theorem PhiS_pos (c : Dev nD) (n : ℕ) (h : n ≤ cfg1.N) (hz : n ≠ 0) :
    PhiS V c n h = iprop(withOthers (F := F) c iprop(owns (c : Thread nD τ) scM fullShare (outsAt1 V c (n - 1) (by omega)).2.1 ∗ owns (c : Thread nD τ) scL fullShare (outsAt1 V c (n - 1) (by omega)).2.2.1
      ∗ owns (c : Thread nD τ) scA fullShare (outsAt1 V c (n - 1) (by omega)).2.2.2.1 ∗ owns (c : Thread nD τ) scQ fullShare (outsAt1 V c (n - 1) (by omega)).2.2.2.2) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves_in (c : Dev nD) (t : Fin cfg1.N) (w : Fin cfg1.W) (hl : cfg1.idle w (grid1.coords t) = false) :
    (dat1 V c).leavesExact w t = owns (c : Thread nD τ) ((cfg1.win w).stage (cfg1.slots t w)) fullShare ((dat1 V c).after w t) := by
  unfold Dat.leavesExact; rw [hl]

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves_in V c t 0 (liveAt1_0 t), leaves_in V c t 1 (liveAt1_1 t), leaves_in V c t 2 (liveAt1_2 t), leaves_in V c t 3 (liveAt1_3 t),
    after1_0, after1_1, after1_2, after1_3]
  have hN : t.val < 64 := lt_of_lt_of_eq t.isLt (show cfg1.N = 64 from N_1)
  by_cases h0 : t.val % 8 = 0
  · -- a first key tile
    rw [Dat.leavesExact_idle (dat1 V c) 4 t (idleAt1_4 t (cA1 t h0)) (noFlush1_4 t (cA1 t h0))]
    rw [outsAt1_A V c t h0]
    unfold stA; (try dsimp only)
    by_cases hz : t.val = 0
    · rw [PhiS_castSucc V c t, PhiS_zero V c _ _ hz, PhiA1_eq]
      iintro ⟨⟨⟨Ho0, Ho1, Ho2, Ho3, Ho4, Ho5, Ho6, Ho7, HS0, HS1, HS2, HS3⟩, Hg⟩, Ho, ⟨%d0, H0⟩, ⟨%d1, H1⟩, ⟨%d2, H2⟩, ⟨%d3, H3⟩, ⟨%d4, H4⟩⟩
      iapply ((runA V c t h0).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [Ho0 Ho1 Ho2 Ho3 Ho4 Ho5 Ho6 Ho7 HS0 HS1 HS2 HS3 Hg]
      · isplitr [Hg]
        ·
          isplitl [Ho0]; · iexact Ho0
          isplitl [Ho1]; · iexact Ho1
          isplitl [Ho2]; · iexact Ho2
          isplitl [Ho3]; · iexact Ho3
          isplitl [Ho4]; · iexact Ho4
          isplitl [Ho5]; · iexact Ho5
          isplitl [Ho6]; · iexact Ho6
          isplitl [Ho7]; · iexact Ho7
          isplitl [HS0]
          · unfold owns; iexists _; isplitr
            swap; · iexact HS0
            ipureintro; exact View.read_writes_of_cover _ _ _ _ _ (covA_M V c t h0)
          isplitl [HS1]
          · unfold owns; iexists _; isplitr
            swap; · iexact HS1
            ipureintro; exact View.read_writes_of_cover _ _ _ _ _ (covA_L V c t h0)
          isplitl [HS2]
          · unfold owns; iexists _; isplitr
            swap; · iexact HS2
            ipureintro; exact View.read_writes_of_cover _ _ _ _ _ (covA_A V c t h0)
          unfold owns; iexists _; isplitr
          swap; · iexact HS3
          ipureintro; exact View.read_writes_of_cover _ _ _ _ _ (covA_Q V c t h0)
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨Ho0, Ho1, Ho2, Ho3, Ho4, Ho5, Ho6, Ho7, HS0, HS1, HS2, HS3⟩, Hg⟩, Ho, ⟨%d0, H0⟩, ⟨%d1, H1⟩, ⟨%d2, H2⟩, ⟨%d3, H3⟩, ⟨%d4, H4⟩⟩
      iapply ((runA V c t h0).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, ⟨%es0, HS0⟩, ⟨%es1, HS1⟩, ⟨%es2, HS2⟩, ⟨%es3, HS3⟩⟩
      isplitl [Ho0 Ho1 Ho2 Ho3 Ho4 Ho5 Ho6 Ho7 HS0 HS1 HS2 HS3 Hg]
      · isplitr [Hg]
        ·
          isplitl [Ho0]; · iexact Ho0
          isplitl [Ho1]; · iexact Ho1
          isplitl [Ho2]; · iexact Ho2
          isplitl [Ho3]; · iexact Ho3
          isplitl [Ho4]; · iexact Ho4
          isplitl [Ho5]; · iexact Ho5
          isplitl [Ho6]; · iexact Ho6
          isplitl [Ho7]; · iexact Ho7
          isplitl [HS0]
          · unfold owns; iexists _; isplitr
            swap; · iexact HS0
            ipureintro; exact View.read_writes_of_cover _ _ _ _ _ (covA_M V c t h0)
          isplitl [HS1]
          · unfold owns; iexists _; isplitr
            swap; · iexact HS1
            ipureintro; exact View.read_writes_of_cover _ _ _ _ _ (covA_L V c t h0)
          isplitl [HS2]
          · unfold owns; iexists _; isplitr
            swap; · iexact HS2
            ipureintro; exact View.read_writes_of_cover _ _ _ _ _ (covA_A V c t h0)
          unfold owns; iexists _; isplitr
          swap; · iexact HS3
          ipureintro; exact View.read_writes_of_cover _ _ _ _ _ (covA_Q V c t h0)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h7 : t.val % 8 = 7
    · -- a last key tile
      rw [leaves_in V c t 4 (liveAt1_4 t (cC1 t h7)), after1_4]
      rw [outsAt1_C V c t h0 h7]
      unfold stC outC; (try dsimp only)
      rw [PhiS_castSucc V c t, PhiS_pos V c _ _ hz]
      iintro ⟨⟨⟨Ho0, Ho1, Ho2, Ho3, Ho4, Ho5, Ho6, Ho7, HS0, HS1, HS2, HS3⟩, Hg⟩, Ho, ⟨%d0, H0⟩, ⟨%d1, H1⟩, ⟨%d2, H2⟩, ⟨%d3, H3⟩, ⟨%d4, H4⟩⟩
      iapply ((runC V c t h0 h7 (prevSt V c t)).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, ⟨%es0, HS0⟩, ⟨%es1, HS1⟩, ⟨%es2, HS2⟩, HS3⟩
      isplitl [Ho0 Ho1 Ho2 Ho3 Ho4 Ho5 Ho6 Ho7 HS0 HS1 HS2 HS3 Hg]
      · isplitr [Hg]
        ·
          isplitl [Ho0]; · iexact Ho0
          isplitl [Ho1]; · iexact Ho1
          isplitl [Ho2]; · iexact Ho2
          isplitl [Ho3]; · iexact Ho3
          isplitl [Ho4]; · iexact Ho4
          isplitl [Ho5]; · iexact Ho5
          isplitl [Ho6]; · iexact Ho6
          isplitl [Ho7]; · iexact Ho7
          isplitl [HS0]
          · unfold owns; iexists _; isplitr
            swap; · iexact HS0
            ipureintro; exact View.read_writes_of_cover _ _ _ _ _ (covC_M V c t h0 h7 _)
          isplitl [HS1]
          · unfold owns; iexists _; isplitr
            swap; · iexact HS1
            ipureintro; exact View.read_writes_of_cover _ _ _ _ _ (covC_L V c t h0 h7 _)
          isplitl [HS2]
          · unfold owns; iexists _; isplitr
            swap; · iexact HS2
            ipureintro; exact View.read_writes_of_cover _ _ _ _ _ (covC_A V c t h0 h7 _)
          iexact HS3
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (covC_O V c t h0 h7 _)
    · -- a middle point
      rw [Dat.leavesExact_idle (dat1 V c) 4 t (idleAt1_4 t (cB1 t h7)) (noFlush1_4 t (cB1 t h7))]
      rw [outsAt1_B V c t h0 h7]
      unfold stB; (try dsimp only)
      rw [PhiS_castSucc V c t, PhiS_pos V c _ _ hz]
      iintro ⟨⟨⟨Ho0, Ho1, Ho2, Ho3, Ho4, Ho5, Ho6, Ho7, HS0, HS1, HS2, HS3⟩, Hg⟩, Ho, ⟨%d0, H0⟩, ⟨%d1, H1⟩, ⟨%d2, H2⟩, ⟨%d3, H3⟩, ⟨%d4, H4⟩⟩
      iapply ((runB V c t h0 h7 (prevSt V c t)).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, HS3⟩
      isplitl [Ho0 Ho1 Ho2 Ho3 Ho4 Ho5 Ho6 Ho7 HS0 HS1 HS2 HS3 Hg]
      · isplitr [Hg]
        ·
          isplitl [Ho0]; · iexact Ho0
          isplitl [Ho1]; · iexact Ho1
          isplitl [Ho2]; · iexact Ho2
          isplitl [Ho3]; · iexact Ho3
          isplitl [Ho4]; · iexact Ho4
          isplitl [Ho5]; · iexact Ho5
          isplitl [Ho6]; · iexact Ho6
          isplitl [Ho7]; · iexact Ho7
          isplitl [HS0]
          · unfold owns; iexists _; isplitr
            swap; · iexact HS0
            ipureintro; exact View.read_writes_of_cover _ _ _ _ _ (covB_M V c t h0 h7 _)
          isplitl [HS1]
          · unfold owns; iexists _; isplitr
            swap; · iexact HS1
            ipureintro; exact View.read_writes_of_cover _ _ _ _ _ (covB_L V c t h0 h7 _)
          isplitl [HS2]
          · unfold owns; iexists _; isplitr
            swap; · iexact HS2
            ipureintro; exact View.read_writes_of_cover _ _ _ _ _ (covB_A V c t h0 h7 _)
          iexact HS3
        iexact Hg
      isplitl [Ho]; · iexact Ho
      isplitl [H0]; · iexact H0
      isplitl [H1]; · iexact H1
      isplitl [H2]; · iexact H2
      isplitl [H3]; · iexact H3
      iexists _; iexact H4

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the generic one back: the scratch contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨⟨Ho0, Ho1, Ho2, Ho3, Ho4, Ho5, Ho6, Ho7, HS0, HS1, HS2, HS3⟩, Hg⟩
  isplitr [Hg]
  ·
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [HS0]; · iexists _; iexact HS0
    isplitl [HS1]; · iexists _; iexact HS1
    isplitl [HS2]; · iexists _; iexact HS2
    iexists _; iexact HS3
  iexact Hg

end Region1

end Cert.Kernel.Fr

end
-- ==== Proof.KB.Frame.lean ====
/-
  The whole run of the kernel program: the host stretch (the scaled query weights), the projection region, the
  attention region.

  The contents of the TensorCore's unscoped buffers are followed through the program as a fold: W0 at launch; W1 after
  the host operations; W2 after the first region (its two output arrays at what its write-backs leave, everything else
  unchanged); W3 after the second region (its output array at what its write-backs leave).  Each region is entered with
  every unscoped buffer held at the fold's current contents and left with them at the next; the scratch contents the
  second region names inside are forgotten when it ends.  The run's post says every unscoped buffer ends at W3; the four
  argument arrays are read back through the fold to their launch contents (no host operation writes one, and a region
  only reads them).
-/
import proofs.«146421_j33767032881830_2_alg».proof.Proof.KB.R0
import proofs.«146421_j33767032881830_2_alg».proof.Proof.KB.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched -/

theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- An input window's array leaves the first region as it entered it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- An input window's array leaves the second region as it entered it. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))

theorem W3_main_arg0 (c : Dev nD) : W3 m ρ c (Proc.devRef .tc main_arg0) = m ((c : Thread nD τ).loc main_arg0) :=
  (W3_in m ρ c 0 rfl).trans ((W2_in m ρ c 0 rfl).trans (W1_main_arg0 m ρ c))
theorem W3_main_arg1 (c : Dev nD) : W3 m ρ c (Proc.devRef .tc main_arg1) = m ((c : Thread nD τ).loc main_arg1) :=
  (W3_of_ne m ρ c main_arg1 (by decide)).trans ((W2_of_ne m ρ c main_arg1 (by decide)).trans (W1_main_arg1 m ρ c))
theorem W3_main_arg2 (c : Dev nD) : W3 m ρ c (Proc.devRef .tc main_arg2) = m ((c : Thread nD τ).loc main_arg2) :=
  (W3_of_ne m ρ c main_arg2 (by decide)).trans ((W2_in m ρ c 1 rfl).trans (W1_main_arg2 m ρ c))
theorem W3_main_arg3 (c : Dev nD) : W3 m ρ c (Proc.devRef .tc main_arg3) = m ((c : Thread nD τ).loc main_arg3) :=
  (W3_of_ne m ρ c main_arg3 (by decide)).trans ((W2_in m ρ c 2 rfl).trans (W1_main_arg3 m ρ c))

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The projection region over the thread state: entered with every unscoped buffer at W1, left with them at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered with every unscoped buffer at W2, left with them at W3; the
    scratch contents named by its invariant enter as anything and are forgotten at the end. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m ρ) c); unfold Pipeline.ΦA
    iintro ⟨Hp, -, Hr⟩
    isplitl [Hr]; · iexact Hr
    iexact Hp
  hout c := by
    rw [Pipeline.ownSems0_none]
    refine (hout1 (V2 m ρ) c).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates without a fault,
    and in every final state the result buffer holds W3's contents and the four argument arrays are as launched. -/
theorem run_W3 : θ_run defs (onTc (τ := τ) (main (F := F))) ⟨m, fun _ => 0, ρ⟩ (fun r => ∀ c : Dev nD,
      r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

/-- The frame: every weakly fair execution terminates without a fault and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_W3 m ρ)

end Cert.Kernel.Fr

end
-- ==== Proof.RefValue.lean ====
/-
  The reference computation is softmax attention of the real entries of its arguments.

  For real arrays x : 8192 × 256 and wq, wk, wv : 256 × 256 the reference forms the projections x·wq, x·wk, x·wv,
  the scores s i j = (Σ_e (x·wq) i e · (x·wk) j e) · (1 / sqrt 256), subtracts from each row of scores its maximum
  M i (taken as a running maximum from -∞), and returns Σ_j (exp (s i j - M i) / Σ_k exp (s i k - M i)) · (x·wv) j d.
  Here:
    • 1 / sqrt 256 is the real 1/16 (sqrt 256 = 16 since 16 · 16 = 256);
    • every stage, at an index, is the image of a real number: sums and products of reals are real, the maximum of
      8192 reals from -∞ is a real, exp of a real is a positive real, and the row total of the exponentials is
      positive, so no quotient meets a zero divisor;
    • over the reals the weights exp (s - c) / Σ exp (s - c) do not depend on the shift c (the factor exp c cancels),
      so the result is (Σ_j exp (s i j) · (x·wv) j d) / (Σ_j exp (s i j)): the specification's attention.
  Then the run: from any memory whose four argument arrays are real, every execution terminates with the result
  array at that function of the arguments and the arguments unchanged; dropping the result gives the frame.
-/
import proofs.«146421_j33767032881830_2_alg».proof.Defs
import proofs.«146421_j33767032881830_2_alg».proof.Proof.Gen.ReferenceIdeal.Read
import proofs.«146421_j33767032881830_2_alg».proof.Proof.Gen.Pre_finite_inputs
import proofs.«146421_j33767032881830_2_alg».proof.Proof.Spec
import proofs.«146421_j33767032881830_2_alg».proof.Proof.LibRowSoftmax

noncomputable section

open scoped BigOperators
open Idealize.ShloMosaic Idealize.ShloMosaic.ValueIdx Idealize.SL.Sem

namespace Cert.RefValue

open Cert.ReferenceIdeal Cert.ReferenceIdeal.Gen Cert.ReferenceIdeal.Read Cert.Spec

/-! ## Over the reals -/

/-- Over the reals: softmax weights taken with any shift of the scores, read against values, are the
    unshifted exp-weighted mean of the values. -/
theorem shifted_mean {M : Type*} [Fintype M] (s v : M → ℝ) (c : ℝ) :
    ∑ m, (Real.exp (s m - c) / ∑ m', Real.exp (s m' - c)) * v m
      = (∑ m, Real.exp (s m) * v m) / (∑ m, Real.exp (s m)) := by
  have e1 : ∀ m, Real.exp (s m - c) = Real.exp (s m) / Real.exp c := fun m => Real.exp_sub _ _
  simp only [e1]
  rw [← Finset.sum_div]
  have e2 : ∀ m, Real.exp (s m) / Real.exp c / ((∑ m', Real.exp (s m')) / Real.exp c)
      = Real.exp (s m) / ∑ m', Real.exp (s m') := fun m =>
    div_div_div_cancel_right₀ (Real.exp_ne_zero c) _ _
  simp only [e2]
  rw [Finset.sum_div]
  exact Finset.sum_congr rfl fun m _ => by ring

/-! ## The constants -/

/-- The word 0x43800000 denotes the real 256. -/
theorem ofBits_256 : Ideal.ofBits .f32 0x43800000#32 = ((256 : ℝ) : EReal) := by
  simp [Ideal.ofBits, Ideal.ieee, -EReal.coe_mul]; norm_num

/-- The word 0x3F800000 denotes the real 1. -/
theorem ofBits_one : Ideal.ofBits .f32 0x3F800000#32 = ((1 : ℝ) : EReal) := by
  simp [Ideal.ofBits, Ideal.ieee, -EReal.coe_mul]; norm_num

/-- The word 0xFF800000 denotes -∞. -/
theorem ofBits_neg_inf : Ideal.ofBits .f32 0xFF800000#32 = (⊥ : EReal) := by
  simp [Ideal.ofBits, Ideal.ieee]

/-- The square root of 256 is 16. -/
theorem sqrt_256 : Real.sqrt 256 = 16 := by
  rw [show (256 : ℝ) = 16 ^ 2 by norm_num]
  exact Real.sqrt_sq (by norm_num)

/-- The scale the reference multiplies the scores by, 1 / sqrt 256, is the real 1/16. -/
theorem scale_eq (i : S_.Idx) : val_main_v6 (F := Ideal) i = ((1 / 16 : ℝ) : EReal) := by
  rw [val_main_v6_apply, val_main_v5_apply, val_main_cst_apply, val_main_cst_0_apply]
  simp only [Ideal.hostDivf_def, Ideal.hostUnary_sqrt_def, Ideal.ofBits_def]
  rw [ofBits_256, ofBits_one, Ideal.sqrt_coe, if_neg (by norm_num), sqrt_256]
  exact RowSoftmax.div_coe_coe 1 16 (by norm_num)

/-! ## The stages at an index, at real arguments -/

section Stages

variable (x : (⟨2, ![8192, 256]⟩ : Shape).Idx → EReal) (wq wk wv : (⟨2, ![256, 256]⟩ : Shape).Idx → EReal)

/-- A projection of real arrays, at an index, is the real row-by-column sum. -/
theorem proj_at (w : (⟨2, ![256, 256]⟩ : Shape).Idx → EReal) (hx : IsReal x) (hw : IsReal w) (p : Fin 8192) (e : Fin 256) :
    val_main_v0 (F := Ideal) x w (ix2 p e) = ((proj (toR x) (toR w) p e : ℝ) : EReal) := by
  rw [val_main_v0_apply]
  unfold proj
  rw [RowSoftmax.coe_sum]
  refine Finset.sum_congr rfl fun k _ => ?_
  have el : lidx_main_v0 (ix2 p e) k = ix2 p k :=
    funext fun a => Fin.ext (by match a with | ⟨0, _⟩ => rfl | ⟨1, _⟩ => rfl)
  have er : ridx_main_v0 (ix2 p e) k = ix2 k e :=
    funext fun a => Fin.ext (by match a with | ⟨0, _⟩ => rfl | ⟨1, _⟩ => rfl)
  rw [el, er, hx.at, hw.at, EReal.coe_mul]

/-- The scaled score of query row i against key row j. -/
theorem score_at (hx : IsReal x) (hq : IsReal wq) (hk : IsReal wk) (i j : Fin 8192) :
    val_main_v8 (F := Ideal) x wq wk (ix2 i j) = ((score (toR x) (toR wq) (toR wk) i j : ℝ) : EReal) := by
  rw [val_main_v8_apply, val_main_v4_apply, val_main_v7_apply, scale_eq]
  unfold score
  rw [Ideal.mulf_def, EReal.coe_mul, RowSoftmax.coe_sum]
  refine congrArg (· * _) (Finset.sum_congr rfl fun k _ => ?_)
  rw [val_main_v3_apply]
  have el : lidx_main_v4 (ix2 i j) k = ix2 i k :=
    funext fun a => Fin.ext (by match a with | ⟨0, _⟩ => rfl | ⟨1, _⟩ => rfl)
  have er : idx_main_v3 (ridx_main_v4 (ix2 i j) k) = ix2 j k :=
    funext fun a => Fin.ext (by match a with | ⟨0, _⟩ => rfl | ⟨1, _⟩ => rfl)
  rw [el, er]
  show val_main_v0 (F := Ideal) x wq (ix2 i k) * val_main_v0 (F := Ideal) x wk (ix2 j k) = _
  rw [proj_at x wq hx hq, proj_at x wk hx hk, EReal.coe_mul]

end Stages

section Softmax

variable (x : (⟨2, ![8192, 256]⟩ : Shape).Idx → EReal) (wq wk wv : (⟨2, ![256, 256]⟩ : Shape).Idx → EReal)
  (hx : IsReal x) (hq : IsReal wq) (hk : IsReal wk)
include hx hq hk

/-- The maximum of a row of scores, as the reference takes it (a fold from -∞, joined with -∞), is a real. -/
theorem rowmax_real (i : Fin 8192) : ∃ c : ℝ, val_main_v11 (F := Ideal) x wq wk (ix1 i) = (c : EReal) := by
  rw [val_main_v11_apply, val_main_v10_apply, val_main_cst_2_apply]
  unfold val_main_v9
  have h : S8192x8192.Reduces [1] S8192 := by decide
  rw [Host.reduce_eq_fold_single FloatOps.maximumf _ _ _ h _, val_main_cst_1_apply]
  have hf : (val_main_v8 (F := Ideal) x wq wk ∘ h.lift (ix1 i))
      = fun k : Fin 8192 => ((score (toR x) (toR wq) (toR wk) i k : ℝ) : EReal) :=
    funext fun k : Fin 8192 => by
      have e : h.lift (ix1 i) k = ix2 i k :=
        funext fun a => Fin.ext (by match a with | ⟨0, _⟩ => rfl | ⟨1, _⟩ => rfl)
      show val_main_v8 (F := Ideal) x wq wk (h.lift (ix1 i) k) = _
      rw [e, score_at x wq wk hx hq hk]
  rw [hf]
  simp only [Ideal.ofBits_def, ofBits_neg_inf]
  exact RowSoftmax.max_fold_max_real (n := 8192) (by norm_num) ⊥ ⊥ (by simp) (by simp) _

variable (i : Fin 8192) (c : ℝ) (hc : val_main_v11 (F := Ideal) x wq wk (ix1 i) = (c : EReal))
include hc

/-- The exponential of a score less the row's maximum. -/
theorem exp_at (j : Fin 8192) :
    val_main_v15 (F := Ideal) x wq wk (ix2 i j)
      = ((Real.exp (score (toR x) (toR wq) (toR wk) i j - c) : ℝ) : EReal) := by
  rw [val_main_v15_apply, val_main_v14_apply, val_main_v13_apply, val_main_v12_apply]
  have e : idx_main_v12 (idx_main_v13 (ix2 i j)) = ix1 i :=
    funext fun a => Fin.ext (by match a with | ⟨0, _⟩ => rfl)
  rw [e, hc, score_at x wq wk hx hq hk, Ideal.subf_def, Ideal.hostUnary_exp_def, ← EReal.coe_sub, Ideal.exp_coe]

/-- The row's total of those exponentials. -/
theorem sumexp_at :
    val_main_v16 (F := Ideal) x wq wk (ix1 i)
      = ((∑ k : Fin 8192, Real.exp (score (toR x) (toR wq) (toR wk) i k - c) : ℝ) : EReal) := by
  rw [val_main_v16_apply, val_main_cst_3_apply, Ideal.ofBits_def, Ideal.ofBits_zero_f32, zero_add, RowSoftmax.coe_sum]
  refine Finset.sum_congr rfl fun k _ => ?_
  have e : idx_main_v16 (ix1 i) k = ix2 i k :=
    funext fun a => Fin.ext (by match a with | ⟨0, _⟩ => rfl | ⟨1, _⟩ => rfl)
  rw [e, exp_at x wq wk hx hq hk i c hc]

/-- A softmax weight: the exponential over the row's total. -/
theorem weight_at (j : Fin 8192) :
    val_main_v19 (F := Ideal) x wq wk (ix2 i j)
      = ((Real.exp (score (toR x) (toR wq) (toR wk) i j - c)
          / ∑ k : Fin 8192, Real.exp (score (toR x) (toR wq) (toR wk) i k - c) : ℝ) : EReal) := by
  rw [val_main_v19_apply, val_main_v18_apply, val_main_v17_apply]
  have e : idx_main_v17 (idx_main_v18 (ix2 i j)) = ix1 i :=
    funext fun a => Fin.ext (by match a with | ⟨0, _⟩ => rfl)
  rw [e, exp_at x wq wk hx hq hk i c hc, sumexp_at x wq wk hx hq hk i c hc, Ideal.hostDivf_def]
  exact RowSoftmax.div_coe_coe _ _ (RowSoftmax.sum_exp_ne_zero _)

end Softmax

/-- The reference's result, at real arguments, is softmax attention of their real entries. -/
theorem ref_eq_G (x : (⟨2, ![8192, 256]⟩ : Shape).Idx → EReal) (wq wk wv : (⟨2, ![256, 256]⟩ : Shape).Idx → EReal)
    (hx : IsReal x) (hq : IsReal wq) (hk : IsReal wk) (hv : IsReal wv) :
    val_main_v20 (F := Ideal) x wq wk wv = G x wq wk wv := by
  funext idx
  obtain ⟨p, q, rfl⟩ : ∃ (p : Fin 8192) (q : Fin 256), idx = ix2 p q := ⟨idx 0, idx 1, eq_ix2 idx⟩
  obtain ⟨c, hc⟩ := rowmax_real x wq wk hx hq hk p
  rw [G_apply, val_main_v20_apply]
  unfold attnR
  rw [← shifted_mean _ _ c, RowSoftmax.coe_sum]
  refine Finset.sum_congr rfl fun k _ => ?_
  have el : lidx_main_v20 (ix2 p q) k = ix2 p k :=
    funext fun a => Fin.ext (by match a with | ⟨0, _⟩ => rfl | ⟨1, _⟩ => rfl)
  have er : ridx_main_v20 (ix2 p q) k = ix2 k q :=
    funext fun a => Fin.ext (by match a with | ⟨0, _⟩ => rfl | ⟨1, _⟩ => rfl)
  rw [el, er, weight_at x wq wk hx hq hk p c hc, EReal.coe_mul]
  show _ * val_main_v0 (F := Ideal) x wv (ix2 k q) = _
  rw [proj_at x wv hx hv]

/-! ## The run -/

/-- The reference, run from a memory whose four argument arrays are real on every device, terminates with its
    result at softmax attention of the arguments' real entries, the arguments unchanged. -/
theorem run_G (m' : (ℓ : Loc Cert.ReferenceIdeal.nD Cert.ReferenceIdeal.τ Cert.ReferenceIdeal.sig) → Buf (Elt Ideal) ℓ)
    (ρ' : Dev Cert.ReferenceIdeal.nD → PrngReg)
    (hreal : ∀ c : Dev Cert.ReferenceIdeal.nD,
      IsReal (n0 := 8192) (n1 := 256) (m' ((c.tc : Thread Cert.ReferenceIdeal.nD Cert.ReferenceIdeal.τ).loc Cert.ReferenceIdeal.main_arg0))
      ∧ IsReal (n0 := 256) (n1 := 256) (m' ((c.tc : Thread Cert.ReferenceIdeal.nD Cert.ReferenceIdeal.τ).loc Cert.ReferenceIdeal.main_arg1))
      ∧ IsReal (n0 := 256) (n1 := 256) (m' ((c.tc : Thread Cert.ReferenceIdeal.nD Cert.ReferenceIdeal.τ).loc Cert.ReferenceIdeal.main_arg2))
      ∧ IsReal (n0 := 256) (n1 := 256) (m' ((c.tc : Thread Cert.ReferenceIdeal.nD Cert.ReferenceIdeal.τ).loc Cert.ReferenceIdeal.main_arg3))) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
          r.2.mem ((c.tc : Thread Cert.ReferenceIdeal.nD Cert.ReferenceIdeal.τ).loc Cert.ReferenceIdeal.main_v20) = G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run Cert.ReferenceIdeal.defs _ _).mono
    (fun _ h c => ⟨(h c).1.trans ((val_main_v20_eq _ _ _ _).trans
        (ref_eq_G _ _ _ _ (hreal c).1 (hreal c).2.1 (hreal c).2.2.1 (hreal c).2.2.2)), (h c).2⟩)
    (Cert.ReferenceIdeal.Value.run (F := Ideal) m' ρ')

/-- The reference runs and leaves its argument arrays unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.RefValue

end
-- ==== Proof.Claims.lean ====
/-
  The certificate's five claims.

  The word-level program and its reading on the extended reals both run to the end without fault and leave their
  four argument arrays unchanged; so does the reference. No operation of the program was rewritten to obtain its
  reading on the extended reals, so there is nothing to preserve. On the extended reals, under the precondition
  (every argument entry is a real number), the program's result array and the reference's result array both hold
  softmax attention of the arguments' real entries, at (i, d)
    (Σ_j exp (s i j) · (x·wv) j d) / (Σ_j exp (s i j)),   s i j = (Σ_e (x·wq) i e · (x·wk) j e) · (1/16):
  the program by its running maximum and rescaled running sums over 8 blocks of 1024 keys, the reference by
  subtracting each row's true maximum; over the reals both are that quotient.
-/
import proofs.«146421_j33767032881830_2_alg».proof.Defs
import proofs.«146421_j33767032881830_2_alg».proof.Proof.KI.Value
import proofs.«146421_j33767032881830_2_alg».proof.Proof.KB.Frame
import proofs.«146421_j33767032881830_2_alg».proof.Proof.RefValue
import proofs.«146421_j33767032881830_2_alg».proof.Proof.Finite

noncomputable section

namespace Cert.Proof.Claims

open Idealize.ShloMosaic Idealize.SL.Sem Cert.Spec

/-- The word-level program runs and leaves its arguments unchanged. -/
theorem frame_k : Cert.frame_Kernel := fun m ρ _ => Cert.Kernel.Fr.frame (F := Bits) m ρ

/-- The program read on the extended reals runs and leaves its arguments unchanged. -/
theorem frame_ki : Cert.frame_KernelIdeal := fun m ρ _ => Cert.KernelIdeal.Fr.frame (F := Ideal) m ρ

/-- The reference runs and leaves its arguments unchanged. -/
theorem frame_ri : Cert.frame_ReferenceIdeal := Cert.RefValue.frame_ri

/-- No operation was rewritten: nothing to preserve. -/
theorem preserves : Cert.preserves_Kernel_KernelIdeal := trivial

/-- On the extended reals, from memories agreeing on real arguments, the program and the reference end with the
    same result array: softmax attention of the arguments' real entries. -/
theorem algebraic : Cert.algebraic_KernelIdeal_ReferenceIdeal := by
  intro m ρ m' ρ' hpre hagree
  refine ⟨fun c => G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run (Cert.KernelIdeal.defs (F := Ideal)) _ _).mono
      (fun r h c => ⟨(h c).1.trans (Cert.KernelIdeal.Value.kernel_value m ρ hpre c), (h c).2⟩)
      (Cert.KernelIdeal.Fr.run_W3 (F := Ideal) m ρ)
  · have hreal : ∀ c : Dev Cert.ReferenceIdeal.nD,
        IsReal (n0 := 8192) (n1 := 256) (m' ((c.tc : Thread Cert.ReferenceIdeal.nD Cert.ReferenceIdeal.τ).loc Cert.ReferenceIdeal.main_arg0))
        ∧ IsReal (n0 := 256) (n1 := 256) (m' ((c.tc : Thread Cert.ReferenceIdeal.nD Cert.ReferenceIdeal.τ).loc Cert.ReferenceIdeal.main_arg1))
        ∧ IsReal (n0 := 256) (n1 := 256) (m' ((c.tc : Thread Cert.ReferenceIdeal.nD Cert.ReferenceIdeal.τ).loc Cert.ReferenceIdeal.main_arg2))
        ∧ IsReal (n0 := 256) (n1 := 256) (m' ((c.tc : Thread Cert.ReferenceIdeal.nD Cert.ReferenceIdeal.τ).loc Cert.ReferenceIdeal.main_arg3)) := fun c => by
      obtain ⟨e0, e1, e2, e3⟩ := hagree c
      rw [e0, e1, e2, e3]
      exact Cert.Finite.pre_real m hpre c
    refine (θ_run (Cert.ReferenceIdeal.defs (F := Ideal)) _ _).mono (fun r h c => ?_) (Cert.RefValue.run_G m' ρ' hreal)
    obtain ⟨e0, e1, e2, e3⟩ := hagree c
    refine ⟨(h c).1.trans ?_, (h c).2⟩
    rw [e0, e1, e2, e3]

end Cert.Proof.Claims

end
-- ==== Proof.lean ====
/-
  The certificate: a program computing single-head softmax attention over 8192 positions of width 256 by a running
  maximum and rescaled running sums, block by block, against the reference that subtracts each row's true maximum.

  Both programs run without fault and leave their arguments unchanged; and on the extended reals, at arguments all
  of whose entries are real numbers, both result arrays hold, at (i, d),
    (Σ_j exp (s i j) · (x·wv) j d) / (Σ_j exp (s i j)),   s i j = (Σ_e (x·wq) i e · (x·wk) j e) · (1/16),
  because over the reals the softmax weights do not depend on the shift subtracted from the scores, and a running
  maximum with rescaling of the partial sums is one such shift applied blockwise. The side conditions the printed
  programs state are witnessed first; the five claims follow.
-/
import proofs.«146421_j33767032881830_2_alg».proof.Defs
import proofs.«146421_j33767032881830_2_alg».proof.Proof.Gen.Kernel
import proofs.«146421_j33767032881830_2_alg».proof.Proof.Gen.KernelIdeal
import proofs.«146421_j33767032881830_2_alg».proof.Proof.Gen.ReferenceIdeal
import proofs.«146421_j33767032881830_2_alg».proof.Proof.Gen.Pre_finite_inputs
import proofs.«146421_j33767032881830_2_alg».proof.Proof.Claims

noncomputable section

namespace Cert.Proof

/-- Every claim of the certificate holds, under the witnessed side conditions of its programs. -/
theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
